-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_sqrt_d" .f32 0x3DB504F3#32 ((1048576 / 11863283 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x2048 .f32) (main_arg5 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4x2048x2048 .f32) (main_arg1 : FVec F S2048x2048 .f32) (main_arg2 : FVec F S2048x2048 .f32) (main_arg3 : FVec F S2048x2048 .f32) (main_arg4 : FVec F S2048x2048 .f32) (main_arg5 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S1x512x128 : Shape := ⟨3, ![1, 512, 128]⟩
abbrev S512x1 : Shape := ⟨2, ![512, 1]⟩
abbrev S512x128 : Shape := ⟨2, ![512, 128]⟩
abbrev S512x512 : Shape := ⟨2, ![512, 512]⟩
abbrev S512 : Shape := ⟨1, ![512]⟩

abbrev nBuf : Space → Nat
  | .hbm => 23
  | .vmem => 32
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S8192x2048, .f32⟩
  | .hbm, ⟨7, _⟩ => ⟨S8192x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S1x2048, .f32⟩
  | .hbm, ⟨13, _⟩ => ⟨S8192x2048, .bf16⟩
  | .hbm, ⟨14, _⟩ => ⟨S8192x2048, .bf16⟩
  | .hbm, ⟨15, _⟩ => ⟨S8192x2048, .bf16⟩
  | .hbm, ⟨16, _⟩ => ⟨S4x2048x2048, .bf16⟩
  | .hbm, ⟨17, _⟩ => ⟨S4x2048x2048, .bf16⟩
  | .hbm, ⟨18, _⟩ => ⟨S4x2048x2048, .bf16⟩
  | .hbm, ⟨19, _⟩ => ⟨S4x2048x2048, .bf16⟩
  | .hbm, ⟨20, _⟩ => ⟨S8192x2048, .bf16⟩
  | .hbm, ⟨21, _⟩ => ⟨S8192x2048, .f32⟩
  | .hbm, ⟨22, _⟩ => ⟨S4x2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S2048x2048, .bf16⟩
  | .local _ .vmem, ⟨13, _⟩ => ⟨S512x2048, .bf16⟩
  | .local _ .vmem, ⟨14, _⟩ => ⟨S512x2048, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x128, .bf16⟩
  | .local _ .vmem, ⟨22, _⟩ => ⟨S1x512x128, .bf16⟩
  | .local _ .vmem, ⟨23, _⟩ => ⟨S512x1, .f32⟩
  | .local _ .vmem, ⟨24, _⟩ => ⟨S512x1, .f32⟩
  | .local _ .vmem, ⟨25, _⟩ => ⟨S512x128, .f32⟩
  | .local _ .vmem, ⟨26, _⟩ => ⟨S512x2048, .bf16⟩
  | .local _ .vmem, ⟨27, _⟩ => ⟨S512x2048, .bf16⟩
  | .local _ .vmem, ⟨28, _⟩ => ⟨S2048x2048, .bf16⟩
  | .local _ .vmem, ⟨29, _⟩ => ⟨S1x2048, .f32⟩
  | .local _ .vmem, ⟨30, _⟩ => ⟨S512x2048, .f32⟩
  | .local _ .vmem, ⟨31, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc3_scratch1 : Ref sig .tc := ⟨.vmem, 24, rfl⟩
abbrev cc3_scratch2 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨4, ![4, 16, 4, 4], ![false, false, false, false]⟩

def k3_cond3 (i : grid3.Coords) : BitVec 1 :=
  let arg3 : BitVec 32 := BitVec.ofNat 32 (i 3).val
  let c3_i32 : BitVec 32 := 3#32
  let v6 : BitVec 1 := Scalar.cmpi .eq arg3 c3_i32
  let v7 : BitVec 32 := Scalar.extui v6
  let c0_i32_2 : BitVec 32 := 0#32
  let v8 : BitVec 1 := Scalar.cmpi .ne v7 c0_i32_2
  v8

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage3_0 : Fin 2 → Memref sig .tc .vmem S1x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true, false]

abbrev stage3_1 : Fin 2 → Memref sig .tc .vmem S1x512x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false, true]

abbrev stage3_2 : Fin 2 → Memref sig .tc .vmem S1x512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false, true]

abbrev stage3_3 : Fin 2 → Memref sig .tc .vmem S1x512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x2048x2048_S8192x2048 : S4x2048x2048.ShapeCasts S8192x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  shapeCasts_S8192x2048_S4x2048x2048 : S8192x2048.ShapeCasts S4x2048x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x128 : S512x1.Broadcasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .bf16 = 32 ∨ (Rect.block (s := S8192x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .bf16 = 32 ∨ (Rect.block (s := S8192x2048) S512x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x2048.size a
  hwx2_0 : ∀ i : grid2.Coords, EltTy.bits .bf16 = 32 ∨ (Rect.block (s := S8192x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S8192x2048.size a
  hwx2_2 : ∀ i : grid2.Coords, EltTy.bits .bf16 = 32 ∨ (Rect.block (s := S8192x2048) S512x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x128.size a ≤ S4x2048x2048.size a
  hwx3_0 : ∀ i : grid3.Coords, EltTy.bits .bf16 = 32 ∨ (Rect.block (s := S4x2048x2048) S1x512x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x128.size a ≤ S4x2048x2048.size a
  hwx3_1 : ∀ i : grid3.Coords, EltTy.bits .bf16 = 32 ∨ (Rect.block (s := S4x2048x2048) S1x512x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x128.size a ≤ S4x2048x2048.size a
  hwx3_2 : ∀ i : grid3.Coords, EltTy.bits .bf16 = 32 ∨ (Rect.block (s := S4x2048x2048) S1x512x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x128.size a ≤ S4x2048x2048.size a
  hwx3_3 : ∀ i : grid3.Coords, EltTy.bits .bf16 = 32 ∨ (Rect.block (s := S4x2048x2048) S1x512x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S8192x2048.size a
  hwx4_0 : ∀ i : grid4.Coords, EltTy.bits .bf16 = 32 ∨ (Rect.block (s := S8192x2048) S512x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x2048.size a
  hwx4_1 : ∀ i : grid4.Coords, EltTy.bits .bf16 = 32 ∨ (Rect.block (s := S2048x2048) S2048x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S8192x2048.size a
  hwx4_3 : ∀ i : grid4.Coords, EltTy.bits .f32 = 32 ∨ (Rect.block (s := S8192x2048) S512x2048.size (cc4_transform_3 i) (hinb4_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S1x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x512x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x512x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond3 i == 1#1) | ⟨_ + 4, h⟩ => absurd h (Nat.not_lt.2 (Nat.le_add_left _ _))

abbrev win4_0 : Pipeline.Window sig grid4 :=
  Pipeline.Window.ofSpec (Memref.whole main_v14) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S2048x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v6) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v15) S512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S4x2048x16x128 : Shape := ⟨4, ![4, 2048, 16, 128]⟩
abbrev S4x16x2048x128 : Shape := ⟨4, ![4, 16, 2048, 128]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x16x128, .f32⟩
  | .hbm, ⟨10, _⟩ => ⟨S4x16x2048x128, .f32⟩
  | .hbm, ⟨11, _⟩ => ⟨S4x2048x16x128, .f32⟩
  | .hbm, ⟨12, _⟩ => ⟨S4x16x2048x128, .f32⟩
  | .hbm, ⟨13, _⟩ => ⟨S4x2048x16x128, .f32⟩
  | .hbm, ⟨14, _⟩ => ⟨S4x16x2048x128, .f32⟩
  | .hbm, ⟨15, _⟩ => ⟨S4x16x2048x2048, .f32⟩
  | .hbm, ⟨16, _⟩ => ⟨S_, .i1⟩
  | .hbm, ⟨17, _⟩ => ⟨S2048x2048, .i1⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .i1⟩
  | .hbm, ⟨25, _⟩ => ⟨S2048x2048, .i1⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S4x16x2048x2048, .i1⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048x2048, .f32⟩
  | .hbm, ⟨34, _⟩ => ⟨S4x16x2048x2048, .f32⟩
  | .hbm, ⟨35, _⟩ => ⟨S_, .f32⟩
  | .hbm, ⟨36, _⟩ => ⟨S4x16x2048, .f32⟩
  | .hbm, ⟨37, _⟩ => ⟨S_, .f32⟩
  | .hbm, ⟨38, _⟩ => ⟨S4x16x2048, .f32⟩
  | .hbm, ⟨39, _⟩ => ⟨S4x16x2048, .f32⟩
  | .hbm, ⟨40, _⟩ => ⟨S4x16x2048x1, .f32⟩
  | .hbm, ⟨41, _⟩ => ⟨S4x16x2048x2048, .f32⟩
  | .hbm, ⟨42, _⟩ => ⟨S4x16x2048x2048, .f32⟩
  | .hbm, ⟨43, _⟩ => ⟨S4x16x2048x2048, .f32⟩
  | .hbm, ⟨44, _⟩ => ⟨S_, .f32⟩
  | .hbm, ⟨45, _⟩ => ⟨S4x16x2048, .f32⟩
  | .hbm, ⟨46, _⟩ => ⟨S4x16x2048x1, .f32⟩
  | .hbm, ⟨47, _⟩ => ⟨S4x16x2048x2048, .f32⟩
  | .hbm, ⟨48, _⟩ => ⟨S4x16x2048x2048, .f32⟩
  | .hbm, ⟨49, _⟩ => ⟨S4x16x2048x128, .f32⟩
  | .hbm, ⟨50, _⟩ => ⟨S4x2048x16x128, .f32⟩
  | .hbm, ⟨51, _⟩ => ⟨S4x2048x2048, .f32⟩
  | .hbm, ⟨52, _⟩ => ⟨S4x2048x2048, .f32⟩
  | .hbm, ⟨53, _⟩ => ⟨S1x1x2048, .f32⟩
  | .hbm, ⟨54, _⟩ => ⟨S4x2048x2048, .f32⟩
  | .hbm, ⟨55, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v11 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]

class Facts₀ : Prop where
  shapeCasts_S4x2048x2048_S4x2048x16x128 : S4x2048x2048.ShapeCasts S4x2048x16x128
  transposes_S4x2048x16x128_S4x16x2048x128_0_2_1_3 : S4x2048x16x128.Transposes [0, 2, 1, 3] S4x16x2048x128
  bcast_S_S2048x2048 : S_.BroadcastsInDim S2048x2048 (![] : Fin 0 → Fin S2048x2048.rank)
  bcast_S2048x2048_S4x16x2048x2048_2_3 : S2048x2048.BroadcastsInDim S4x16x2048x2048 (![2, 3] : Fin 2 → Fin S4x16x2048x2048.rank)
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x128_S4x2048x16x128_0_2_1_3 : S4x16x2048x128.Transposes [0, 2, 1, 3] S4x2048x16x128
  shapeCasts_S4x2048x16x128_S4x2048x2048 : S4x2048x16x128.ShapeCasts S4x2048x2048
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []
  dot_S4x16x2048x128_S4x16x2048x128_S4x16x2048x2048_3_3_2_2_01_01_wf : DotDims.WF S4x16x2048x128 S4x16x2048x128 S4x16x2048x2048 [3] [3] [2] [2] [0, 1] [0, 1]
  dot_S4x16x2048x2048_S4x16x2048x128_S4x16x2048x128_3_2_2_3_01_01_wf : DotDims.WF S4x16x2048x2048 S4x16x2048x128 S4x16x2048x128 [3] [2] [2] [3] [0, 1] [0, 1]

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x16x2048x128_S4x16x2048x128_S4x16x2048x2048_3_3_2_2_01_01 : DotDims S4x16x2048x128 S4x16x2048x128 S4x16x2048x2048 where
  lhsContracting := [3]
  rhsContracting := [3]
  lhsNonContracting := [2]
  rhsNonContracting := [2]
  lhsBatch := [0, 1]
  rhsBatch := [0, 1]
  wf := dot_S4x16x2048x128_S4x16x2048x128_S4x16x2048x2048_3_3_2_2_01_01_wf
def dot_S4x16x2048x2048_S4x16x2048x128_S4x16x2048x128_3_2_2_3_01_01 : DotDims S4x16x2048x2048 S4x16x2048x128 S4x16x2048x128 where
  lhsContracting := [3]
  rhsContracting := [2]
  lhsNonContracting := [2]
  rhsNonContracting := [3]
  lhsBatch := [0, 1]
  rhsBatch := [0, 1]
  wf := dot_S4x16x2048x2048_S4x16x2048x128_S4x16x2048x128_3_2_2_3_01_01_wf

class Facts : Prop extends Facts₀ where

variable [Facts]
-- ==== Proof.K.Defs.lean ====
/-
  The proof data of the five kernel regions, stated once and shared by the modules that prove the bodies, run the
  program and read the values.  Regions 0, 1, 2 multiply a 512-row block of the activations by a whole weight matrix
  (contracting the second axis of both); region 4 does the same and adds a bias row; region 3 is the tiled causal
  attention: for a fixed batch, head and query tile it walks the four key/value tiles in order, keeping a running row
  maximum, a running sum of exponentials and a running weighted sum of values in three scratch buffers, skipping
  the tiles above the diagonal, and divides at the last tile.  What the scratch holds after each grid point is the
  recursion `st3`; the output tile is its quotient.
-/
import proofs.«137829_j2276332667508_2_alg».proof.Proof.Gen.Kernel.Launch
import proofs.«137829_j2276332667508_2_alg».proof.Proof.Gen.Kernel.Skeleton
import proofs.«137829_j2276332667508_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! ## The bodies' accesses: every load and store is of a whole buffer -/

abbrev rRow : Rect S512x2048 := Rect.unit (s := S512x2048) ![0, 0] S512x2048.size inb_S512x2048_S512x2048_0_0
abbrev rMat : Rect S2048x2048 := Rect.unit (s := S2048x2048) ![0, 0] S2048x2048.size inb_S2048x2048_S2048x2048_0_0
abbrev rBias : Rect S1x2048 := Rect.unit (s := S1x2048) ![0, 0] S1x2048.size inb_S1x2048_S1x2048_0_0
abbrev rTile : Rect S1x512x128 := Rect.unit (s := S1x512x128) ![0, 0, 0] S1x512x128.size inb_S1x512x128_S1x512x128_0_0_0
abbrev rCol : Rect S512x1 := Rect.unit (s := S512x1) ![0, 0] S512x1.size inb_S512x1_S512x1_0_0
abbrev rAcc : Rect S512x128 := Rect.unit (s := S512x128) ![0, 0] S512x128.size inb_S512x128_S512x128_0_0

/-! ## Region 0: a row block of the left factor times the whole transposed weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block's buffer: its one store over the two loaded blocks. -/
def out0_2 (x0 : Vec F S512x2048 .bf16) (x1 : Vec F S2048x2048 .bf16) : Vec F S512x2048 .bf16 :=
  View.canon [⟨rRow, k0_pay1 (View.ld x0 rRow) (View.ld x1 rMat)⟩]

/-- The proof data of pipeline 0 on core `c`: the arrays as the region finds them; after the body each input's buffer at
    its block and the output's at `out0_2` of the input blocks; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 1: a row block of the left factor times the whole transposed weight matrix -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output block's buffer: its one store over the two loaded blocks. -/
def out1_2 (x0 : Vec F S512x2048 .bf16) (x1 : Vec F S2048x2048 .bf16) : Vec F S512x2048 .bf16 :=
  View.canon [⟨rRow, k1_pay1 (View.ld x0 rRow) (View.ld x1 rMat)⟩]

/-- The proof data of pipeline 1 on core `c`: the arrays as the region finds them; after the body each input's buffer at
    its block and the output's at `out1_2` of the input blocks; the scoped rest and the generator register untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-! ## Region 2: a row block of the left factor times the whole transposed weight matrix -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output block's buffer: its one store over the two loaded blocks. -/
def out2_2 (x0 : Vec F S512x2048 .bf16) (x1 : Vec F S2048x2048 .bf16) : Vec F S512x2048 .bf16 :=
  View.canon [⟨rRow, k2_pay1 (View.ld x0 rRow) (View.ld x1 rMat)⟩]

/-- The proof data of pipeline 2 on core `c`: the arrays as the region finds them; after the body each input's buffer at
    its block and the output's at `out2_2` of the input blocks; the scoped rest and the generator register untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-! ## Region 4: the same product plus a bias row -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output block's buffer: its one store over the three loaded blocks. -/
def out4_3 (x0 : Vec F S512x2048 .bf16) (x1 : Vec F S2048x2048 .bf16) (x2 : Vec F S1x2048 .f32) : Vec F S512x2048 .f32 :=
  View.canon [⟨rRow, k4_pay1 (View.ld x0 rRow) (View.ld x1 rMat) (View.ld x2 rBias)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-! ## Region 3: the tiled attention -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The body's three branch conditions, from the grid coordinates (the skeleton's scalar chains): the key tile is the
    first one; the key tile is not above the query tile; the key tile is the last one. -/
abbrev cond3_0 (i : grid3.Coords) : Prop := (Scalar.cmpi .ne (Scalar.extui (Scalar.cmpi .eq (BitVec.ofNat 32 (i 3).val) 0#32)) 0#32) = 1#1
abbrev cond3_1 (i : grid3.Coords) : Prop := (Scalar.cmpi .ne (Scalar.extui (Scalar.cmpi .sle (BitVec.ofNat 32 (i 3).val) (BitVec.ofNat 32 (i 2).val))) 0#32) = 1#1
abbrev cond3_2 (i : grid3.Coords) : Prop := k3_cond3 i = 1#1

/-- The three scratch buffers' contents: running row maximum, running sum of exponentials, running weighted values. -/
abbrev St3 (F : FTy → Type) [FloatOps F] : Type := Vec F S512x1 .f32 × Vec F S512x1 .f32 × Vec F S512x128 .f32

/-- The reset the first key tile makes (or none). -/
def reset3 (i : grid3.Coords) (s : St3 F) : St3 F :=
  if cond3_0 i then (k3_pay1 (F := F), k3_pay2 (F := F), k3_pay3 (F := F)) else s

/-- One grid point's effect on the scratch: the reset at the first key tile, then, unless the key tile lies above
    the query tile, the online-softmax update with the point's query, key and value tiles. -/
def step3 (i : grid3.Coords) (q k v : Vec F S1x512x128 .bf16) (s : St3 F) : St3 F :=
  if cond3_1 i then
    (k3_pay5 (k3_pay9 (BitVec.ofNat 32 (i 2).val) (BitVec.ofNat 32 (i 3).val) q k (reset3 i s).1),
     k3_pay12 (BitVec.ofNat 32 (i 2).val) (BitVec.ofNat 32 (i 3).val) q k (reset3 i s).1 (reset3 i s).2.1,
     k3_pay4 (k3_pay7 v) (k3_pay10 (BitVec.ofNat 32 (i 2).val) (BitVec.ofNat 32 (i 3).val) q k (reset3 i s).1)
       (k3_pay11 (BitVec.ofNat 32 (i 2).val) (BitVec.ofNat 32 (i 3).val) q k (reset3 i s).1) (reset3 i s).2.2)
  else reset3 i s

/-- What the scratch holds after the body at position `n`, by recursion on the position (the seed at position 0 is
    never read: the first point resets). -/
def st3 (c : Dev nD) : (n : ℕ) → n < cfg3.N → St3 F
  | 0, hn => step3 (grid3.coords ⟨0, hn⟩) (iblk3 V c 0 ⟨0, hn⟩) (iblk3 V c 1 ⟨0, hn⟩) (iblk3 V c 2 ⟨0, hn⟩)
      (k3_pay1 (F := F), k3_pay2 (F := F), k3_pay3 (F := F))
  | n + 1, hn => step3 (grid3.coords ⟨n + 1, hn⟩) (iblk3 V c 0 ⟨n + 1, hn⟩) (iblk3 V c 1 ⟨n + 1, hn⟩) (iblk3 V c 2 ⟨n + 1, hn⟩)
      (st3 c n (Nat.lt_of_succ_lt hn))

/-- What the last key tile stores into the output tile's buffer: the quotient of the scratch. -/
def out3 (s : St3 F) : Vec F S1x512x128 .bf16 :=
  View.canon [⟨rTile, k3_pay6 s.2.2 s.2.1⟩]

/-- The scratch operands as memrefs. -/
abbrev scM3_0 : Memref sig .tc .vmem S512x1 .f32 := Memref.whole cc3_scratch0
abbrev scM3_1 : Memref sig .tc .vmem S512x1 .f32 := Memref.whole cc3_scratch1
abbrev scM3_2 : Memref sig .tc .vmem S512x128 .f32 := Memref.whole cc3_scratch2

/-- The other regions' staging buffers, each whole at some contents: what rides along region 3 unread. -/
def Others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc4_stg0_0), ((c : Thread nD τ).loc cc4_stg0_0) ↦{fullShare} f)
    ∗ (∃ f : Buf (Elt F) ((c : Thread nD τ).loc cc4_stg0_1), ((c : Thread nD τ).loc cc4_stg0_1) ↦{fullShare} f)
    ∗ (∃ f : Buf (Elt F) ((c : Thread nD τ).loc cc4_stg1_0), ((c : Thread nD τ).loc cc4_stg1_0) ↦{fullShare} f)
    ∗ (∃ f : Buf (Elt F) ((c : Thread nD τ).loc cc4_stg2_0), ((c : Thread nD τ).loc cc4_stg2_0) ↦{fullShare} f)
    ∗ (∃ f : Buf (Elt F) ((c : Thread nD τ).loc cc4_stg3_0), ((c : Thread nD τ).loc cc4_stg3_0) ↦{fullShare} f)
    ∗ (∃ f : Buf (Elt F) ((c : Thread nD τ).loc cc4_stg3_1), ((c : Thread nD τ).loc cc4_stg3_1) ↦{fullShare} f))

/-- The region invariant before position `n`: before the first point what the launch hands over; afterwards the three
    scratch buffers at what the point before left, the other scoped buffers at anything, the generator register at
    some state. -/
def PhiS3 (c : Dev nD) : (n : ℕ) → n ≤ cfg3.N → sProp 𝕄
  | 0, _ => Pipeline.ΦA spec3 c
  | n + 1, hn => iprop(owns (c : Thread nD τ) scM3_0 fullShare (st3 V c n hn).1
      ∗ owns (c : Thread nD τ) scM3_1 fullShare (st3 V c n hn).2.1
      ∗ owns (c : Thread nD τ) scM3_2 fullShare (st3 V c n hn).2.2
      ∗ Others3 c ∗ (∃ r, prngReg c r))

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (st3 V c t.val t.isLt)
  Φ t := PhiS3 V c t.val (Nat.le_of_lt_succ t.isLt)
  q _ := fullShare
  owed _ := 0

end Cert.Kernel.Hand

end
-- ==== Proof.K.ProjBody.lean ====
/-
  The body obligations of the four matrix-product regions.  Each body loads its input blocks whole, multiplies
  (contracting the second axis of both factors; region 4 adds the bias row), and stores the result over the whole
  output block.  So after the body every input buffer still holds its block and the output buffer holds the one
  store's payload, whatever it held before: `outK_w` of the input blocks.  An input window that is not fetched at a
  point still holds its block there, because its block index has not moved since it was.
-/
import proofs.«137829_j2276332667508_2_alg».proof.Proof.K.Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Input window 0's current buffer holds its block at every point, fetched there or not, for any proof data whose
    array is the entry contents and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1, the weight matrix, fetched at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole block, so it covers it. -/
theorem cover0_2 (p0 : Vec F S512x2048 .bf16) (y : S512x2048.Idx) :
    ∃ pc ∈ ([⟨rRow, p0⟩] : List (View.Piece (Elt F) S512x2048 .bf16)), y ∈ pc.1.set :=
  View.cover_of_tiled [⟨rRow, p0⟩] S512x2048.size (by rfl) y

set_option maxHeartbeats 1000000 in
/-- The body on whole memrefs, the inputs' at read contents `x0`, `x1` and the output's at anything, runs to the
    continuation holding the inputs' as they were and the output's at `out0_2 x0 x1`. -/
theorem sound_kernel0 (c : Dev nD) (E : Set ℕ) (i : grid0.Coords) (arg0 : Memref sig .tc .vmem S512x2048 .bf16) (harg0 : arg0.IsWhole) (arg1 : Memref sig .tc .vmem S2048x2048 .bf16) (harg1 : arg1.IsWhole) (arg2 : Memref sig .tc .vmem S512x2048 .bf16) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Input window 0's current buffer holds its block at every point, fetched there or not, for any proof data whose
    array is the entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1, the weight matrix, fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole block, so it covers it. -/
theorem cover1_2 (p0 : Vec F S512x2048 .bf16) (y : S512x2048.Idx) :
    ∃ pc ∈ ([⟨rRow, p0⟩] : List (View.Piece (Elt F) S512x2048 .bf16)), y ∈ pc.1.set :=
  View.cover_of_tiled [⟨rRow, p0⟩] S512x2048.size (by rfl) y

set_option maxHeartbeats 1000000 in
/-- The body on whole memrefs, the inputs' at read contents `x0`, `x1` and the output's at anything, runs to the
    continuation holding the inputs' as they were and the output's at `out1_2 x0 x1`. -/
theorem sound_kernel1 (c : Dev nD) (E : Set ℕ) (i : grid1.Coords) (arg0 : Memref sig .tc .vmem S512x2048 .bf16) (harg0 : arg0.IsWhole) (arg1 : Memref sig .tc .vmem S2048x2048 .bf16) (harg1 : arg1.IsWhole) (arg2 : Memref sig .tc .vmem S512x2048 .bf16) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__matmul_kernel i arg0 harg0 arg1 harg1 arg2 harg2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 -/

/-- Input window 0's current buffer holds its block at every point, fetched there or not, for any proof data whose
    array is the entry contents and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1, the weight matrix, fetched at the first point only. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one store is of the whole block, so it covers it. -/
theorem cover2_2 (p0 : Vec F S512x2048 .bf16) (y : S512x2048.Idx) :
    ∃ pc ∈ ([⟨rRow, p0⟩] : List (View.Piece (Elt F) S512x2048 .bf16)), y ∈ pc.1.set :=
  View.cover_of_tiled [⟨rRow, p0⟩] S512x2048.size (by rfl) y

set_option maxHeartbeats 1000000 in
/-- The body on whole memrefs, the inputs' at read contents `x0`, `x1` and the output's at anything, runs to the
    continuation holding the inputs' as they were and the output's at `out2_2 x0 x1`. -/
theorem sound_kernel2 (c : Dev nD) (E : Set ℕ) (i : grid2.Coords) (arg0 : Memref sig .tc .vmem S512x2048 .bf16) (harg0 : arg0.IsWhole) (arg1 : Memref sig .tc .vmem S2048x2048 .bf16) (harg1 : arg1.IsWhole) (arg2 : Memref sig .tc .vmem S512x2048 .bf16) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 4 -/

/-- Input window 0's current buffer holds its block at every point, fetched there or not, for any proof data whose
    array is the entry contents and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same of input window 1, the weight matrix, fetched at the first point only. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same of input window 2, the bias row, fetched at the first point only. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The one store is of the whole block, so it covers it. -/
theorem cover4_3 (p0 : Vec F S512x2048 .f32) (y : S512x2048.Idx) :
    ∃ pc ∈ ([⟨rRow, p0⟩] : List (View.Piece (Elt F) S512x2048 .f32)), y ∈ pc.1.set :=
  View.cover_of_tiled [⟨rRow, p0⟩] S512x2048.size (by rfl) y

set_option maxHeartbeats 1000000 in
/-- The body on whole memrefs, the inputs' at read contents `x0`, `x1`, `x2` and the output's at anything, runs to
    the continuation holding the inputs' as they were and the output's at `out4_3 x0 x1 x2`. -/
theorem sound_kernel4 (c : Dev nD) (E : Set ℕ) (i : grid4.Coords) (arg0 : Memref sig .tc .vmem S512x2048 .bf16) (harg0 : arg0.IsWhole) (arg1 : Memref sig .tc .vmem S2048x2048 .bf16) (harg1 : arg1.IsWhole) (arg2 : Memref sig .tc .vmem S1x2048 .f32) (harg2 : arg2.IsWhole) (arg3 : Memref sig .tc .vmem S512x2048 .f32) (harg3 : arg3.IsWhole)
    (x0 : Vec F S512x2048 .bf16) (x1 : Vec F S2048x2048 .bf16) (x2 : Vec F S1x2048 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__matmul_bias_kernel i arg0 harg0 arg1 harg1 arg2 harg2 arg3 harg3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.AttnKernel.lean ====
/-
  The attention body's triple.  On any whole staging memrefs holding the query, key and value tiles and an output
  tile, and the three scratch buffers at any contents, the body runs to a continuation that holds the inputs as they
  were, the scratch at one step of the online-softmax recursion (`step3`), and the output tile at the quotient of the
  new scratch when the key tile is the last one, untouched otherwise.  The three branch conditions are decided case by
  case; in each case the body is run symbolically and what it leaves in each buffer is compared with the recursion.
-/
import proofs.«137829_j2276332667508_2_alg».proof.Proof.K.Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Whole-buffer accesses -/

/-- The offsets of every access of the body are zero (rank two: the scratch buffers). -/
theorem attnK_hz2 : (![0, 0] : Fin 2 → Nat) = fun _ => 0 := funext fun a => by fin_cases a <;> rfl
/-- The same at rank three (the query, key, value and output tiles). -/
theorem attnK_hz3 : (![0, 0, 0] : Fin 3 → Nat) = fun _ => 0 := funext fun a => by fin_cases a <;> rfl

/-- After a store through the whole-shape rectangle at zero offsets, made last, the buffer reads that store's payload,
    whatever the view, the earlier stores and the earlier contents. -/
theorem attnK_read_writes_cons_unit_zero {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-! ## The eight cases of the three branch conditions -/

set_option maxHeartbeats 1000000 in
/-- The body's triple where the key tile is the first, not above the query tile, the last. -/
theorem sound_kernel3_yyy (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : cond3_0 i) (hc1 : cond3_1 i) (hc2 : cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [H7]
  · iexists _; isplitr
    rotate_left
    · iexact H7
    · ipureintro
      sl_unfold_words
      rw [attnK_read_writes_cons_unit_zero (S := S1x512x128) _ _ attnK_hz3]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]

set_option maxHeartbeats 1000000 in
/-- The body's triple where the key tile is the first, not above the query tile, not the last. -/
theorem sound_kernel3_yyn (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : cond3_0 i) (hc1 : cond3_1 i) (hc2 : ¬cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [H7]
  · iexists _; isplitr
    rotate_left
    · iexact H7
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]

set_option maxHeartbeats 1000000 in
/-- The body's triple where the key tile is the first, above the query tile, the last. -/
theorem sound_kernel3_yny (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : cond3_0 i) (hc1 : ¬cond3_1 i) (hc2 : cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [H7]
  · iexists _; isplitr
    rotate_left
    · iexact H7
    · ipureintro
      sl_unfold_words
      rw [attnK_read_writes_cons_unit_zero (S := S1x512x128) _ _ attnK_hz3]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]

set_option maxHeartbeats 1000000 in
/-- The body's triple where the key tile is the first, above the query tile, not the last. -/
theorem sound_kernel3_ynn (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : cond3_0 i) (hc1 : ¬cond3_1 i) (hc2 : ¬cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [H7]
  · iexists _; isplitr
    rotate_left
    · iexact H7
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]

set_option maxHeartbeats 1000000 in
/-- The body's triple where the key tile is not the first, not above the query tile, the last. -/
theorem sound_kernel3_nyy (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : ¬cond3_0 i) (hc1 : cond3_1 i) (hc2 : cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [H7]
  · iexists _; isplitr
    rotate_left
    · iexact H7
    · ipureintro
      sl_unfold_words
      rw [attnK_read_writes_cons_unit_zero (S := S1x512x128) _ _ attnK_hz3]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]

set_option maxHeartbeats 1000000 in
/-- The body's triple where the key tile is not the first, not above the query tile, not the last. -/
theorem sound_kernel3_nyn (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : ¬cond3_0 i) (hc1 : cond3_1 i) (hc2 : ¬cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [H7]
  · iexists _; isplitr
    rotate_left
    · iexact H7
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]

set_option maxHeartbeats 1000000 in
/-- The body's triple where the key tile is not the first, above the query tile, the last. -/
theorem sound_kernel3_nny (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : ¬cond3_0 i) (hc1 : ¬cond3_1 i) (hc2 : cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [H7]
  · iexists _; isplitr
    rotate_left
    · iexact H7
    · ipureintro
      sl_unfold_words
      rw [attnK_read_writes_cons_unit_zero (S := S1x512x128) _ _ attnK_hz3]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [S0]
  · iexists _; isplitr
    rotate_left
    · iexact S0
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [S1]
  · iexists _; isplitr
    rotate_left
    · iexact S1
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  · iexists _; isplitr
    rotate_left
    · iexact S2
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]

set_option maxHeartbeats 1000000 in
/-- The body's triple where the key tile is not the first, above the query tile, not the last. -/
theorem sound_kernel3_nnn (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : ¬cond3_0 i) (hc1 : ¬cond3_1 i) (hc2 : ¬cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [H7]
  · iexists _; isplitr
    rotate_left
    · iexact H7
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [S0]
  · iexists _; isplitr
    rotate_left
    · iexact S0
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [S1]
  · iexists _; isplitr
    rotate_left
    · iexact S1
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  · iexists _; isplitr
    rotate_left
    · iexact S2
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]

/-! ## The body's triple -/

/-- The attention body on any whole staging memrefs and any scratch contents: it leaves the inputs as they were, the
    scratch at one step of the recursion, and the output tile at the quotient of the new scratch when the key tile is
    the last one (untouched otherwise).  The three conditions are decided; each combination is one of the cases above. -/
theorem sound_kernel3 (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  by_cases hc0 : cond3_0 i
  · by_cases hc1 : cond3_1 i
    · by_cases hc2 : cond3_2 i
      · exact sound_kernel3_yyy c E i arg4 harg4 arg5 harg5 arg6 harg6 arg7 harg7 hc0 hc1 hc2 q k v o s K
      · exact sound_kernel3_yyn c E i arg4 harg4 arg5 harg5 arg6 harg6 arg7 harg7 hc0 hc1 hc2 q k v o s K
    · by_cases hc2 : cond3_2 i
      · exact sound_kernel3_yny c E i arg4 harg4 arg5 harg5 arg6 harg6 arg7 harg7 hc0 hc1 hc2 q k v o s K
      · exact sound_kernel3_ynn c E i arg4 harg4 arg5 harg5 arg6 harg6 arg7 harg7 hc0 hc1 hc2 q k v o s K
  · by_cases hc1 : cond3_1 i
    · by_cases hc2 : cond3_2 i
      · exact sound_kernel3_nyy c E i arg4 harg4 arg5 harg5 arg6 harg6 arg7 harg7 hc0 hc1 hc2 q k v o s K
      · exact sound_kernel3_nyn c E i arg4 harg4 arg5 harg5 arg6 harg6 arg7 harg7 hc0 hc1 hc2 q k v o s K
    · by_cases hc2 : cond3_2 i
      · exact sound_kernel3_nny c E i arg4 harg4 arg5 harg5 arg6 harg6 arg7 harg7 hc0 hc1 hc2 q k v o s K
      · exact sound_kernel3_nnn c E i arg4 harg4 arg5 harg5 arg6 harg6 arg7 harg7 hc0 hc1 hc2 q k v o s K

end Cert.Kernel.Hand

end
-- ==== Proof.K.AttnBody.lean ====
/-
  The body obligation of region 3, the tiled causal attention.  At every grid point the body is handed the three
  input tiles (query, key, value) at their blocks, the output tile's buffer at whatever it holds, and the three
  scratch buffers at what the point before left (at anything, at the first point); it leaves the inputs in place,
  the scratch at one more step of the recursion `st3`, and the output tile at the quotient of the scratch when the
  key tile is the last one, untouched otherwise.  The invariant between points is `PhiS3`.
-/
import proofs.«137829_j2276332667508_2_alg».proof.Proof.K.Defs
import proofs.«137829_j2276332667508_2_alg».proof.Proof.K.AttnKernel

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions in closed form, and where the output window is idle -/

/-- The key tile is the first one at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The key tile is not above the query tile where the key index is at most the query index. -/
theorem hcond3_1 : ∀ t : Fin cfg3.N, cond3_1 (grid3.coords t) ↔ t.val % 4 ≤ t.val / 4 % 4 :=
  (by decide +kernel : ∀ t : Fin grid3.N, cond3_1 (grid3.coords t) ↔ t.val % 4 ≤ t.val / 4 % 4)

/-- The key tile is the last one at the points ≡ 3 (mod 4). -/
theorem hcond3_2 : ∀ t : Fin cfg3.N, cond3_2 (grid3.coords t) ↔ t.val % 4 = 3 :=
  (by decide +kernel : ∀ t : Fin grid3.N, cond3_2 (grid3.coords t) ↔ t.val % 4 = 3)

/-- The input windows are never idle. -/
theorem liveAt3_0 (i : grid3.Coords) : cfg3.idle 0 i = false := rfl
theorem liveAt3_1 (i : grid3.Coords) : cfg3.idle 1 i = false := rfl
theorem liveAt3_2 (i : grid3.Coords) : cfg3.idle 2 i = false := rfl

/-- The output window is live exactly where the last-key-tile branch is taken. -/
theorem liveAt3_3 (i : grid3.Coords) (h : cond3_2 i) : cfg3.idle 3 i = false := by
  show (!(k3_cond3 i == 1#1)) = false
  rw [show k3_cond3 i = 1#1 from h]; rfl

theorem idleAt3_3 (i : grid3.Coords) (h : ¬cond3_2 i) : cfg3.idle 3 i = true := by
  show (!(k3_cond3 i == 1#1)) = true
  rw [Bool.not_eq_true', beq_eq_false_iff_ne]; exact h

/-- Where that branch is not taken the pipeline does not write the output block back. -/
theorem noFlush3_3 (t : Fin cfg3.N) (h : ¬cond3_2 (grid3.coords t)) : (cfg3.win 3).flush t = false := by
  rw [← Bool.not_eq_true]; intro hf
  exact h ((hcond3_2 t).mpr ((flush3_3 t).mp hf))

/-! ## The invariant the launch hands over, with the scratch buffers named -/

/-- What the launch hands the region: the three scratch buffers at some contents, the other regions' staging
    buffers, the generator register. -/
theorem PhiA3_split (c : Dev nD) :
    (Pipeline.ΦA spec3 c : sProp 𝕄)
      ⊢ iprop((∃ d0, owns (c : Thread nD τ) scM3_0 fullShare d0) ∗ (∃ d1, owns (c : Thread nD τ) scM3_1 fullShare d1)
          ∗ (∃ d2, owns (c : Thread nD τ) scM3_2 fullShare d2) ∗ Others3 (F := F) c ∗ (∃ r, prngReg c r)) := by
  unfold Pipeline.ΦA; rw [scopedRest3_eq]; unfold Others3; simp only [owns_whole]
  iintro ⟨⟨A0, A1, A2, A3, A4, A5, A6, A7, A8, A9, A10, A11, A12, A13, A14, S0, S1, S2, B0, B1, B2, B3, B4, B5⟩, Hg⟩
  iframe

/-- And back: the scratch contents forgotten. -/
theorem PhiA3_join (c : Dev nD) :
    iprop((∃ d0, owns (c : Thread nD τ) scM3_0 fullShare d0) ∗ (∃ d1, owns (c : Thread nD τ) scM3_1 fullShare d1)
          ∗ (∃ d2, owns (c : Thread nD τ) scM3_2 fullShare d2) ∗ Others3 (F := F) c ∗ (∃ r, prngReg c r))
      ⊢ (Pipeline.ΦA spec3 c : sProp 𝕄) := by
  unfold Pipeline.ΦA; rw [scopedRest3_eq]; unfold Others3; simp only [owns_whole]
  iintro ⟨S0, S1, S2, ⟨A0, A1, A2, A3, A4, A5, A6, A7, A8, A9, A10, A11, A12, A13, A14, B0, B1, B2, B3, B4, B5⟩, Hg⟩
  iframe

/-! ## The proof data read off -/

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 (st3 V c t.val t.isLt) := by dsimp only [dat3]

/-- Each input's current staging buffer holds its block at every point, fetched there or not (an unfetched input's
    block index has not moved). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The scratch recursion, one step at a time -/

/-- Under the first-key-tile condition the step forgets what the scratch held. -/
theorem step3_of_reset (i : grid3.Coords) (h : cond3_0 i) (q k v : Vec F S1x512x128 .bf16) (s s' : St3 F) :
    step3 i q k v s = step3 i q k v s' := by
  unfold step3 reset3; rw [if_pos h, if_pos h]

/-- At the first point the scratch ends at one step from anything. -/
theorem st3_zero (c : Dev nD) (t : Fin cfg3.N) (hz : t.val = 0) (s : St3 F) :
    st3 V c t.val t.isLt = step3 (grid3.coords t) (iblk3 V c 0 t) (iblk3 V c 1 t) (iblk3 V c 2 t) s := by
  obtain ⟨n, hn⟩ := t
  cases n with
  | zero => exact step3_of_reset _ ((hcond3_0 ⟨0, hn⟩).mpr (Nat.zero_mod _)) _ _ _ _ _
  | succ n => exact absurd hz (Nat.succ_ne_zero n)

/-- At a later point, at one step from what the point before left. -/
theorem st3_pos (c : Dev nD) (t : Fin cfg3.N) (hz : t.val ≠ 0) :
    st3 V c t.val t.isLt = step3 (grid3.coords t) (iblk3 V c 0 t) (iblk3 V c 1 t) (iblk3 V c 2 t)
      (st3 V c (t.val - 1) (Nat.lt_of_le_of_lt (Nat.sub_le _ _) t.isLt)) := by
  obtain ⟨n, hn⟩ := t
  cases n with
  | zero => exact absurd rfl hz
  | succ n => rfl

/-! ## The invariant, position by position -/

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3_0 fullShare (st3 V c n hn).1
      ∗ owns (c : Thread nD τ) scM3_1 fullShare (st3 V c n hn).2.1
      ∗ owns (c : Thread nD τ) scM3_2 fullShare (st3 V c n hn).2.2
      ∗ Others3 c ∗ (∃ r, prngReg c r)) := rfl

theorem PhiS3_pos (c : Dev nD) (n : ℕ) (h : n ≤ cfg3.N) (hz : n ≠ 0) :
    PhiS3 V c n h = iprop(owns (c : Thread nD τ) scM3_0 fullShare (st3 V c (n - 1) (by omega)).1
      ∗ owns (c : Thread nD τ) scM3_1 fullShare (st3 V c (n - 1) (by omega)).2.1
      ∗ owns (c : Thread nD τ) scM3_2 fullShare (st3 V c (n - 1) (by omega)).2.2
      ∗ Others3 c ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

/-! ## The invariant's two ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  refine BIBase.Entails.trans ?_ (PhiA3_join c)
  iintro ⟨HS0, HS1, HS2, Hoth, Hg⟩
  isplitl [HS0]; · iexists _; iexact HS0
  isplitl [HS1]; · iexists _; iexact HS1
  isplitl [HS2]; · iexists _; iexact HS2
  isplitl [Hoth]; · iexact Hoth
  iexact Hg

/-- The same after the last point. -/
theorem hout3 (c : Dev nD) : (dat3 V c).Φ (Fin.last cfg3.N) ⊢ Pipeline.ΦA spec3 c :=
  Phi_out3 V c _ (by rw [Fin.val_last]; have : cfg3.N = 1024 := N_3; omega)

/-! ## The body's triple, by whether the key tile is the last one -/

/-- At the last key tile the output tile's buffer ends at the quotient of the new scratch. -/
theorem kernel3_last (c : Dev nD) (E : Set ℕ) (i : grid3.Coords) (h2 : cond3_2 i)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare o
        ∗ owns (c : Thread nD τ) scM3_0 fullShare s.1 ∗ owns (c : Thread nD τ) scM3_1 fullShare s.2.1 ∗ owns (c : Thread nD τ) scM3_2 fullShare s.2.2
        ∗ (iprop(owns (c : Thread nD τ) arg4 fullShare q ∗ owns (c : Thread nD τ) arg5 fullShare k ∗ owns (c : Thread nD τ) arg6 fullShare v
            ∗ owns (c : Thread nD τ) arg7 fullShare (out3 (step3 i q k v s))
            ∗ owns (c : Thread nD τ) scM3_0 fullShare (step3 i q k v s).1 ∗ owns (c : Thread nD τ) scM3_1 fullShare (step3 i q k v s).2.1
            ∗ owns (c : Thread nD τ) scM3_2 fullShare (step3 i q k v s).2.2) -∗ K ⟨⟩))
      ⊢ wp frame (wpE (defs₀ (F := F)) Variants.none c none) E
          (cc3__flash_attn_kernel i arg4 harg4 arg5 harg5 arg6 harg6 arg7 harg7 scM3_0 (Memref.isWhole_whole _) scM3_1 (Memref.isWhole_whole _) scM3_2 (Memref.isWhole_whole _)) K := by
  have h := sound_kernel3 c E i arg4 harg4 arg5 harg5 arg6 harg6 arg7 harg7 q k v o s K
  rw [if_pos h2] at h
  exact h

/-- Elsewhere it is left as found. -/
theorem kernel3_idle (c : Dev nD) (E : Set ℕ) (i : grid3.Coords) (h2 : ¬cond3_2 i)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare o
        ∗ owns (c : Thread nD τ) scM3_0 fullShare s.1 ∗ owns (c : Thread nD τ) scM3_1 fullShare s.2.1 ∗ owns (c : Thread nD τ) scM3_2 fullShare s.2.2
        ∗ (iprop(owns (c : Thread nD τ) arg4 fullShare q ∗ owns (c : Thread nD τ) arg5 fullShare k ∗ owns (c : Thread nD τ) arg6 fullShare v
            ∗ owns (c : Thread nD τ) arg7 fullShare o
            ∗ owns (c : Thread nD τ) scM3_0 fullShare (step3 i q k v s).1 ∗ owns (c : Thread nD τ) scM3_1 fullShare (step3 i q k v s).2.1
            ∗ owns (c : Thread nD τ) scM3_2 fullShare (step3 i q k v s).2.2) -∗ K ⟨⟩))
      ⊢ wp frame (wpE (defs₀ (F := F)) Variants.none c none) E
          (cc3__flash_attn_kernel i arg4 harg4 arg5 harg5 arg6 harg6 arg7 harg7 scM3_0 (Memref.isWhole_whole _) scM3_1 (Memref.isWhole_whole _) scM3_2 (Memref.isWhole_whole _)) K := by
  have h := sound_kernel3 c E i arg4 harg4 arg5 harg5 arg6 harg6 arg7 harg7 q k v o s K
  rw [if_neg h2] at h
  exact h

/-! ## The body obligation, at a generic point -/

/-- Each window's current staging memref at point `t`, as the pipeline passes it, and its wholeness. -/
abbrev ms3_0 (t : Fin cfg3.N) : Memref sig .tc .vmem S1x512x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512x128 .bf16 := win3_3.stage (cfg3.slots t 3)
abbrev hs3_3 (t : Fin cfg3.N) : (ms3_3 t).IsWhole := hstage3_3 ((cfg3.slots t 3).cast nbuf3_3)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at a point whose scratch holds `s`, one step of which is the recursion's value there: the inputs hold
    their blocks; the triple runs; the scratch comes back at the recursion's value, the output tile at its quotient
    when the key tile is the last one and as found otherwise; the core owes nothing throughout. -/
theorem sound_core3 (c : Dev nD) (t : Fin cfg3.N) (s : St3 F)
    (hs : st3 V c t.val t.isLt = step3 (grid3.coords t) (iblk3 V c 0 t) (iblk3 V c 1 t) (iblk3 V c 2 t) s) :
    iprop(iprop(owns (c : Thread nD τ) scM3_0 fullShare s.1 ∗ owns (c : Thread nD τ) scM3_1 fullShare s.2.1
        ∗ owns (c : Thread nD τ) scM3_2 fullShare s.2.2 ∗ Others3 (F := F) c ∗ (∃ r, prngReg c r))
      ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d)))
      ⊢ wp frame (wpE (defs₀ (F := F)) Variants.none c none) Set.univ (bodyAt3 t) (fun _ => bodyPost3 V c t) := by
  unfold bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0], after3_0]
  rw [show (dat3 V c).leavesExact 1 t = owns (c : Thread nD τ) (ms3_1 t) fullShare ((dat3 V c).after 1 t) from by
    unfold Dat.leavesExact; rw [liveAt3_1], after3_1]
  rw [show (dat3 V c).leavesExact 2 t = owns (c : Thread nD τ) (ms3_2 t) fullShare ((dat3 V c).after 2 t) from by
    unfold Dat.leavesExact; rw [liveAt3_2], after3_2]
  by_cases h2 : cond3_2 (grid3.coords t)
  · rw [show (dat3 V c).leavesExact 3 t = owns (c : Thread nD τ) (ms3_3 t) fullShare ((dat3 V c).after 3 t) from by
      unfold Dat.leavesExact; rw [liveAt3_3 _ h2], after3_3]
    rw [hs]
    iintro ⟨⟨HS0, HS1, HS2, Hoth, Hg⟩, Ho, ⟨%d0, H0⟩, ⟨%d1, H1⟩, ⟨%d2, H2⟩, ⟨%d3, H3⟩⟩
    iapply (kernel3_last c Set.univ (grid3.coords t) h2 _ _ _ _ _ _ _ _ (iblk3 V c 0 t) (iblk3 V c 1 t) (iblk3 V c 2 t) _ s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 Hoth Hg]
    · isplitl [HS0]; · iexact HS0
      isplitl [HS1]; · iexact HS1
      isplitl [HS2]; · iexact HS2
      isplitl [Hoth]; · iexact Hoth
      iexact Hg
    isplitl [Ho]; · iexact Ho
    isplitl [H0]; · iexact H0
    isplitl [H1]; · iexact H1
    isplitl [H2]; · iexact H2
    iexact H3
  · rw [Dat.leavesExact_idle (dat3 V c) 3 t (idleAt3_3 _ h2) (noFlush3_3 t h2)]
    rw [hs]
    iintro ⟨⟨HS0, HS1, HS2, Hoth, Hg⟩, Ho, ⟨%d0, H0⟩, ⟨%d1, H1⟩, ⟨%d2, H2⟩, ⟨%d3, H3⟩⟩
    iapply (kernel3_idle c Set.univ (grid3.coords t) h2 _ _ _ _ _ _ _ _ (iblk3 V c 0 t) (iblk3 V c 1 t) (iblk3 V c 2 t) _ s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 Hoth Hg]
    · isplitl [HS0]; · iexact HS0
      isplitl [HS1]; · iexact HS1
      isplitl [HS2]; · iexact HS2
      isplitl [Hoth]; · iexact Hoth
      iexact Hg
    isplitl [Ho]; · iexact Ho
    isplitl [H0]; · iexact H0
    isplitl [H1]; · iexact H1
    isplitl [H2]; · iexact H2
    iexists _; iexact H3

set_option maxHeartbeats 4000000 in
/-- The body at any point: before the first point the launch's invariant hands the scratch over at anything (the
    first point resets it); later the invariant names what the point before left. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3
  rw [PhiS3_castSucc]
  by_cases hz : t.val = 0
  · rw [PhiS3_zero V c _ _ hz]
    refine (sep_mono (PhiA3_split c) .rfl).trans ?_
    iintro ⟨⟨⟨%d0, HS0⟩, ⟨%d1, HS1⟩, ⟨%d2, HS2⟩, Hoth, Hg⟩, Ho, H0, H1, H2, H3⟩
    iapply (sound_core3 V c t (d0, d1, d2) (st3_zero V c t hz _))
    isplitl [HS0 HS1 HS2 Hoth Hg]
    · isplitl [HS0]; · iexact HS0
      isplitl [HS1]; · iexact HS1
      isplitl [HS2]; · iexact HS2
      isplitl [Hoth]; · iexact Hoth
      iexact Hg
    isplitl [Ho]; · iexact Ho
    isplitl [H0]; · iexact H0
    isplitl [H1]; · iexact H1
    isplitl [H2]; · iexact H2
    iexact H3
  · rw [PhiS3_pos V c _ _ hz]
    exact sound_core3 V c t _ (st3_pos V c t hz)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.RunFold.lean ====
/-
  The run of the program, first half: what every unscoped buffer of a core holds at each of the ten boundaries
  between the nine segments of the entry function (a stretch of host operations, three projections, a stretch of
  reshapes, the attention, a reshape, the output projection, a reshape), as a fold from the launch memory.  A host
  stretch rewrites the buffers its operations write; a region rewrites its windows' arrays with what its pipeline
  leaves there (inputs as entered, the output's write-backs folded) and leaves every other buffer alone.  The
  accessor lemmas read the fold at one buffer, one boundary back; the six argument arrays walk back to the launch.
-/
import proofs.«137829_j2276332667508_2_alg».proof.Proof.K.Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- No operation of `hostOps0` allocates a buffer. -/
theorem hostOps0_fresh : (hostOps0 : List (HloOp τ sig (Elt F))).Forall fun op => op.fresh = ∅ := by
  simp only [List.Forall]; repeat' constructor
/-- The references the operations of `hostOps0` write. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write holds after it what it held before. -/
theorem W1_of_not_written (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at
    entry: the two hypotheses under which the arrays and the bypassing buffers make the unscoped buffers again. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves and every other buffer what it held at
    entry: the two hypotheses under which the arrays and the bypassing buffers make the unscoped buffers again. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves and every other buffer what it held at
    entry: the two hypotheses under which the arrays and the bypassing buffers make the unscoped buffers again. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host stretch `hostOps3`. -/
abbrev W5 : Dev nD → Valuation τ sig (Elt F) := fun c => StableHlo.after hostOps3 (W4 m ρ c)
/-- No operation of `hostOps3` allocates a buffer. -/
theorem hostOps3_fresh : (hostOps3 : List (HloOp τ sig (Elt F))).Forall fun op => op.fresh = ∅ := by
  simp only [List.Forall]; repeat' constructor
/-- The references the operations of `hostOps3` write. -/
abbrev hostOps3_W : List (Ref sig .tc) := [main_v10, main_v11, main_v12]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write holds after it what it held before. -/
theorem W5_of_not_written (c : Dev nD) (r : Ref sig .tc) (h : r ∉ (hostOps3_W : List (Ref sig .tc))) :
    W5 m ρ c (Proc.devRef .tc r) = W4 m ρ c (Proc.devRef .tc r) :=
  StableHlo.after_of_writes_sub hostOps3 _ hostOps3_writes h

/-- The same read at the TensorCore's references (what region 3's proof data take). -/
abbrev V5 : (c : Dev nD) → (b : Ref sig .tc) → Buf (Elt F) ((c : Thread nD τ).loc b) := fun c b => W5 m ρ c b
/-- At region 3's exit: its arrays at what the pipeline leaves (the inputs as entered, the output's write-backs
    folded), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves and every other buffer what it held at
    entry: the two hypotheses under which the arrays and the bypassing buffers make the unscoped buffers again. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4`. -/
abbrev W7 : Dev nD → Valuation τ sig (Elt F) := fun c => StableHlo.after hostOps4 (W6 m ρ c)
/-- No operation of `hostOps4` allocates a buffer. -/
theorem hostOps4_fresh : (hostOps4 : List (HloOp τ sig (Elt F))).Forall fun op => op.fresh = ∅ := by
  simp only [List.Forall]; repeat' constructor
/-- The references the operations of `hostOps4` write. -/
abbrev hostOps4_W : List (Ref sig .tc) := [main_v14]
theorem hostOps4_writes : (hostOps4 : List (HloOp τ sig (Elt F))).Forall fun op => op.writes ⊆ (hostOps4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem W7_of_not_written (c : Dev nD) (r : Ref sig .tc) (h : r ∉ (hostOps4_W : List (Ref sig .tc))) :
    W7 m ρ c (Proc.devRef .tc r) = W6 m ρ c (Proc.devRef .tc r) :=
  StableHlo.after_of_writes_sub hostOps4 _ hostOps4_writes h

/-- The same read at the TensorCore's references (what region 4's proof data take). -/
abbrev V7 : (c : Dev nD) → (b : Ref sig .tc) → Buf (Elt F) ((c : Thread nD τ).loc b) := fun c b => W7 m ρ c b
/-- At region 4's exit: its arrays at what the pipeline leaves (the inputs as entered, the output's write-backs
    folded), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references (region 4's exit contents). -/
abbrev V8 : (c : Dev nD) → (b : Ref sig .tc) → Buf (Elt F) ((c : Thread nD τ).loc b) := fun c b => W8 m ρ c b
/-- At region 4's exit each of its arrays holds what the pipeline leaves and every other buffer what it held at
    entry: the two hypotheses under which the arrays and the bypassing buffers make the unscoped buffers again. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After the host stretch `hostOps5`. -/
abbrev W9 : Dev nD → Valuation τ sig (Elt F) := fun c => StableHlo.after hostOps5 (W8 m ρ c)
/-- No operation of `hostOps5` allocates a buffer. -/
theorem hostOps5_fresh : (hostOps5 : List (HloOp τ sig (Elt F))).Forall fun op => op.fresh = ∅ := by
  simp only [List.Forall]; repeat' constructor
/-- The references the operations of `hostOps5` write. -/
abbrev hostOps5_W : List (Ref sig .tc) := [main_v16]
theorem hostOps5_writes : (hostOps5 : List (HloOp τ sig (Elt F))).Forall fun op => op.writes ⊆ (hostOps5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem W9_of_not_written (c : Dev nD) (r : Ref sig .tc) (h : r ∉ (hostOps5_W : List (Ref sig .tc))) :
    W9 m ρ c (Proc.devRef .tc r) = W8 m ρ c (Proc.devRef .tc r) :=
  StableHlo.after_of_writes_sub hostOps5 _ hostOps5_writes h

/-! ## The arguments end as launched

No host operation writes an argument array and no region has one as a window's array, so the fold at an argument's
buffer walks back, boundary by boundary, to the launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_not_written m ρ c main_arg0 (by decide)
    _ = W7 m ρ c (Proc.devRef .tc main_arg0) := W8_of_ne m ρ c main_arg0 (by decide)
    _ = W6 m ρ c (Proc.devRef .tc main_arg0) := W7_of_not_written m ρ c main_arg0 (by decide)
    _ = W5 m ρ c (Proc.devRef .tc main_arg0) := W6_of_ne m ρ c main_arg0 (by decide)
    _ = W4 m ρ c (Proc.devRef .tc main_arg0) := W5_of_not_written m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_not_written m ρ c main_arg1 (by decide)
    _ = W7 m ρ c (Proc.devRef .tc main_arg1) := W8_of_ne m ρ c main_arg1 (by decide)
    _ = W6 m ρ c (Proc.devRef .tc main_arg1) := W7_of_not_written m ρ c main_arg1 (by decide)
    _ = W5 m ρ c (Proc.devRef .tc main_arg1) := W6_of_ne m ρ c main_arg1 (by decide)
    _ = W4 m ρ c (Proc.devRef .tc main_arg1) := W5_of_not_written m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_not_written m ρ c main_arg2 (by decide)
    _ = W7 m ρ c (Proc.devRef .tc main_arg2) := W8_of_ne m ρ c main_arg2 (by decide)
    _ = W6 m ρ c (Proc.devRef .tc main_arg2) := W7_of_not_written m ρ c main_arg2 (by decide)
    _ = W5 m ρ c (Proc.devRef .tc main_arg2) := W6_of_ne m ρ c main_arg2 (by decide)
    _ = W4 m ρ c (Proc.devRef .tc main_arg2) := W5_of_not_written m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_not_written m ρ c main_arg3 (by decide)
    _ = W7 m ρ c (Proc.devRef .tc main_arg3) := W8_of_ne m ρ c main_arg3 (by decide)
    _ = W6 m ρ c (Proc.devRef .tc main_arg3) := W7_of_not_written m ρ c main_arg3 (by decide)
    _ = W5 m ρ c (Proc.devRef .tc main_arg3) := W6_of_ne m ρ c main_arg3 (by decide)
    _ = W4 m ρ c (Proc.devRef .tc main_arg3) := W5_of_not_written m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_not_written m ρ c main_arg4 (by decide)
    _ = W7 m ρ c (Proc.devRef .tc main_arg4) := W8_of_ne m ρ c main_arg4 (by decide)
    _ = W6 m ρ c (Proc.devRef .tc main_arg4) := W7_of_not_written m ρ c main_arg4 (by decide)
    _ = W5 m ρ c (Proc.devRef .tc main_arg4) := W6_of_ne m ρ c main_arg4 (by decide)
    _ = W4 m ρ c (Proc.devRef .tc main_arg4) := W5_of_not_written m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_not_written m ρ c main_arg4 (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_not_written m ρ c main_arg5 (by decide)
    _ = W7 m ρ c (Proc.devRef .tc main_arg5) := W8_of_ne m ρ c main_arg5 (by decide)
    _ = W6 m ρ c (Proc.devRef .tc main_arg5) := W7_of_not_written m ρ c main_arg5 (by decide)
    _ = W5 m ρ c (Proc.devRef .tc main_arg5) := W6_of_ne m ρ c main_arg5 (by decide)
    _ = W4 m ρ c (Proc.devRef .tc main_arg5) := W5_of_not_written m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_not_written m ρ c main_arg5 (by decide)
    _ = m ((c : Thread nD τ).loc main_arg5) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Run.lean ====
/-
  The run of the program, second half: the nine segments as the several-regions launch takes them.  Each host
  stretch runs over every unscoped buffer of the core from one boundary's contents to the next; each region splits
  its windows' arrays out of those buffers, runs its pipeline on them and puts them back at the exit contents, the
  random-number register passing through the region invariant.  The five bodies' obligations and the attention region's
  two invariant entailments are hypotheses here.  What comes out: every weakly fair execution terminates and every
  unscoped buffer of every core ends at the last boundary's contents, so in particular the six argument arrays end
  as launched.
-/
import proofs.«137829_j2276332667508_2_alg».proof.Proof.K.RunFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal match, so that the launch theorem's
    pinned configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents `W9`, the
    random-number register at some state. -/
abbrev Tₙ (c : Dev nD) : sProp 𝕄 := iprop(StableHlo.held (c : Thread nD τ) (Pipeline.ucRefs τ sig) (W9 m ρ c) ∗ ∃ r, prngReg c r)

/-! ## The hypotheses: the bodies' obligations, and the attention region's invariant at its two ends -/

variable (hb0 : ∀ (V : (c : Dev nD) → (b : Ref sig .tc) → Buf (Elt F) ((c : Thread nD τ).loc b)) (c : Dev nD), BodyObligation (dat0 (F := F) V c) (defs₀ (F := F)) Variants.none () Set.univ)
variable (hb1 : ∀ (V : (c : Dev nD) → (b : Ref sig .tc) → Buf (Elt F) ((c : Thread nD τ).loc b)) (c : Dev nD), BodyObligation (dat1 (F := F) V c) (defs₀ (F := F)) Variants.none () Set.univ)
variable (hb2 : ∀ (V : (c : Dev nD) → (b : Ref sig .tc) → Buf (Elt F) ((c : Thread nD τ).loc b)) (c : Dev nD), BodyObligation (dat2 (F := F) V c) (defs₀ (F := F)) Variants.none () Set.univ)
variable (hb3 : ∀ (V : (c : Dev nD) → (b : Ref sig .tc) → Buf (Elt F) ((c : Thread nD τ).loc b)) (c : Dev nD), BodyObligation (dat3 (F := F) V c) (defs₀ (F := F)) Variants.none () Set.univ)
variable (hb4 : ∀ (V : (c : Dev nD) → (b : Ref sig .tc) → Buf (Elt F) ((c : Thread nD τ).loc b)) (c : Dev nD), BodyObligation (dat4 (F := F) V c) (defs₀ (F := F)) Variants.none () Set.univ)
variable (hin3 : ∀ (V : (c : Dev nD) → (b : Ref sig .tc) → Buf (Elt F) ((c : Thread nD τ).loc b)) (c : Dev nD), Pipeline.ΦA spec3 c ⊢ (dat3 (F := F) V c).Φ 0)
variable (hout3 : ∀ (V : (c : Dev nD) → (b : Ref sig .tc) → Buf (Elt F) ((c : Thread nD τ).loc b)) (c : Dev nD), (dat3 (F := F) V c).Φ (Fin.last cfg3.N) ⊢ Pipeline.ΦA spec3 c)

/-! ## The regions as segments -/

-- applying a library lemma stated over `pin pcs a p` unifies with the pinned configuration only when unification may
-- unfold plain definitions in a metavariable's type
set_option backward.isDefEq.respectTransparency.types false in
/-- Region 0 over the thread state: entered from every unscoped buffer at `W1`, left at `W2`. Its arrays split
    out of the unscoped buffers and put back at the exit contents; the random-number register into the region invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 1 over the thread state: entered from every unscoped buffer at `W2`, left at `W3`. Its arrays split
    out of the unscoped buffers and put back at the exit contents; the random-number register into the region invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 2 over the thread state: entered from every unscoped buffer at `W3`, left at `W4`. Its arrays split
    out of the unscoped buffers and put back at the exit contents; the random-number register into the region invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 3 over the thread state: entered from every unscoped buffer at `W5`, left at `W6`. Its arrays split
    out of the unscoped buffers and put back at the exit contents; the random-number register into the region invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec3 c : sProp 𝕄) ⊢ (pdats m ρ 3 c).Φ 0 := hin3 (V5 m ρ) c
    refine BIBase.Entails.trans ?_ h
    unfold Pipeline.ΦA
    iintro ⟨Hp, -, Hr⟩
    isplitl [Hr]; · iexact Hr
    iexact Hp
  hout c := by
    rw [Pipeline.ownSems0_none]
    have h : (pdats m ρ 3 c).Φ (Fin.last _) ⊢ (Pipeline.ΦA spec3 c : sProp 𝕄) := hout3 (V5 m ρ) c
    refine BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 4 over the thread state: entered from every unscoped buffer at `W7`, left at `W8`. Its arrays split
    out of the unscoped buffers and put back at the exit contents; the random-number register into the region invariant
    and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .region (reg1 m ρ hb1),
    .region (reg2 m ρ hb2),
    .host (hseg hostOps3 hostOps3_sub hostOps3_fresh (W4 m ρ)),
    .region (reg3 m ρ hb3 hin3 hout3),
    .host (hseg hostOps4 hostOps4_sub hostOps4_fresh (W6 m ρ)),
    .region (reg4 m ρ hb4),
    .host (hseg hostOps5 hostOps5_sub hostOps5_fresh (W8 m ρ)) ]
/-- The entry function is the run of the segments: it is the chain of its items, and the segments' run is that chain
    by definitional unfolding. -/
theorem main_run (c : Dev nD) : main (F := F) c = Pipeline.Seg.run (segs m ρ hb0 hb1 hb2 hb3 hb4 hin3 hout3) := (main_chain c).trans (by chain_rfl)

include hb0 hb1 hb2 hb3 hb4 hin3 hout3

-- the launch theorem's implicit arguments are found by unifying its conclusion with this one, which takes unfolding
-- plain definitions in a metavariable's type
set_option backward.isDefEq.respectTransparency.types false in
/-- The launch over the segments, at any postcondition that follows from the final memory holding, on every core and
    at every unscoped buffer, the last boundary's contents: at the compiled mesh, from any memory with zero counters,
    every weakly fair execution on the TensorCores terminates, nothing faulting, and every final memory satisfies it.
    The thread states chain by reflexivity up to the last host stretch, whose end is regrouped; the last state is read
    against the final memory buffer by buffer. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ hb0 hb1 hb2 hb3 hb4 hin3 hout3)
    (fun c Q => by rw [main_run m ρ hb0 hb1 hb2 hb3 hb4 hin3 hout3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The run: every weakly fair execution terminates, and every unscoped buffer of every core ends at the last
    boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  run_post m ρ hb0 hb1 hb2 hb3 hb4 hin3 hout3 fun s h => h

/-- The frame: every weakly fair execution terminates and the six argument arrays end as launched, each read off the
    last boundary's contents and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_post m ρ hb0 hb1 hb2 hb3 hb4 hin3 hout3 fun s h c =>
      ⟨(h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩

/-- info: 'Cert.Kernel.Hand.run' depends on axioms: [propext, Classical.choice, Quot.sound] -/
#guard_msgs in #print axioms run
/-- info: 'Cert.Kernel.Hand.frame' depends on axioms: [propext, Classical.choice, Quot.sound] -/
#guard_msgs in #print axioms frame

end Cert.Kernel.Hand

end
-- ==== Proof.KI.Defs.lean ====
/-
  The proof data of the five kernel regions, stated once and shared by the modules that prove the bodies, run the
  program and read the values.  Regions 0, 1, 2 multiply a 512-row block of the activations by a whole weight matrix
  (contracting the second axis of both); region 4 does the same and adds a bias row; region 3 is the tiled causal
  attention: for a fixed batch, head and query tile it walks the four key/value tiles in order, keeping a running row
  maximum, a running sum of exponentials and a running weighted sum of values in three scratch buffers, skipping
  the tiles above the diagonal, and divides at the last tile.  What the scratch holds after each grid point is the
  recursion `st3`; the output tile is its quotient.
-/
import proofs.«137829_j2276332667508_2_alg».proof.Proof.Gen.KernelIdeal.Launch
import proofs.«137829_j2276332667508_2_alg».proof.Proof.Gen.KernelIdeal.Skeleton
import proofs.«137829_j2276332667508_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! ## The bodies' accesses: every load and store is of a whole buffer -/

abbrev rRow : Rect S512x2048 := Rect.unit (s := S512x2048) ![0, 0] S512x2048.size inb_S512x2048_S512x2048_0_0
abbrev rMat : Rect S2048x2048 := Rect.unit (s := S2048x2048) ![0, 0] S2048x2048.size inb_S2048x2048_S2048x2048_0_0
abbrev rBias : Rect S1x2048 := Rect.unit (s := S1x2048) ![0, 0] S1x2048.size inb_S1x2048_S1x2048_0_0
abbrev rTile : Rect S1x512x128 := Rect.unit (s := S1x512x128) ![0, 0, 0] S1x512x128.size inb_S1x512x128_S1x512x128_0_0_0
abbrev rCol : Rect S512x1 := Rect.unit (s := S512x1) ![0, 0] S512x1.size inb_S512x1_S512x1_0_0
abbrev rAcc : Rect S512x128 := Rect.unit (s := S512x128) ![0, 0] S512x128.size inb_S512x128_S512x128_0_0

/-! ## Region 0: a row block of the left factor times the whole transposed weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block's buffer: its one store over the two loaded blocks. -/
def out0_2 (x0 : Vec F S512x2048 .bf16) (x1 : Vec F S2048x2048 .bf16) : Vec F S512x2048 .bf16 :=
  View.canon [⟨rRow, k0_pay1 (View.ld x0 rRow) (View.ld x1 rMat)⟩]

/-- The proof data of pipeline 0 on core `c`: the arrays as the region finds them; after the body each input's buffer at
    its block and the output's at `out0_2` of the input blocks; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 1: a row block of the left factor times the whole transposed weight matrix -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output block's buffer: its one store over the two loaded blocks. -/
def out1_2 (x0 : Vec F S512x2048 .bf16) (x1 : Vec F S2048x2048 .bf16) : Vec F S512x2048 .bf16 :=
  View.canon [⟨rRow, k1_pay1 (View.ld x0 rRow) (View.ld x1 rMat)⟩]

/-- The proof data of pipeline 1 on core `c`: the arrays as the region finds them; after the body each input's buffer at
    its block and the output's at `out1_2` of the input blocks; the scoped rest and the generator register untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-! ## Region 2: a row block of the left factor times the whole transposed weight matrix -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output block's buffer: its one store over the two loaded blocks. -/
def out2_2 (x0 : Vec F S512x2048 .bf16) (x1 : Vec F S2048x2048 .bf16) : Vec F S512x2048 .bf16 :=
  View.canon [⟨rRow, k2_pay1 (View.ld x0 rRow) (View.ld x1 rMat)⟩]

/-- The proof data of pipeline 2 on core `c`: the arrays as the region finds them; after the body each input's buffer at
    its block and the output's at `out2_2` of the input blocks; the scoped rest and the generator register untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-! ## Region 4: the same product plus a bias row -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output block's buffer: its one store over the three loaded blocks. -/
def out4_3 (x0 : Vec F S512x2048 .bf16) (x1 : Vec F S2048x2048 .bf16) (x2 : Vec F S1x2048 .f32) : Vec F S512x2048 .f32 :=
  View.canon [⟨rRow, k4_pay1 (View.ld x0 rRow) (View.ld x1 rMat) (View.ld x2 rBias)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-! ## Region 3: the tiled attention -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The body's three branch conditions, from the grid coordinates (the skeleton's scalar chains): the key tile is the
    first one; the key tile is not above the query tile; the key tile is the last one. -/
abbrev cond3_0 (i : grid3.Coords) : Prop := (Scalar.cmpi .ne (Scalar.extui (Scalar.cmpi .eq (BitVec.ofNat 32 (i 3).val) 0#32)) 0#32) = 1#1
abbrev cond3_1 (i : grid3.Coords) : Prop := (Scalar.cmpi .ne (Scalar.extui (Scalar.cmpi .sle (BitVec.ofNat 32 (i 3).val) (BitVec.ofNat 32 (i 2).val))) 0#32) = 1#1
abbrev cond3_2 (i : grid3.Coords) : Prop := k3_cond3 i = 1#1

/-- The three scratch buffers' contents: running row maximum, running sum of exponentials, running weighted values. -/
abbrev St3 (F : FTy → Type) [FloatOps F] : Type := Vec F S512x1 .f32 × Vec F S512x1 .f32 × Vec F S512x128 .f32

/-- The reset the first key tile makes (or none). -/
def reset3 (i : grid3.Coords) (s : St3 F) : St3 F :=
  if cond3_0 i then (k3_pay1 (F := F), k3_pay2 (F := F), k3_pay3 (F := F)) else s

/-- One grid point's effect on the scratch: the reset at the first key tile, then, unless the key tile lies above
    the query tile, the online-softmax update with the point's query, key and value tiles. -/
def step3 (i : grid3.Coords) (q k v : Vec F S1x512x128 .bf16) (s : St3 F) : St3 F :=
  if cond3_1 i then
    (k3_pay5 (k3_pay9 (BitVec.ofNat 32 (i 2).val) (BitVec.ofNat 32 (i 3).val) q k (reset3 i s).1),
     k3_pay12 (BitVec.ofNat 32 (i 2).val) (BitVec.ofNat 32 (i 3).val) q k (reset3 i s).1 (reset3 i s).2.1,
     k3_pay4 (k3_pay7 v) (k3_pay10 (BitVec.ofNat 32 (i 2).val) (BitVec.ofNat 32 (i 3).val) q k (reset3 i s).1)
       (k3_pay11 (BitVec.ofNat 32 (i 2).val) (BitVec.ofNat 32 (i 3).val) q k (reset3 i s).1) (reset3 i s).2.2)
  else reset3 i s

/-- What the scratch holds after the body at position `n`, by recursion on the position (the seed at position 0 is
    never read: the first point resets). -/
def st3 (c : Dev nD) : (n : ℕ) → n < cfg3.N → St3 F
  | 0, hn => step3 (grid3.coords ⟨0, hn⟩) (iblk3 V c 0 ⟨0, hn⟩) (iblk3 V c 1 ⟨0, hn⟩) (iblk3 V c 2 ⟨0, hn⟩)
      (k3_pay1 (F := F), k3_pay2 (F := F), k3_pay3 (F := F))
  | n + 1, hn => step3 (grid3.coords ⟨n + 1, hn⟩) (iblk3 V c 0 ⟨n + 1, hn⟩) (iblk3 V c 1 ⟨n + 1, hn⟩) (iblk3 V c 2 ⟨n + 1, hn⟩)
      (st3 c n (Nat.lt_of_succ_lt hn))

/-- What the last key tile stores into the output tile's buffer: the quotient of the scratch. -/
def out3 (s : St3 F) : Vec F S1x512x128 .bf16 :=
  View.canon [⟨rTile, k3_pay6 s.2.2 s.2.1⟩]

/-- The scratch operands as memrefs. -/
abbrev scM3_0 : Memref sig .tc .vmem S512x1 .f32 := Memref.whole cc3_scratch0
abbrev scM3_1 : Memref sig .tc .vmem S512x1 .f32 := Memref.whole cc3_scratch1
abbrev scM3_2 : Memref sig .tc .vmem S512x128 .f32 := Memref.whole cc3_scratch2

/-- The other regions' staging buffers, each whole at some contents: what rides along region 3 unread. -/
def Others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc4_stg0_0), ((c : Thread nD τ).loc cc4_stg0_0) ↦{fullShare} f)
    ∗ (∃ f : Buf (Elt F) ((c : Thread nD τ).loc cc4_stg0_1), ((c : Thread nD τ).loc cc4_stg0_1) ↦{fullShare} f)
    ∗ (∃ f : Buf (Elt F) ((c : Thread nD τ).loc cc4_stg1_0), ((c : Thread nD τ).loc cc4_stg1_0) ↦{fullShare} f)
    ∗ (∃ f : Buf (Elt F) ((c : Thread nD τ).loc cc4_stg2_0), ((c : Thread nD τ).loc cc4_stg2_0) ↦{fullShare} f)
    ∗ (∃ f : Buf (Elt F) ((c : Thread nD τ).loc cc4_stg3_0), ((c : Thread nD τ).loc cc4_stg3_0) ↦{fullShare} f)
    ∗ (∃ f : Buf (Elt F) ((c : Thread nD τ).loc cc4_stg3_1), ((c : Thread nD τ).loc cc4_stg3_1) ↦{fullShare} f))

/-- The region invariant before position `n`: before the first point what the launch hands over; afterwards the three
    scratch buffers at what the point before left, the other scoped buffers at anything, the generator register at
    some state. -/
def PhiS3 (c : Dev nD) : (n : ℕ) → n ≤ cfg3.N → sProp 𝕄
  | 0, _ => Pipeline.ΦA spec3 c
  | n + 1, hn => iprop(owns (c : Thread nD τ) scM3_0 fullShare (st3 V c n hn).1
      ∗ owns (c : Thread nD τ) scM3_1 fullShare (st3 V c n hn).2.1
      ∗ owns (c : Thread nD τ) scM3_2 fullShare (st3 V c n hn).2.2
      ∗ Others3 c ∗ (∃ r, prngReg c r))

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (st3 V c t.val t.isLt)
  Φ t := PhiS3 V c t.val (Nat.le_of_lt_succ t.isLt)
  q _ := fullShare
  owed _ := 0

end Cert.KernelIdeal.Hand

end
-- ==== Proof.KI.ProjBody.lean ====
/-
  The body obligations of the four matrix-product regions.  Each body loads its input blocks whole, multiplies
  (contracting the second axis of both factors; region 4 adds the bias row), and stores the result over the whole
  output block.  So after the body every input buffer still holds its block and the output buffer holds the one
  store's payload, whatever it held before: `outK_w` of the input blocks.  An input window that is not fetched at a
  point still holds its block there, because its block index has not moved since it was.
-/
import proofs.«137829_j2276332667508_2_alg».proof.Proof.KI.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0 -/

/-- Input window 0's current buffer holds its block at every point, fetched there or not, for any proof data whose
    array is the entry contents and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1, the weight matrix, fetched at the first point only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole block, so it covers it. -/
theorem cover0_2 (p0 : Vec F S512x2048 .bf16) (y : S512x2048.Idx) :
    ∃ pc ∈ ([⟨rRow, p0⟩] : List (View.Piece (Elt F) S512x2048 .bf16)), y ∈ pc.1.set :=
  View.cover_of_tiled [⟨rRow, p0⟩] S512x2048.size (by rfl) y

set_option maxHeartbeats 1000000 in
/-- The body on whole memrefs, the inputs' at read contents `x0`, `x1` and the output's at anything, runs to the
    continuation holding the inputs' as they were and the output's at `out0_2 x0 x1`. -/
theorem sound_kernel0 (c : Dev nD) (E : Set ℕ) (i : grid0.Coords) (arg0 : Memref sig .tc .vmem S512x2048 .bf16) (harg0 : arg0.IsWhole) (arg1 : Memref sig .tc .vmem S2048x2048 .bf16) (harg1 : arg1.IsWhole) (arg2 : Memref sig .tc .vmem S512x2048 .bf16) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Input window 0's current buffer holds its block at every point, fetched there or not, for any proof data whose
    array is the entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1, the weight matrix, fetched at the first point only. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole block, so it covers it. -/
theorem cover1_2 (p0 : Vec F S512x2048 .bf16) (y : S512x2048.Idx) :
    ∃ pc ∈ ([⟨rRow, p0⟩] : List (View.Piece (Elt F) S512x2048 .bf16)), y ∈ pc.1.set :=
  View.cover_of_tiled [⟨rRow, p0⟩] S512x2048.size (by rfl) y

set_option maxHeartbeats 1000000 in
/-- The body on whole memrefs, the inputs' at read contents `x0`, `x1` and the output's at anything, runs to the
    continuation holding the inputs' as they were and the output's at `out1_2 x0 x1`. -/
theorem sound_kernel1 (c : Dev nD) (E : Set ℕ) (i : grid1.Coords) (arg0 : Memref sig .tc .vmem S512x2048 .bf16) (harg0 : arg0.IsWhole) (arg1 : Memref sig .tc .vmem S2048x2048 .bf16) (harg1 : arg1.IsWhole) (arg2 : Memref sig .tc .vmem S512x2048 .bf16) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__matmul_kernel i arg0 harg0 arg1 harg1 arg2 harg2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 -/

/-- Input window 0's current buffer holds its block at every point, fetched there or not, for any proof data whose
    array is the entry contents and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1, the weight matrix, fetched at the first point only. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one store is of the whole block, so it covers it. -/
theorem cover2_2 (p0 : Vec F S512x2048 .bf16) (y : S512x2048.Idx) :
    ∃ pc ∈ ([⟨rRow, p0⟩] : List (View.Piece (Elt F) S512x2048 .bf16)), y ∈ pc.1.set :=
  View.cover_of_tiled [⟨rRow, p0⟩] S512x2048.size (by rfl) y

set_option maxHeartbeats 1000000 in
/-- The body on whole memrefs, the inputs' at read contents `x0`, `x1` and the output's at anything, runs to the
    continuation holding the inputs' as they were and the output's at `out2_2 x0 x1`. -/
theorem sound_kernel2 (c : Dev nD) (E : Set ℕ) (i : grid2.Coords) (arg0 : Memref sig .tc .vmem S512x2048 .bf16) (harg0 : arg0.IsWhole) (arg1 : Memref sig .tc .vmem S2048x2048 .bf16) (harg1 : arg1.IsWhole) (arg2 : Memref sig .tc .vmem S512x2048 .bf16) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 4 -/

/-- Input window 0's current buffer holds its block at every point, fetched there or not, for any proof data whose
    array is the entry contents and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same of input window 1, the weight matrix, fetched at the first point only. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same of input window 2, the bias row, fetched at the first point only. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The one store is of the whole block, so it covers it. -/
theorem cover4_3 (p0 : Vec F S512x2048 .f32) (y : S512x2048.Idx) :
    ∃ pc ∈ ([⟨rRow, p0⟩] : List (View.Piece (Elt F) S512x2048 .f32)), y ∈ pc.1.set :=
  View.cover_of_tiled [⟨rRow, p0⟩] S512x2048.size (by rfl) y

set_option maxHeartbeats 1000000 in
/-- The body on whole memrefs, the inputs' at read contents `x0`, `x1`, `x2` and the output's at anything, runs to
    the continuation holding the inputs' as they were and the output's at `out4_3 x0 x1 x2`. -/
theorem sound_kernel4 (c : Dev nD) (E : Set ℕ) (i : grid4.Coords) (arg0 : Memref sig .tc .vmem S512x2048 .bf16) (harg0 : arg0.IsWhole) (arg1 : Memref sig .tc .vmem S2048x2048 .bf16) (harg1 : arg1.IsWhole) (arg2 : Memref sig .tc .vmem S1x2048 .f32) (harg2 : arg2.IsWhole) (arg3 : Memref sig .tc .vmem S512x2048 .f32) (harg3 : arg3.IsWhole)
    (x0 : Vec F S512x2048 .bf16) (x1 : Vec F S2048x2048 .bf16) (x2 : Vec F S1x2048 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__matmul_bias_kernel i arg0 harg0 arg1 harg1 arg2 harg2 arg3 harg3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.AttnKernel.lean ====
/-
  The attention body's triple.  On any whole staging memrefs holding the query, key and value tiles and an output
  tile, and the three scratch buffers at any contents, the body runs to a continuation that holds the inputs as they
  were, the scratch at one step of the online-softmax recursion (`step3`), and the output tile at the quotient of the
  new scratch when the key tile is the last one, untouched otherwise.  The three branch conditions are decided case by
  case; in each case the body is run symbolically and what it leaves in each buffer is compared with the recursion.
-/
import proofs.«137829_j2276332667508_2_alg».proof.Proof.KI.Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## Whole-buffer accesses -/

/-- The offsets of every access of the body are zero (rank two: the scratch buffers). -/
theorem attnK_hz2 : (![0, 0] : Fin 2 → Nat) = fun _ => 0 := funext fun a => by fin_cases a <;> rfl
/-- The same at rank three (the query, key, value and output tiles). -/
theorem attnK_hz3 : (![0, 0, 0] : Fin 3 → Nat) = fun _ => 0 := funext fun a => by fin_cases a <;> rfl

/-- After a store through the whole-shape rectangle at zero offsets, made last, the buffer reads that store's payload,
    whatever the view, the earlier stores and the earlier contents. -/
theorem attnK_read_writes_cons_unit_zero {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-! ## The eight cases of the three branch conditions -/

set_option maxHeartbeats 1000000 in
/-- The body's triple where the key tile is the first, not above the query tile, the last. -/
theorem sound_kernel3_yyy (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : cond3_0 i) (hc1 : cond3_1 i) (hc2 : cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [H7]
  · iexists _; isplitr
    rotate_left
    · iexact H7
    · ipureintro
      sl_unfold_words
      rw [attnK_read_writes_cons_unit_zero (S := S1x512x128) _ _ attnK_hz3]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_pos hc2]

set_option maxHeartbeats 1000000 in
/-- The body's triple where the key tile is the first, not above the query tile, not the last. -/
theorem sound_kernel3_yyn (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : cond3_0 i) (hc1 : cond3_1 i) (hc2 : ¬cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [H7]
  · iexists _; isplitr
    rotate_left
    · iexact H7
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_pos hc1, if_neg hc2]

set_option maxHeartbeats 1000000 in
/-- The body's triple where the key tile is the first, above the query tile, the last. -/
theorem sound_kernel3_yny (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : cond3_0 i) (hc1 : ¬cond3_1 i) (hc2 : cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [H7]
  · iexists _; isplitr
    rotate_left
    · iexact H7
    · ipureintro
      sl_unfold_words
      rw [attnK_read_writes_cons_unit_zero (S := S1x512x128) _ _ attnK_hz3]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_pos hc2]

set_option maxHeartbeats 1000000 in
/-- The body's triple where the key tile is the first, above the query tile, not the last. -/
theorem sound_kernel3_ynn (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : cond3_0 i) (hc1 : ¬cond3_1 i) (hc2 : ¬cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [H7]
  · iexists _; isplitr
    rotate_left
    · iexact H7
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_pos hc0, if_neg hc1, if_neg hc2]

set_option maxHeartbeats 1000000 in
/-- The body's triple where the key tile is not the first, not above the query tile, the last. -/
theorem sound_kernel3_nyy (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : ¬cond3_0 i) (hc1 : cond3_1 i) (hc2 : cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [H7]
  · iexists _; isplitr
    rotate_left
    · iexact H7
    · ipureintro
      sl_unfold_words
      rw [attnK_read_writes_cons_unit_zero (S := S1x512x128) _ _ attnK_hz3]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_pos hc2]

set_option maxHeartbeats 1000000 in
/-- The body's triple where the key tile is not the first, not above the query tile, not the last. -/
theorem sound_kernel3_nyn (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : ¬cond3_0 i) (hc1 : cond3_1 i) (hc2 : ¬cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [H7]
  · iexists _; isplitr
    rotate_left
    · iexact H7
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [S0]
  · iexists _; isplitr
    rotate_left
    · iexact S0
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  isplitl [S1]
  · iexists _; isplitr
    rotate_left
    · iexact S1
    · ipureintro
      sl_unfold_words
      rw [attnK_read_writes_cons_unit_zero (S := S512x1) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]
  · iexists _; isplitr
    rotate_left
    · iexact S2
    · ipureintro
      sl_unfold_words
      rw [attnK_read_writes_cons_unit_zero (S := S512x128) _ _ attnK_hz2]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_pos hc1, if_neg hc2]

set_option maxHeartbeats 1000000 in
/-- The body's triple where the key tile is not the first, above the query tile, the last. -/
theorem sound_kernel3_nny (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : ¬cond3_0 i) (hc1 : ¬cond3_1 i) (hc2 : cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [H7]
  · iexists _; isplitr
    rotate_left
    · iexact H7
    · ipureintro
      sl_unfold_words
      rw [attnK_read_writes_cons_unit_zero (S := S1x512x128) _ _ attnK_hz3]
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [S0]
  · iexists _; isplitr
    rotate_left
    · iexact S0
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  isplitl [S1]
  · iexists _; isplitr
    rotate_left
    · iexact S1
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]
  · iexists _; isplitr
    rotate_left
    · iexact S2
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_pos hc2]

set_option maxHeartbeats 1000000 in
/-- The body's triple where the key tile is not the first, above the query tile, not the last. -/
theorem sound_kernel3_nnn (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (hc0 : ¬cond3_0 i) (hc1 : ¬cond3_1 i) (hc2 : ¬cond3_2 i)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  simp only [cc3__flash_attn_kernel_eq_skeleton]; unfold cc3__flash_attn_kernel_skel
  unfold owns
  iintro ⟨⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, Hk⟩
  obtain rfl := harg4.eq_unread hf4; obtain rfl := harg5.eq_unread hf5; obtain rfl := harg6.eq_unread hf6; obtain rfl := harg7.eq_unread hf7
  obtain rfl := (Memref.isWhole_whole cc3_scratch0).eq_unread hg0
  obtain rfl := (Memref.isWhole_whole cc3_scratch1).eq_unread hg1
  obtain rfl := (Memref.isWhole_whole cc3_scratch2).eq_unread hg2
  sl_exec (disch := first | exact hc0 | exact hc1 | exact hc2)
  sl_step
  iapply Hk
  isplitl [H4]
  · iexists _; isplitr
    rotate_left
    · iexact H4
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [H5]
  · iexists _; isplitr
    rotate_left
    · iexact H5
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [H6]
  · iexists _; isplitr
    rotate_left
    · iexact H6
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [H7]
  · iexists _; isplitr
    rotate_left
    · iexact H7
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [S0]
  · iexists _; isplitr
    rotate_left
    · iexact S0
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  isplitl [S1]
  · iexists _; isplitr
    rotate_left
    · iexact S1
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]
  · iexists _; isplitr
    rotate_left
    · iexact S2
    · ipureintro
      simp only [View.readAt_eq_ld, View.readCov_cons_toLoadRect, harg4.read_unread, harg5.read_unread, harg6.read_unread, harg7.read_unread,
        (Memref.isWhole_whole cc3_scratch0).read_unread, (Memref.isWhole_whole cc3_scratch1).read_unread, (Memref.isWhole_whole cc3_scratch2).read_unread,
        View.ld_unit_zero (S := S1x512x128) attnK_hz3, View.ld_unit_zero (S := S512x1) attnK_hz2, View.ld_unit_zero (S := S512x128) attnK_hz2,
        out3, rTile, View.canon_unit_zero (S := S1x512x128) attnK_hz3, step3, reset3,
        if_neg hc0, if_neg hc1, if_neg hc2]

/-! ## The body's triple -/

/-- The attention body on any whole staging memrefs and any scratch contents: it leaves the inputs as they were, the
    scratch at one step of the recursion, and the output tile at the quotient of the new scratch when the key tile is
    the last one (untouched otherwise).  The three conditions are decided; each combination is one of the cases above. -/
theorem sound_kernel3 (c : Dev nD) (E : Set ℕ) (i : grid3.Coords)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
          ∗ owns (c : Thread nD τ) arg7 fullShare o
          ∗ owns (c : Thread nD τ) scM3_0 fullShare s.1 ∗ owns (c : Thread nD τ) scM3_1 fullShare s.2.1 ∗ owns (c : Thread nD τ) scM3_2 fullShare s.2.2
          ∗ (iprop(owns (c : Thread nD τ) arg4 fullShare q ∗ owns (c : Thread nD τ) arg5 fullShare k ∗ owns (c : Thread nD τ) arg6 fullShare v
              ∗ owns (c : Thread nD τ) arg7 fullShare (if cond3_2 i then out3 (step3 i q k v s) else o)
              ∗ owns (c : Thread nD τ) scM3_0 fullShare (step3 i q k v s).1 ∗ owns (c : Thread nD τ) scM3_1 fullShare (step3 i q k v s).2.1
              ∗ owns (c : Thread nD τ) scM3_2 fullShare (step3 i q k v s).2.2) -∗ K ⟨⟩))
        ⊢ wp frame (wpE (defs₀ (F := F)) Variants.none c none) E
            (cc3__flash_attn_kernel i arg4 harg4 arg5 harg5 arg6 harg6 arg7 harg7 scM3_0 (Memref.isWhole_whole _) scM3_1 (Memref.isWhole_whole _) scM3_2 (Memref.isWhole_whole _)) K := by
  by_cases hc0 : cond3_0 i
  · by_cases hc1 : cond3_1 i
    · by_cases hc2 : cond3_2 i
      · exact sound_kernel3_yyy c E i arg4 harg4 arg5 harg5 arg6 harg6 arg7 harg7 hc0 hc1 hc2 q k v o s K
      · exact sound_kernel3_yyn c E i arg4 harg4 arg5 harg5 arg6 harg6 arg7 harg7 hc0 hc1 hc2 q k v o s K
    · by_cases hc2 : cond3_2 i
      · exact sound_kernel3_yny c E i arg4 harg4 arg5 harg5 arg6 harg6 arg7 harg7 hc0 hc1 hc2 q k v o s K
      · exact sound_kernel3_ynn c E i arg4 harg4 arg5 harg5 arg6 harg6 arg7 harg7 hc0 hc1 hc2 q k v o s K
  · by_cases hc1 : cond3_1 i
    · by_cases hc2 : cond3_2 i
      · exact sound_kernel3_nyy c E i arg4 harg4 arg5 harg5 arg6 harg6 arg7 harg7 hc0 hc1 hc2 q k v o s K
      · exact sound_kernel3_nyn c E i arg4 harg4 arg5 harg5 arg6 harg6 arg7 harg7 hc0 hc1 hc2 q k v o s K
    · by_cases hc2 : cond3_2 i
      · exact sound_kernel3_nny c E i arg4 harg4 arg5 harg5 arg6 harg6 arg7 harg7 hc0 hc1 hc2 q k v o s K
      · exact sound_kernel3_nnn c E i arg4 harg4 arg5 harg5 arg6 harg6 arg7 harg7 hc0 hc1 hc2 q k v o s K

end Cert.KernelIdeal.Hand

end
-- ==== Proof.KI.AttnBody.lean ====
/-
  The body obligation of region 3, the tiled causal attention.  At every grid point the body is handed the three
  input tiles (query, key, value) at their blocks, the output tile's buffer at whatever it holds, and the three
  scratch buffers at what the point before left (at anything, at the first point); it leaves the inputs in place,
  the scratch at one more step of the recursion `st3`, and the output tile at the quotient of the scratch when the
  key tile is the last one, untouched otherwise.  The invariant between points is `PhiS3`.
-/
import proofs.«137829_j2276332667508_2_alg».proof.Proof.KI.Defs
import proofs.«137829_j2276332667508_2_alg».proof.Proof.KI.AttnKernel

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The branch conditions in closed form, and where the output window is idle -/

/-- The key tile is the first one at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The key tile is not above the query tile where the key index is at most the query index. -/
theorem hcond3_1 : ∀ t : Fin cfg3.N, cond3_1 (grid3.coords t) ↔ t.val % 4 ≤ t.val / 4 % 4 :=
  (by decide +kernel : ∀ t : Fin grid3.N, cond3_1 (grid3.coords t) ↔ t.val % 4 ≤ t.val / 4 % 4)

/-- The key tile is the last one at the points ≡ 3 (mod 4). -/
theorem hcond3_2 : ∀ t : Fin cfg3.N, cond3_2 (grid3.coords t) ↔ t.val % 4 = 3 :=
  (by decide +kernel : ∀ t : Fin grid3.N, cond3_2 (grid3.coords t) ↔ t.val % 4 = 3)

/-- The input windows are never idle. -/
theorem liveAt3_0 (i : grid3.Coords) : cfg3.idle 0 i = false := rfl
theorem liveAt3_1 (i : grid3.Coords) : cfg3.idle 1 i = false := rfl
theorem liveAt3_2 (i : grid3.Coords) : cfg3.idle 2 i = false := rfl

/-- The output window is live exactly where the last-key-tile branch is taken. -/
theorem liveAt3_3 (i : grid3.Coords) (h : cond3_2 i) : cfg3.idle 3 i = false := by
  show (!(k3_cond3 i == 1#1)) = false
  rw [show k3_cond3 i = 1#1 from h]; rfl

theorem idleAt3_3 (i : grid3.Coords) (h : ¬cond3_2 i) : cfg3.idle 3 i = true := by
  show (!(k3_cond3 i == 1#1)) = true
  rw [Bool.not_eq_true', beq_eq_false_iff_ne]; exact h

/-- Where that branch is not taken the pipeline does not write the output block back. -/
theorem noFlush3_3 (t : Fin cfg3.N) (h : ¬cond3_2 (grid3.coords t)) : (cfg3.win 3).flush t = false := by
  rw [← Bool.not_eq_true]; intro hf
  exact h ((hcond3_2 t).mpr ((flush3_3 t).mp hf))

/-! ## The invariant the launch hands over, with the scratch buffers named -/

/-- What the launch hands the region: the three scratch buffers at some contents, the other regions' staging
    buffers, the generator register. -/
theorem PhiA3_split (c : Dev nD) :
    (Pipeline.ΦA spec3 c : sProp 𝕄)
      ⊢ iprop((∃ d0, owns (c : Thread nD τ) scM3_0 fullShare d0) ∗ (∃ d1, owns (c : Thread nD τ) scM3_1 fullShare d1)
          ∗ (∃ d2, owns (c : Thread nD τ) scM3_2 fullShare d2) ∗ Others3 (F := F) c ∗ (∃ r, prngReg c r)) := by
  unfold Pipeline.ΦA; rw [scopedRest3_eq]; unfold Others3; simp only [owns_whole]
  iintro ⟨⟨A0, A1, A2, A3, A4, A5, A6, A7, A8, A9, A10, A11, A12, A13, A14, S0, S1, S2, B0, B1, B2, B3, B4, B5⟩, Hg⟩
  iframe

/-- And back: the scratch contents forgotten. -/
theorem PhiA3_join (c : Dev nD) :
    iprop((∃ d0, owns (c : Thread nD τ) scM3_0 fullShare d0) ∗ (∃ d1, owns (c : Thread nD τ) scM3_1 fullShare d1)
          ∗ (∃ d2, owns (c : Thread nD τ) scM3_2 fullShare d2) ∗ Others3 (F := F) c ∗ (∃ r, prngReg c r))
      ⊢ (Pipeline.ΦA spec3 c : sProp 𝕄) := by
  unfold Pipeline.ΦA; rw [scopedRest3_eq]; unfold Others3; simp only [owns_whole]
  iintro ⟨S0, S1, S2, ⟨A0, A1, A2, A3, A4, A5, A6, A7, A8, A9, A10, A11, A12, A13, A14, B0, B1, B2, B3, B4, B5⟩, Hg⟩
  iframe

/-! ## The proof data read off -/

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 (st3 V c t.val t.isLt) := by dsimp only [dat3]

/-- Each input's current staging buffer holds its block at every point, fetched there or not (an unfetched input's
    block index has not moved). -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The scratch recursion, one step at a time -/

/-- Under the first-key-tile condition the step forgets what the scratch held. -/
theorem step3_of_reset (i : grid3.Coords) (h : cond3_0 i) (q k v : Vec F S1x512x128 .bf16) (s s' : St3 F) :
    step3 i q k v s = step3 i q k v s' := by
  unfold step3 reset3; rw [if_pos h, if_pos h]

/-- At the first point the scratch ends at one step from anything. -/
theorem st3_zero (c : Dev nD) (t : Fin cfg3.N) (hz : t.val = 0) (s : St3 F) :
    st3 V c t.val t.isLt = step3 (grid3.coords t) (iblk3 V c 0 t) (iblk3 V c 1 t) (iblk3 V c 2 t) s := by
  obtain ⟨n, hn⟩ := t
  cases n with
  | zero => exact step3_of_reset _ ((hcond3_0 ⟨0, hn⟩).mpr (Nat.zero_mod _)) _ _ _ _ _
  | succ n => exact absurd hz (Nat.succ_ne_zero n)

/-- At a later point, at one step from what the point before left. -/
theorem st3_pos (c : Dev nD) (t : Fin cfg3.N) (hz : t.val ≠ 0) :
    st3 V c t.val t.isLt = step3 (grid3.coords t) (iblk3 V c 0 t) (iblk3 V c 1 t) (iblk3 V c 2 t)
      (st3 V c (t.val - 1) (Nat.lt_of_le_of_lt (Nat.sub_le _ _) t.isLt)) := by
  obtain ⟨n, hn⟩ := t
  cases n with
  | zero => exact absurd rfl hz
  | succ n => rfl

/-! ## The invariant, position by position -/

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3_0 fullShare (st3 V c n hn).1
      ∗ owns (c : Thread nD τ) scM3_1 fullShare (st3 V c n hn).2.1
      ∗ owns (c : Thread nD τ) scM3_2 fullShare (st3 V c n hn).2.2
      ∗ Others3 c ∗ (∃ r, prngReg c r)) := rfl

theorem PhiS3_pos (c : Dev nD) (n : ℕ) (h : n ≤ cfg3.N) (hz : n ≠ 0) :
    PhiS3 V c n h = iprop(owns (c : Thread nD τ) scM3_0 fullShare (st3 V c (n - 1) (by omega)).1
      ∗ owns (c : Thread nD τ) scM3_1 fullShare (st3 V c (n - 1) (by omega)).2.1
      ∗ owns (c : Thread nD τ) scM3_2 fullShare (st3 V c (n - 1) (by omega)).2.2
      ∗ Others3 c ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

/-! ## The invariant's two ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  refine BIBase.Entails.trans ?_ (PhiA3_join c)
  iintro ⟨HS0, HS1, HS2, Hoth, Hg⟩
  isplitl [HS0]; · iexists _; iexact HS0
  isplitl [HS1]; · iexists _; iexact HS1
  isplitl [HS2]; · iexists _; iexact HS2
  isplitl [Hoth]; · iexact Hoth
  iexact Hg

/-- The same after the last point. -/
theorem hout3 (c : Dev nD) : (dat3 V c).Φ (Fin.last cfg3.N) ⊢ Pipeline.ΦA spec3 c :=
  Phi_out3 V c _ (by rw [Fin.val_last]; have : cfg3.N = 1024 := N_3; omega)

/-! ## The body's triple, by whether the key tile is the last one -/

/-- At the last key tile the output tile's buffer ends at the quotient of the new scratch. -/
theorem kernel3_last (c : Dev nD) (E : Set ℕ) (i : grid3.Coords) (h2 : cond3_2 i)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare o
        ∗ owns (c : Thread nD τ) scM3_0 fullShare s.1 ∗ owns (c : Thread nD τ) scM3_1 fullShare s.2.1 ∗ owns (c : Thread nD τ) scM3_2 fullShare s.2.2
        ∗ (iprop(owns (c : Thread nD τ) arg4 fullShare q ∗ owns (c : Thread nD τ) arg5 fullShare k ∗ owns (c : Thread nD τ) arg6 fullShare v
            ∗ owns (c : Thread nD τ) arg7 fullShare (out3 (step3 i q k v s))
            ∗ owns (c : Thread nD τ) scM3_0 fullShare (step3 i q k v s).1 ∗ owns (c : Thread nD τ) scM3_1 fullShare (step3 i q k v s).2.1
            ∗ owns (c : Thread nD τ) scM3_2 fullShare (step3 i q k v s).2.2) -∗ K ⟨⟩))
      ⊢ wp frame (wpE (defs₀ (F := F)) Variants.none c none) E
          (cc3__flash_attn_kernel i arg4 harg4 arg5 harg5 arg6 harg6 arg7 harg7 scM3_0 (Memref.isWhole_whole _) scM3_1 (Memref.isWhole_whole _) scM3_2 (Memref.isWhole_whole _)) K := by
  have h := sound_kernel3 c E i arg4 harg4 arg5 harg5 arg6 harg6 arg7 harg7 q k v o s K
  rw [if_pos h2] at h
  exact h

/-- Elsewhere it is left as found. -/
theorem kernel3_idle (c : Dev nD) (E : Set ℕ) (i : grid3.Coords) (h2 : ¬cond3_2 i)
    (arg4 : Memref sig .tc .vmem S1x512x128 .bf16) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x128 .bf16) (harg7 : arg7.IsWhole)
    (q k v o : Vec F S1x512x128 .bf16) (s : St3 F) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare o
        ∗ owns (c : Thread nD τ) scM3_0 fullShare s.1 ∗ owns (c : Thread nD τ) scM3_1 fullShare s.2.1 ∗ owns (c : Thread nD τ) scM3_2 fullShare s.2.2
        ∗ (iprop(owns (c : Thread nD τ) arg4 fullShare q ∗ owns (c : Thread nD τ) arg5 fullShare k ∗ owns (c : Thread nD τ) arg6 fullShare v
            ∗ owns (c : Thread nD τ) arg7 fullShare o
            ∗ owns (c : Thread nD τ) scM3_0 fullShare (step3 i q k v s).1 ∗ owns (c : Thread nD τ) scM3_1 fullShare (step3 i q k v s).2.1
            ∗ owns (c : Thread nD τ) scM3_2 fullShare (step3 i q k v s).2.2) -∗ K ⟨⟩))
      ⊢ wp frame (wpE (defs₀ (F := F)) Variants.none c none) E
          (cc3__flash_attn_kernel i arg4 harg4 arg5 harg5 arg6 harg6 arg7 harg7 scM3_0 (Memref.isWhole_whole _) scM3_1 (Memref.isWhole_whole _) scM3_2 (Memref.isWhole_whole _)) K := by
  have h := sound_kernel3 c E i arg4 harg4 arg5 harg5 arg6 harg6 arg7 harg7 q k v o s K
  rw [if_neg h2] at h
  exact h

/-! ## The body obligation, at a generic point -/

/-- Each window's current staging memref at point `t`, as the pipeline passes it, and its wholeness. -/
abbrev ms3_0 (t : Fin cfg3.N) : Memref sig .tc .vmem S1x512x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512x128 .bf16 := win3_3.stage (cfg3.slots t 3)
abbrev hs3_3 (t : Fin cfg3.N) : (ms3_3 t).IsWhole := hstage3_3 ((cfg3.slots t 3).cast nbuf3_3)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at a point whose scratch holds `s`, one step of which is the recursion's value there: the inputs hold
    their blocks; the triple runs; the scratch comes back at the recursion's value, the output tile at its quotient
    when the key tile is the last one and as found otherwise; the core owes nothing throughout. -/
theorem sound_core3 (c : Dev nD) (t : Fin cfg3.N) (s : St3 F)
    (hs : st3 V c t.val t.isLt = step3 (grid3.coords t) (iblk3 V c 0 t) (iblk3 V c 1 t) (iblk3 V c 2 t) s) :
    iprop(iprop(owns (c : Thread nD τ) scM3_0 fullShare s.1 ∗ owns (c : Thread nD τ) scM3_1 fullShare s.2.1
        ∗ owns (c : Thread nD τ) scM3_2 fullShare s.2.2 ∗ Others3 (F := F) c ∗ (∃ r, prngReg c r))
      ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d)))
      ⊢ wp frame (wpE (defs₀ (F := F)) Variants.none c none) Set.univ (bodyAt3 t) (fun _ => bodyPost3 V c t) := by
  unfold bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0], after3_0]
  rw [show (dat3 V c).leavesExact 1 t = owns (c : Thread nD τ) (ms3_1 t) fullShare ((dat3 V c).after 1 t) from by
    unfold Dat.leavesExact; rw [liveAt3_1], after3_1]
  rw [show (dat3 V c).leavesExact 2 t = owns (c : Thread nD τ) (ms3_2 t) fullShare ((dat3 V c).after 2 t) from by
    unfold Dat.leavesExact; rw [liveAt3_2], after3_2]
  by_cases h2 : cond3_2 (grid3.coords t)
  · rw [show (dat3 V c).leavesExact 3 t = owns (c : Thread nD τ) (ms3_3 t) fullShare ((dat3 V c).after 3 t) from by
      unfold Dat.leavesExact; rw [liveAt3_3 _ h2], after3_3]
    rw [hs]
    iintro ⟨⟨HS0, HS1, HS2, Hoth, Hg⟩, Ho, ⟨%d0, H0⟩, ⟨%d1, H1⟩, ⟨%d2, H2⟩, ⟨%d3, H3⟩⟩
    iapply (kernel3_last c Set.univ (grid3.coords t) h2 _ _ _ _ _ _ _ _ (iblk3 V c 0 t) (iblk3 V c 1 t) (iblk3 V c 2 t) _ s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 Hoth Hg]
    · isplitl [HS0]; · iexact HS0
      isplitl [HS1]; · iexact HS1
      isplitl [HS2]; · iexact HS2
      isplitl [Hoth]; · iexact Hoth
      iexact Hg
    isplitl [Ho]; · iexact Ho
    isplitl [H0]; · iexact H0
    isplitl [H1]; · iexact H1
    isplitl [H2]; · iexact H2
    iexact H3
  · rw [Dat.leavesExact_idle (dat3 V c) 3 t (idleAt3_3 _ h2) (noFlush3_3 t h2)]
    rw [hs]
    iintro ⟨⟨HS0, HS1, HS2, Hoth, Hg⟩, Ho, ⟨%d0, H0⟩, ⟨%d1, H1⟩, ⟨%d2, H2⟩, ⟨%d3, H3⟩⟩
    iapply (kernel3_idle c Set.univ (grid3.coords t) h2 _ _ _ _ _ _ _ _ (iblk3 V c 0 t) (iblk3 V c 1 t) (iblk3 V c 2 t) _ s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 Hoth Hg]
    · isplitl [HS0]; · iexact HS0
      isplitl [HS1]; · iexact HS1
      isplitl [HS2]; · iexact HS2
      isplitl [Hoth]; · iexact Hoth
      iexact Hg
    isplitl [Ho]; · iexact Ho
    isplitl [H0]; · iexact H0
    isplitl [H1]; · iexact H1
    isplitl [H2]; · iexact H2
    iexists _; iexact H3

set_option maxHeartbeats 4000000 in
/-- The body at any point: before the first point the launch's invariant hands the scratch over at anything (the
    first point resets it); later the invariant names what the point before left. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3
  rw [PhiS3_castSucc]
  by_cases hz : t.val = 0
  · rw [PhiS3_zero V c _ _ hz]
    refine (sep_mono (PhiA3_split c) .rfl).trans ?_
    iintro ⟨⟨⟨%d0, HS0⟩, ⟨%d1, HS1⟩, ⟨%d2, HS2⟩, Hoth, Hg⟩, Ho, H0, H1, H2, H3⟩
    iapply (sound_core3 V c t (d0, d1, d2) (st3_zero V c t hz _))
    isplitl [HS0 HS1 HS2 Hoth Hg]
    · isplitl [HS0]; · iexact HS0
      isplitl [HS1]; · iexact HS1
      isplitl [HS2]; · iexact HS2
      isplitl [Hoth]; · iexact Hoth
      iexact Hg
    isplitl [Ho]; · iexact Ho
    isplitl [H0]; · iexact H0
    isplitl [H1]; · iexact H1
    isplitl [H2]; · iexact H2
    iexact H3
  · rw [PhiS3_pos V c _ _ hz]
    exact sound_core3 V c t _ (st3_pos V c t hz)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.RunFold.lean ====
/-
  The run of the program, first half: what every unscoped buffer of a core holds at each of the ten boundaries
  between the nine segments of the entry function (a stretch of host operations, three projections, a stretch of
  reshapes, the attention, a reshape, the output projection, a reshape), as a fold from the launch memory.  A host
  stretch rewrites the buffers its operations write; a region rewrites its windows' arrays with what its pipeline
  leaves there (inputs as entered, the output's write-backs folded) and leaves every other buffer alone.  The
  accessor lemmas read the fold at one buffer, one boundary back; the six argument arrays walk back to the launch.
-/
import proofs.«137829_j2276332667508_2_alg».proof.Proof.KI.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- No operation of `hostOps0` allocates a buffer. -/
theorem hostOps0_fresh : (hostOps0 : List (HloOp τ sig (Elt F))).Forall fun op => op.fresh = ∅ := by
  simp only [List.Forall]; repeat' constructor
/-- The references the operations of `hostOps0` write. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write holds after it what it held before. -/
theorem W1_of_not_written (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at
    entry: the two hypotheses under which the arrays and the bypassing buffers make the unscoped buffers again. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves and every other buffer what it held at
    entry: the two hypotheses under which the arrays and the bypassing buffers make the unscoped buffers again. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves and every other buffer what it held at
    entry: the two hypotheses under which the arrays and the bypassing buffers make the unscoped buffers again. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host stretch `hostOps3`. -/
abbrev W5 : Dev nD → Valuation τ sig (Elt F) := fun c => StableHlo.after hostOps3 (W4 m ρ c)
/-- No operation of `hostOps3` allocates a buffer. -/
theorem hostOps3_fresh : (hostOps3 : List (HloOp τ sig (Elt F))).Forall fun op => op.fresh = ∅ := by
  simp only [List.Forall]; repeat' constructor
/-- The references the operations of `hostOps3` write. -/
abbrev hostOps3_W : List (Ref sig .tc) := [main_v10, main_v11, main_v12]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write holds after it what it held before. -/
theorem W5_of_not_written (c : Dev nD) (r : Ref sig .tc) (h : r ∉ (hostOps3_W : List (Ref sig .tc))) :
    W5 m ρ c (Proc.devRef .tc r) = W4 m ρ c (Proc.devRef .tc r) :=
  StableHlo.after_of_writes_sub hostOps3 _ hostOps3_writes h

/-- The same read at the TensorCore's references (what region 3's proof data take). -/
abbrev V5 : (c : Dev nD) → (b : Ref sig .tc) → Buf (Elt F) ((c : Thread nD τ).loc b) := fun c b => W5 m ρ c b
/-- At region 3's exit: its arrays at what the pipeline leaves (the inputs as entered, the output's write-backs
    folded), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves and every other buffer what it held at
    entry: the two hypotheses under which the arrays and the bypassing buffers make the unscoped buffers again. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4`. -/
abbrev W7 : Dev nD → Valuation τ sig (Elt F) := fun c => StableHlo.after hostOps4 (W6 m ρ c)
/-- No operation of `hostOps4` allocates a buffer. -/
theorem hostOps4_fresh : (hostOps4 : List (HloOp τ sig (Elt F))).Forall fun op => op.fresh = ∅ := by
  simp only [List.Forall]; repeat' constructor
/-- The references the operations of `hostOps4` write. -/
abbrev hostOps4_W : List (Ref sig .tc) := [main_v14]
theorem hostOps4_writes : (hostOps4 : List (HloOp τ sig (Elt F))).Forall fun op => op.writes ⊆ (hostOps4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem W7_of_not_written (c : Dev nD) (r : Ref sig .tc) (h : r ∉ (hostOps4_W : List (Ref sig .tc))) :
    W7 m ρ c (Proc.devRef .tc r) = W6 m ρ c (Proc.devRef .tc r) :=
  StableHlo.after_of_writes_sub hostOps4 _ hostOps4_writes h

/-- The same read at the TensorCore's references (what region 4's proof data take). -/
abbrev V7 : (c : Dev nD) → (b : Ref sig .tc) → Buf (Elt F) ((c : Thread nD τ).loc b) := fun c b => W7 m ρ c b
/-- At region 4's exit: its arrays at what the pipeline leaves (the inputs as entered, the output's write-backs
    folded), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references (region 4's exit contents). -/
abbrev V8 : (c : Dev nD) → (b : Ref sig .tc) → Buf (Elt F) ((c : Thread nD τ).loc b) := fun c b => W8 m ρ c b
/-- At region 4's exit each of its arrays holds what the pipeline leaves and every other buffer what it held at
    entry: the two hypotheses under which the arrays and the bypassing buffers make the unscoped buffers again. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After the host stretch `hostOps5`. -/
abbrev W9 : Dev nD → Valuation τ sig (Elt F) := fun c => StableHlo.after hostOps5 (W8 m ρ c)
/-- No operation of `hostOps5` allocates a buffer. -/
theorem hostOps5_fresh : (hostOps5 : List (HloOp τ sig (Elt F))).Forall fun op => op.fresh = ∅ := by
  simp only [List.Forall]; repeat' constructor
/-- The references the operations of `hostOps5` write. -/
abbrev hostOps5_W : List (Ref sig .tc) := [main_v16]
theorem hostOps5_writes : (hostOps5 : List (HloOp τ sig (Elt F))).Forall fun op => op.writes ⊆ (hostOps5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem W9_of_not_written (c : Dev nD) (r : Ref sig .tc) (h : r ∉ (hostOps5_W : List (Ref sig .tc))) :
    W9 m ρ c (Proc.devRef .tc r) = W8 m ρ c (Proc.devRef .tc r) :=
  StableHlo.after_of_writes_sub hostOps5 _ hostOps5_writes h

/-! ## The arguments end as launched

No host operation writes an argument array and no region has one as a window's array, so the fold at an argument's
buffer walks back, boundary by boundary, to the launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_not_written m ρ c main_arg0 (by decide)
    _ = W7 m ρ c (Proc.devRef .tc main_arg0) := W8_of_ne m ρ c main_arg0 (by decide)
    _ = W6 m ρ c (Proc.devRef .tc main_arg0) := W7_of_not_written m ρ c main_arg0 (by decide)
    _ = W5 m ρ c (Proc.devRef .tc main_arg0) := W6_of_ne m ρ c main_arg0 (by decide)
    _ = W4 m ρ c (Proc.devRef .tc main_arg0) := W5_of_not_written m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_not_written m ρ c main_arg1 (by decide)
    _ = W7 m ρ c (Proc.devRef .tc main_arg1) := W8_of_ne m ρ c main_arg1 (by decide)
    _ = W6 m ρ c (Proc.devRef .tc main_arg1) := W7_of_not_written m ρ c main_arg1 (by decide)
    _ = W5 m ρ c (Proc.devRef .tc main_arg1) := W6_of_ne m ρ c main_arg1 (by decide)
    _ = W4 m ρ c (Proc.devRef .tc main_arg1) := W5_of_not_written m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_not_written m ρ c main_arg2 (by decide)
    _ = W7 m ρ c (Proc.devRef .tc main_arg2) := W8_of_ne m ρ c main_arg2 (by decide)
    _ = W6 m ρ c (Proc.devRef .tc main_arg2) := W7_of_not_written m ρ c main_arg2 (by decide)
    _ = W5 m ρ c (Proc.devRef .tc main_arg2) := W6_of_ne m ρ c main_arg2 (by decide)
    _ = W4 m ρ c (Proc.devRef .tc main_arg2) := W5_of_not_written m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_not_written m ρ c main_arg3 (by decide)
    _ = W7 m ρ c (Proc.devRef .tc main_arg3) := W8_of_ne m ρ c main_arg3 (by decide)
    _ = W6 m ρ c (Proc.devRef .tc main_arg3) := W7_of_not_written m ρ c main_arg3 (by decide)
    _ = W5 m ρ c (Proc.devRef .tc main_arg3) := W6_of_ne m ρ c main_arg3 (by decide)
    _ = W4 m ρ c (Proc.devRef .tc main_arg3) := W5_of_not_written m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_not_written m ρ c main_arg4 (by decide)
    _ = W7 m ρ c (Proc.devRef .tc main_arg4) := W8_of_ne m ρ c main_arg4 (by decide)
    _ = W6 m ρ c (Proc.devRef .tc main_arg4) := W7_of_not_written m ρ c main_arg4 (by decide)
    _ = W5 m ρ c (Proc.devRef .tc main_arg4) := W6_of_ne m ρ c main_arg4 (by decide)
    _ = W4 m ρ c (Proc.devRef .tc main_arg4) := W5_of_not_written m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_not_written m ρ c main_arg4 (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_not_written m ρ c main_arg5 (by decide)
    _ = W7 m ρ c (Proc.devRef .tc main_arg5) := W8_of_ne m ρ c main_arg5 (by decide)
    _ = W6 m ρ c (Proc.devRef .tc main_arg5) := W7_of_not_written m ρ c main_arg5 (by decide)
    _ = W5 m ρ c (Proc.devRef .tc main_arg5) := W6_of_ne m ρ c main_arg5 (by decide)
    _ = W4 m ρ c (Proc.devRef .tc main_arg5) := W5_of_not_written m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_not_written m ρ c main_arg5 (by decide)
    _ = m ((c : Thread nD τ).loc main_arg5) := rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Run.lean ====
/-
  The run of the program, second half: the nine segments as the several-regions launch takes them.  Each host
  stretch runs over every unscoped buffer of the core from one boundary's contents to the next; each region splits
  its windows' arrays out of those buffers, runs its pipeline on them and puts them back at the exit contents, the
  random-number register passing through the region invariant.  The five bodies' obligations and the attention region's
  two invariant entailments are hypotheses here.  What comes out: every weakly fair execution terminates and every
  unscoped buffer of every core ends at the last boundary's contents, so in particular the six argument arrays end
  as launched.
-/
import proofs.«137829_j2276332667508_2_alg».proof.Proof.KI.RunFold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal match, so that the launch theorem's
    pinned configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents `W9`, the
    random-number register at some state. -/
abbrev Tₙ (c : Dev nD) : sProp 𝕄 := iprop(StableHlo.held (c : Thread nD τ) (Pipeline.ucRefs τ sig) (W9 m ρ c) ∗ ∃ r, prngReg c r)

/-! ## The hypotheses: the bodies' obligations, and the attention region's invariant at its two ends -/

variable (hb0 : ∀ (V : (c : Dev nD) → (b : Ref sig .tc) → Buf (Elt F) ((c : Thread nD τ).loc b)) (c : Dev nD), BodyObligation (dat0 (F := F) V c) (defs₀ (F := F)) Variants.none () Set.univ)
variable (hb1 : ∀ (V : (c : Dev nD) → (b : Ref sig .tc) → Buf (Elt F) ((c : Thread nD τ).loc b)) (c : Dev nD), BodyObligation (dat1 (F := F) V c) (defs₀ (F := F)) Variants.none () Set.univ)
variable (hb2 : ∀ (V : (c : Dev nD) → (b : Ref sig .tc) → Buf (Elt F) ((c : Thread nD τ).loc b)) (c : Dev nD), BodyObligation (dat2 (F := F) V c) (defs₀ (F := F)) Variants.none () Set.univ)
variable (hb3 : ∀ (V : (c : Dev nD) → (b : Ref sig .tc) → Buf (Elt F) ((c : Thread nD τ).loc b)) (c : Dev nD), BodyObligation (dat3 (F := F) V c) (defs₀ (F := F)) Variants.none () Set.univ)
variable (hb4 : ∀ (V : (c : Dev nD) → (b : Ref sig .tc) → Buf (Elt F) ((c : Thread nD τ).loc b)) (c : Dev nD), BodyObligation (dat4 (F := F) V c) (defs₀ (F := F)) Variants.none () Set.univ)
variable (hin3 : ∀ (V : (c : Dev nD) → (b : Ref sig .tc) → Buf (Elt F) ((c : Thread nD τ).loc b)) (c : Dev nD), Pipeline.ΦA spec3 c ⊢ (dat3 (F := F) V c).Φ 0)
variable (hout3 : ∀ (V : (c : Dev nD) → (b : Ref sig .tc) → Buf (Elt F) ((c : Thread nD τ).loc b)) (c : Dev nD), (dat3 (F := F) V c).Φ (Fin.last cfg3.N) ⊢ Pipeline.ΦA spec3 c)

/-! ## The regions as segments -/

-- applying a library lemma stated over `pin pcs a p` unifies with the pinned configuration only when unification may
-- unfold plain definitions in a metavariable's type
set_option backward.isDefEq.respectTransparency.types false in
/-- Region 0 over the thread state: entered from every unscoped buffer at `W1`, left at `W2`. Its arrays split
    out of the unscoped buffers and put back at the exit contents; the random-number register into the region invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 1 over the thread state: entered from every unscoped buffer at `W2`, left at `W3`. Its arrays split
    out of the unscoped buffers and put back at the exit contents; the random-number register into the region invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 2 over the thread state: entered from every unscoped buffer at `W3`, left at `W4`. Its arrays split
    out of the unscoped buffers and put back at the exit contents; the random-number register into the region invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 3 over the thread state: entered from every unscoped buffer at `W5`, left at `W6`. Its arrays split
    out of the unscoped buffers and put back at the exit contents; the random-number register into the region invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec3 c : sProp 𝕄) ⊢ (pdats m ρ 3 c).Φ 0 := hin3 (V5 m ρ) c
    refine BIBase.Entails.trans ?_ h
    unfold Pipeline.ΦA
    iintro ⟨Hp, -, Hr⟩
    isplitl [Hr]; · iexact Hr
    iexact Hp
  hout c := by
    rw [Pipeline.ownSems0_none]
    have h : (pdats m ρ 3 c).Φ (Fin.last _) ⊢ (Pipeline.ΦA spec3 c : sProp 𝕄) := hout3 (V5 m ρ) c
    refine BIBase.Entails.trans h ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over `pin pcs a p` unifies with the pinned configuration only when unification may
-- unfold plain definitions in a metavariable's type
set_option backward.isDefEq.respectTransparency.types false in
/-- Region 4 over the thread state: entered from every unscoped buffer at `W7`, left at `W8`. Its arrays split
    out of the unscoped buffers and put back at the exit contents; the random-number register into the region invariant
    and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .region (reg1 m ρ hb1),
    .region (reg2 m ρ hb2),
    .host (hseg hostOps3 hostOps3_sub hostOps3_fresh (W4 m ρ)),
    .region (reg3 m ρ hb3 hin3 hout3),
    .host (hseg hostOps4 hostOps4_sub hostOps4_fresh (W6 m ρ)),
    .region (reg4 m ρ hb4),
    .host (hseg hostOps5 hostOps5_sub hostOps5_fresh (W8 m ρ)) ]
/-- The entry function is the run of the segments: it is the chain of its items, and the segments' run is that chain
    by definitional unfolding. -/
theorem main_run (c : Dev nD) : main (F := F) c = Pipeline.Seg.run (segs m ρ hb0 hb1 hb2 hb3 hb4 hin3 hout3) := (main_chain c).trans (by chain_rfl)

include hb0 hb1 hb2 hb3 hb4 hin3 hout3

-- the launch theorem's implicit arguments are found by unifying its conclusion with this one, which takes unfolding
-- plain definitions in a metavariable's type
set_option backward.isDefEq.respectTransparency.types false in
/-- The launch over the segments, at any postcondition that follows from the final memory holding, on every core and
    at every unscoped buffer, the last boundary's contents: at the compiled mesh, from any memory with zero counters,
    every weakly fair execution on the TensorCores terminates, nothing faulting, and every final memory satisfies it.
    The thread states chain by reflexivity up to the last host stretch, whose end is regrouped; the last state is read
    against the final memory buffer by buffer. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ hb0 hb1 hb2 hb3 hb4 hin3 hout3)
    (fun c Q => by rw [main_run m ρ hb0 hb1 hb2 hb3 hb4 hin3 hout3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The run: every weakly fair execution terminates, and every unscoped buffer of every core ends at the last
    boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  run_post m ρ hb0 hb1 hb2 hb3 hb4 hin3 hout3 fun s h => h

/-- The frame: every weakly fair execution terminates and the six argument arrays end as launched, each read off the
    last boundary's contents and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_post m ρ hb0 hb1 hb2 hb3 hb4 hin3 hout3 fun s h c =>
      ⟨(h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩

/-- info: 'Cert.KernelIdeal.Hand.run' depends on axioms: [propext, Classical.choice, Quot.sound] -/
#guard_msgs in #print axioms run
/-- info: 'Cert.KernelIdeal.Hand.frame' depends on axioms: [propext, Classical.choice, Quot.sound] -/
#guard_msgs in #print axioms frame

end Cert.KernelIdeal.Hand

end
-- ==== Proof.LibRowSoftmax.lean ====
/-
  A row softmax on the extended reals, written the way a program computes it, and a row in which only a run of
  lanes carries scores.

  The maximum of a row is taken from −∞ (twice over: the reduction starts at −∞ and its result is joined with −∞
  once more); the softmax at lane j is exp (r j − max) over the sum, taken from 0, of exp (r k − max).  A row of N
  lanes in which only the lanes lo ≤ j < lo + n carry scores, every other lane holding −∞, is `mrow lo n r`.
-/
import Idealize.ShloMosaic.PureOps.Ideal.Laws

noncomputable section

namespace Cert.LibRowSoftmax

open Idealize.ShloMosaic

/-- A row's maximum, taken from −∞ and joined with −∞ once more. -/
def rowMax {n : ℕ} (r : Fin n → EReal) : EReal := max ⊥ ((Finset.univ : Finset (Fin n)).fold max ⊥ r)

/-- A row's softmax at lane j: exp (r j − max) over the sum, from 0, of exp (r k − max). -/
def rowSoft {n : ℕ} (r : Fin n → EReal) (j : Fin n) : EReal :=
  Ideal.div (Ideal.exp (r j - rowMax r)) (0 + ∑ k : Fin n, Ideal.exp (r k - rowMax r))

/-- A row of N lanes of which only the lanes lo ≤ j < lo + n carry scores; every other lane holds −∞. -/
def mrow {N : ℕ} (lo n : ℕ) (r : Fin N → EReal) (j : Fin N) : EReal :=
  if lo ≤ j.val ∧ j.val < lo + n then r j else ⊥

end Cert.LibRowSoftmax

end
-- ==== Proof.Spec.lean ====
/-
  The function both programs compute, on the extended reals, stage by stage and index by index.

  x is a batch of 4 sequences of 2048 rows of 2048 features; the four weight matrices are 2048 × 2048, stored
  output-feature first, and the bias has 2048 entries.  A linear layer is y(b,t,o) = Σ_d x(b,t,d) · w(o,d).
  The 2048 output features of the query, key and value layers are read as 16 heads of 128 lanes: feature
  o = 128·h + e.  For head h the score of query row i against key row j is Σ_e q(b,i,128h+e) · k(b,j,128h+e),
  times the scale c = 2^20 / 11863283 (the reciprocal of the float nearest to √128), and −∞ when j > i (a position
  may not look ahead).  The context row is the softmax of the score row against the value rows, and the output is one
  more linear layer plus the bias.
-/
import Idealize.ShloMosaic.PureOps.Ideal
import proofs.«137829_j2276332667508_2_alg».proof.Proof.LibRowSoftmax

noncomputable section

namespace Cert.Spec

open Idealize.ShloMosaic Cert.LibRowSoftmax
open scoped BigOperators

/-- A batch of sequences: batch, row, feature. -/
abbrev Seq : Type := Fin 4 → Fin 2048 → Fin 2048 → EReal
/-- A weight matrix: output feature, input feature. -/
abbrev Mat : Type := Fin 2048 → Fin 2048 → EReal

/-- The score scale: the reciprocal of the float nearest to √128, as a rational. -/
def scale : EReal := ((1048576 / 11863283 : ℝ) : EReal)

/-- A linear layer: y(b,t,o) = Σ_d x(b,t,d) · w(o,d). -/
def proj (x : Seq) (w : Mat) : Seq := fun b t o => ∑ d : Fin 2048, x b t d * w o d

/-- Feature 128·h + e: lane e of head h. -/
def lane (h : Fin 16) (e : Fin 128) : Fin 2048 := ⟨128 * h.val + e.val, by omega⟩

/-- The head a feature belongs to. -/
def headOf (o : Fin 2048) : Fin 16 := ⟨o.val / 128, by omega⟩

/-- The scaled, causally masked scores of query row i of head h: −∞ at the key rows after i. -/
def scoreRow (q k : Seq) (b : Fin 4) (h : Fin 16) (i : Fin 2048) : Fin 2048 → EReal := fun j =>
  if i.val < j.val then ⊥ else (∑ e : Fin 128, q b i (lane h e) * k b j (lane h e)) * scale

/-- The attention context: the softmax of the score row of the feature's head against the value rows. -/
def ctx (q k v : Seq) : Seq := fun b i o => ∑ j : Fin 2048, rowSoft (scoreRow q k b (headOf o) i) j * v b j o

/-- The whole layer. -/
def out (x : Seq) (wq wk wv wo : Mat) (bo : Fin 2048 → EReal) : Seq := fun b t o =>
  (∑ d : Fin 2048, ctx (proj x wq) (proj x wk) (proj x wv) b t d * wo o d) + bo o

end Cert.Spec

end
-- ==== Proof.SpecRead.lean ====
/-
  Arrays read as functions of their coordinates: the arguments of both programs, as the specification takes them.
-/
import proofs.«137829_j2276332667508_2_alg».proof.Proof.Spec
import Idealize.ShloMosaic.Lib.ValueIdx

noncomputable section

namespace Cert.Spec

open Idealize.ShloMosaic Idealize.ShloMosaic.ValueIdx

/-- A 4 × 2048 × 2048 array as a function of batch, row and feature. -/
def seqOf (x : (⟨3, ![4, 2048, 2048]⟩ : Shape).Idx → EReal) : Seq := fun b t d => x (ix3 b t d)
/-- A 2048 × 2048 array as a function of output and input feature. -/
def matOf (w : (⟨2, ![2048, 2048]⟩ : Shape).Idx → EReal) : Mat := fun o d => w (ix2 o d)
/-- A vector of 2048 entries as a function of the feature. -/
def vecOf (v : (⟨1, ![2048]⟩ : Shape).Idx → EReal) : Fin 2048 → EReal := fun o => v (ix1 o)
/-- An 8192 × 2048 array (the four sequences' rows one after another) as a function of batch, row and feature. -/
def rowsOf (y : (⟨2, ![8192, 2048]⟩ : Shape).Idx → EReal) : Seq := fun b t d => y (ix2 ⟨2048 * b.val + t.val, by omega⟩ d)

end Cert.Spec

end
-- ==== Proof.LibMergeRows.lean ====
/-
  Merging an array's two leading axes into one axis of rows, and splitting them again, read at an index.

  A reshape keeps every element's row-major position. For an A × B × C array read as R × C rows (R = A · B), the row
  b · B + l of the merged array is the row (b, l) of the original: entry (b · B + l, d) is entry (b, l, d). For an
  R × K array read as A × B × K, entry (b, l, k) is entry (b · B + l, k). The row-major position of (b, l, d) is
  (b · B + l) · C + d, the position of (r, d) is r · C + d, and the two agree when r = b · B + l.
-/
import Idealize.ShloMosaic.Lib.Pipeline.Value
import Idealize.ShloMosaic.Lib.ValueIdx

namespace Cert.LibMergeRows

open Idealize.ShloMosaic Idealize.ShloMosaic.ValueIdx

variable {α : Type}

/-- An A × B × C array reshaped to R × C, at (r, d) with r = b · B + l, reads the array at (b, l, d). -/
theorem shapeCast_merge_apply {A B C R : ℕ} (x : (⟨3, ![A, B, C]⟩ : Shape).Idx → α)
    (h : (⟨3, ![A, B, C]⟩ : Shape).ShapeCasts ⟨2, ![R, C]⟩) (b : Fin A) (l : Fin B) (d : Fin C) (r : Fin R)
    (hr : r.val = b.val * B + l.val) : shapeCast ⟨2, ![R, C]⟩ x h (ix2 r d) = x (ix3 b l d) :=
  shapeCast_apply x h _ _ (by
    rw [Shape.rowMajor_val_three, Shape.rowMajor_val_two]
    show (b.val * B + l.val) * C + d.val = r.val * C + d.val
    rw [hr])

/-- An R × K array reshaped to A × B × K, at (b, l, k), reads the array at (r, k) with r = b · B + l. -/
theorem shapeCast_split_apply {A B K R : ℕ} (y : (⟨2, ![R, K]⟩ : Shape).Idx → α)
    (h : (⟨2, ![R, K]⟩ : Shape).ShapeCasts ⟨3, ![A, B, K]⟩) (b : Fin A) (l : Fin B) (k : Fin K) (r : Fin R)
    (hr : r.val = b.val * B + l.val) : shapeCast ⟨3, ![A, B, K]⟩ y h (ix3 b l k) = y (ix2 r k) :=
  shapeCast_apply y h _ _ (by
    rw [Shape.rowMajor_val_two, Shape.rowMajor_val_three]
    show r.val * K + k.val = (b.val * B + l.val) * K + k.val
    rw [hr])

end Cert.LibMergeRows
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.KI.ProjValue.lean ====
/-
  What the four matrix-product regions leave in their output arrays, on the extended reals, whatever the arrays
  hold when the region is entered.

  Regions 0, 1, 2 walk the 16 row blocks of an 8192 × 2048 left array; at each block they multiply its 512 rows by
  the whole 2048 × 2048 right array, contracting the second axis of both, and write the 512 × 2048 result to the same
  row block of the output.  So entry (p, o) of the output is Σ_k left(p, k) · right(o, k): row p of the left array
  against row o of the right one.  Region 4 adds entry o of a 1 × 2048 bias row.

  Each region is read in the same steps: the body's one store at an entry (the product into the zero accumulator is
  the plain sum over the contracted coordinate; the narrowing of the result is the identity on the extended reals);
  the block a grid point writes back as the block of ONE whole-array function of the entry arrays (a block's
  coordinate is block index × block size + the coordinate inside the block; the left and output windows sit on block
  t at point t, the right array and the bias row on their one block); the cover (row p lies in the block of point
  p / 512, and every point writes back); and the whole-array post of a pipelined map.
-/
import proofs.«137829_j2276332667508_2_alg».proof.Proof.KI.Defs
import proofs.«137829_j2276332667508_2_alg».proof.Proof.LibDotT
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

namespace ProjValue

variable (V : (c : Dev nD) → (b : Ref sig .tc) → Buf (Elt Ideal) ((c : Thread nD τ).loc b))

/-- The zero offsets of a rank-2 rectangle. -/
theorem zero2 : (![0, 0] : Fin 2 → Nat) = fun _ => 0 := funext fun a => by fin_cases a <;> rfl

/-- The whole-array product with the transposed right factor: row `i 0` of the left array against row `i 1` of
    the right one. -/
abbrev prodT (A : S8192x2048.Idx → EReal) (B : S2048x2048.Idx → EReal) : S8192x2048.Idx → EReal :=
  fun i => ∑ k : Fin 2048, A (ix2 (i 0) k) * B (ix2 (i 1) k)

/-! ## Region 0 -/

/-- The product of a row block with the transposed weight matrix, entry by entry. -/
theorem out0_2_apply (x0 : Vec Ideal S512x2048 .bf16) (x1 : Vec Ideal S2048x2048 .bf16) (r : Fin 512) (o : Fin 2048) :
    out0_2 x0 x1 (ix2 r o) = ∑ k : Fin 2048, x0 (ix2 r k) * x1 (ix2 o k) := by
  unfold out0_2
  rw [View.canon_unit_zero zero2]
  simp only [View.ld_unit_zero (S := S512x2048) zero2, View.ld_unit_zero (S := S2048x2048) zero2]
  unfold k0_pay1
  simp only [shapeCast_self]
  rw [truncf_apply]
  exact Cert.LibDotT.matmul_zero_transposed_apply dot_S512x2048_S2048x2048_S512x2048_1_1_0_0_n_n rfl rfl rfl rfl rfl rfl none x0 x1 (ix2 r o)

/-- One point's block of the product: a row block whose rows sit at offset `tv * 512` of the left array, against
    the whole right array, is the product's block at the same offset. -/
theorem out0_2_point (A : S8192x2048.Idx → EReal) (B : S2048x2048.Idx → EReal)
    (x0 : Vec Ideal S512x2048 .bf16) (x1 : Vec Ideal S2048x2048 .bf16) (tv : Nat)
    (h0 : ∀ (y : S512x2048.Idx) (i : S8192x2048.Idx), (i 0).val = tv * 512 + (y 0).val → (i 1).val = (y 1).val → x0 y = A i)
    (h1 : ∀ y : S2048x2048.Idx, x1 y = B y)
    (y : S512x2048.Idx) (i : S8192x2048.Idx) (hi0 : (i 0).val = tv * 512 + (y 0).val) (hi1 : (i 1).val = (y 1).val) :
    out0_2 x0 x1 y = prodT A B i := by
  obtain ⟨r, q, rfl⟩ : ∃ (r : Fin 512) (q : Fin 2048), y = ix2 r q := ⟨y 0, y 1, eq_ix2 y⟩
  obtain ⟨p, o, rfl⟩ : ∃ (p : Fin 8192) (o : Fin 2048), i = ix2 p o := ⟨i 0, i 1, eq_ix2 i⟩
  rw [out0_2_apply]
  refine Finset.sum_congr rfl fun k _ => ?_
  rw [h0 (ix2 r k) (ix2 p k) hi0 rfl, h1]
  have e : q = o := Fin.ext hi1.symm
  rw [e]

/-- The block index maps over the grid: the left and output windows walk the row blocks in order, the right window
    stays on its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed0 (c : Dev nD) (t : Fin cfg0.N) :
    (dat0 (F := Ideal) V c).flushed 2 t = ((cfg0.win 2).blk t).view.read (Elt Ideal) (prodT (V c main_v1) (V c main_v2)) := by
  show (cfg0.win 2).cut (grid0.coords t) ((dat0 V c).after 2 t) = _
  rw [show (dat0 V c).after 2 t = out0_2 (iblk0 V c 0 t) (iblk0 V c 1 t) by dsimp only [dat0]]
  obtain ⟨e00, e01, e10, e11, e20, e21⟩ := idx0 t
  funext j
  rw [View.read_apply]
  refine out0_2_point (V c main_v1) (V c main_v2) _ _ t.val ?_ ?_ _ _ ?_ ?_
  · intro y i hi0 hi1
    unfold iblk0
    rw [View.read_apply]
    show V c main_v1 (((cfg0.win 0).blk t).view.emb y) = V c main_v1 i
    refine congrArg _ (funext fun a => Fin.ext ?_)
    match a with
    | ⟨0, _⟩ => show win0_0.index t (0 : Fin 2) * 512 + 1 * (y 0).val = (i 0).val; omega
    | ⟨1, _⟩ => show win0_0.index t (1 : Fin 2) * 2048 + 1 * (y 1).val = (i 1).val; omega
  · intro y
    unfold iblk0
    rw [View.read_apply]
    show V c main_v2 (((cfg0.win 1).blk t).view.emb y) = V c main_v2 y
    refine congrArg _ (funext fun a => Fin.ext ?_)
    match a with
    | ⟨0, _⟩ => show win0_1.index t (0 : Fin 2) * 2048 + 1 * (y 0).val = (y 0).val; omega
    | ⟨1, _⟩ => show win0_1.index t (1 : Fin 2) * 2048 + 1 * (y 1).val = (y 1).val; omega
  · show win0_2.index t (0 : Fin 2) * 512 + 1 * (j 0).val = t.val * 512 + (j 0).val; omega
  · show win0_2.index t (1 : Fin 2) * 2048 + 1 * (j 1).val = (j 1).val; omega

/-- An index of the output array is in point `t`'s block iff each coordinate is in the block's range on its axis. -/
theorem mem_blk0 (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v7).slice (win0_2.rect t)).set ↔ _
  rw [View.set_slice_whole, Rect.mem_set_unit]
  exact Iff.rfl

/-- Row `p` of the output lies in the block of point `p / 512`, and every point writes its block back. -/
theorem cover0 (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  have hN : (i 0).val / 512 < cfg0.N := by show (i 0).val / 512 < 16; omega
  obtain ⟨-, -, -, -, e20, e21⟩ := idx0 ⟨(i 0).val / 512, hN⟩
  refine ⟨⟨(i 0).val / 512, hN⟩, flush0_2 _, ?_⟩
  rw [mem_blk0]
  intro a
  match a with
  | ⟨0, _⟩ => show win0_2.index ⟨(i 0).val / 512, hN⟩ (0 : Fin 2) * 512 ≤ (i 0).val ∧ (i 0).val < win0_2.index ⟨(i 0).val / 512, hN⟩ (0 : Fin 2) * 512 + 512; rw [e20]; show (i 0).val / 512 * 512 ≤ (i 0).val ∧ (i 0).val < (i 0).val / 512 * 512 + 512; omega
  | ⟨1, _⟩ => show win0_2.index ⟨(i 0).val / 512, hN⟩ (1 : Fin 2) * 2048 ≤ (i 1).val ∧ (i 1).val < win0_2.index ⟨(i 0).val / 512, hN⟩ (1 : Fin 2) * 2048 + 2048; rw [e21]; omega

/-- The output array of region 0 after its last point: the product of the two arrays it was entered with. -/
theorem array0 (c : Dev nD) :
    (dat0 (F := Ideal) V c).arrAt 2 cfg0.N = prodT (V c main_v1) (V c main_v2) :=
  (dat0 (F := Ideal) V c).arrAt_eq_of_cover 2 (prodT (V c main_v1) (V c main_v2)) (fun t _ => flushed0 V c t) cover0

/-! ## Region 1 -/

/-- The product of a row block with the transposed weight matrix, entry by entry. -/
theorem out1_2_apply (x0 : Vec Ideal S512x2048 .bf16) (x1 : Vec Ideal S2048x2048 .bf16) (r : Fin 512) (o : Fin 2048) :
    out1_2 x0 x1 (ix2 r o) = ∑ k : Fin 2048, x0 (ix2 r k) * x1 (ix2 o k) := by
  unfold out1_2
  rw [View.canon_unit_zero zero2]
  simp only [View.ld_unit_zero (S := S512x2048) zero2, View.ld_unit_zero (S := S2048x2048) zero2]
  unfold k1_pay1
  simp only [shapeCast_self]
  rw [truncf_apply]
  exact Cert.LibDotT.matmul_zero_transposed_apply dot_S512x2048_S2048x2048_S512x2048_1_1_0_0_n_n rfl rfl rfl rfl rfl rfl none x0 x1 (ix2 r o)

/-- One point's block of the product: a row block whose rows sit at offset `tv * 512` of the left array, against
    the whole right array, is the product's block at the same offset. -/
theorem out1_2_point (A : S8192x2048.Idx → EReal) (B : S2048x2048.Idx → EReal)
    (x0 : Vec Ideal S512x2048 .bf16) (x1 : Vec Ideal S2048x2048 .bf16) (tv : Nat)
    (h0 : ∀ (y : S512x2048.Idx) (i : S8192x2048.Idx), (i 0).val = tv * 512 + (y 0).val → (i 1).val = (y 1).val → x0 y = A i)
    (h1 : ∀ y : S2048x2048.Idx, x1 y = B y)
    (y : S512x2048.Idx) (i : S8192x2048.Idx) (hi0 : (i 0).val = tv * 512 + (y 0).val) (hi1 : (i 1).val = (y 1).val) :
    out1_2 x0 x1 y = prodT A B i := by
  obtain ⟨r, q, rfl⟩ : ∃ (r : Fin 512) (q : Fin 2048), y = ix2 r q := ⟨y 0, y 1, eq_ix2 y⟩
  obtain ⟨p, o, rfl⟩ : ∃ (p : Fin 8192) (o : Fin 2048), i = ix2 p o := ⟨i 0, i 1, eq_ix2 i⟩
  rw [out1_2_apply]
  refine Finset.sum_congr rfl fun k _ => ?_
  rw [h0 (ix2 r k) (ix2 p k) hi0 rfl, h1]
  have e : q = o := Fin.ext hi1.symm
  rw [e]

/-- The block index maps over the grid: the left and output windows walk the row blocks in order, the right window
    stays on its one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the arrays as the region finds them. -/
theorem flushed1 (c : Dev nD) (t : Fin cfg1.N) :
    (dat1 (F := Ideal) V c).flushed 2 t = ((cfg1.win 2).blk t).view.read (Elt Ideal) (prodT (V c main_v1) (V c main_v3)) := by
  show (cfg1.win 2).cut (grid1.coords t) ((dat1 V c).after 2 t) = _
  rw [show (dat1 V c).after 2 t = out1_2 (iblk1 V c 0 t) (iblk1 V c 1 t) by dsimp only [dat1]]
  obtain ⟨e00, e01, e10, e11, e20, e21⟩ := idx1 t
  funext j
  rw [View.read_apply]
  refine out1_2_point (V c main_v1) (V c main_v3) _ _ t.val ?_ ?_ _ _ ?_ ?_
  · intro y i hi0 hi1
    unfold iblk1
    rw [View.read_apply]
    show V c main_v1 (((cfg1.win 0).blk t).view.emb y) = V c main_v1 i
    refine congrArg _ (funext fun a => Fin.ext ?_)
    match a with
    | ⟨0, _⟩ => show win1_0.index t (0 : Fin 2) * 512 + 1 * (y 0).val = (i 0).val; omega
    | ⟨1, _⟩ => show win1_0.index t (1 : Fin 2) * 2048 + 1 * (y 1).val = (i 1).val; omega
  · intro y
    unfold iblk1
    rw [View.read_apply]
    show V c main_v3 (((cfg1.win 1).blk t).view.emb y) = V c main_v3 y
    refine congrArg _ (funext fun a => Fin.ext ?_)
    match a with
    | ⟨0, _⟩ => show win1_1.index t (0 : Fin 2) * 2048 + 1 * (y 0).val = (y 0).val; omega
    | ⟨1, _⟩ => show win1_1.index t (1 : Fin 2) * 2048 + 1 * (y 1).val = (y 1).val; omega
  · show win1_2.index t (0 : Fin 2) * 512 + 1 * (j 0).val = t.val * 512 + (j 0).val; omega
  · show win1_2.index t (1 : Fin 2) * 2048 + 1 * (j 1).val = (j 1).val; omega

/-- An index of the output array is in point `t`'s block iff each coordinate is in the block's range on its axis. -/
theorem mem_blk1 (t : Fin cfg1.N) (i : S8192x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v8).slice (win1_2.rect t)).set ↔ _
  rw [View.set_slice_whole, Rect.mem_set_unit]
  exact Iff.rfl

/-- Row `p` of the output lies in the block of point `p / 512`, and every point writes its block back. -/
theorem cover1 (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  have hN : (i 0).val / 512 < cfg1.N := by show (i 0).val / 512 < 16; omega
  obtain ⟨-, -, -, -, e20, e21⟩ := idx1 ⟨(i 0).val / 512, hN⟩
  refine ⟨⟨(i 0).val / 512, hN⟩, flush1_2 _, ?_⟩
  rw [mem_blk1]
  intro a
  match a with
  | ⟨0, _⟩ => show win1_2.index ⟨(i 0).val / 512, hN⟩ (0 : Fin 2) * 512 ≤ (i 0).val ∧ (i 0).val < win1_2.index ⟨(i 0).val / 512, hN⟩ (0 : Fin 2) * 512 + 512; rw [e20]; show (i 0).val / 512 * 512 ≤ (i 0).val ∧ (i 0).val < (i 0).val / 512 * 512 + 512; omega
  | ⟨1, _⟩ => show win1_2.index ⟨(i 0).val / 512, hN⟩ (1 : Fin 2) * 2048 ≤ (i 1).val ∧ (i 1).val < win1_2.index ⟨(i 0).val / 512, hN⟩ (1 : Fin 2) * 2048 + 2048; rw [e21]; omega

/-- The output array of region 0 after its last point: the product of the two arrays it was entered with. -/
theorem array1 (c : Dev nD) :
    (dat1 (F := Ideal) V c).arrAt 2 cfg1.N = prodT (V c main_v1) (V c main_v3) :=
  (dat1 (F := Ideal) V c).arrAt_eq_of_cover 2 (prodT (V c main_v1) (V c main_v3)) (fun t _ => flushed1 V c t) cover1

/-! ## Region 2 -/

/-- The product of a row block with the transposed weight matrix, entry by entry. -/
theorem out2_2_apply (x0 : Vec Ideal S512x2048 .bf16) (x1 : Vec Ideal S2048x2048 .bf16) (r : Fin 512) (o : Fin 2048) :
    out2_2 x0 x1 (ix2 r o) = ∑ k : Fin 2048, x0 (ix2 r k) * x1 (ix2 o k) := by
  unfold out2_2
  rw [View.canon_unit_zero zero2]
  simp only [View.ld_unit_zero (S := S512x2048) zero2, View.ld_unit_zero (S := S2048x2048) zero2]
  unfold k2_pay1
  simp only [shapeCast_self]
  rw [truncf_apply]
  exact Cert.LibDotT.matmul_zero_transposed_apply dot_S512x2048_S2048x2048_S512x2048_1_1_0_0_n_n rfl rfl rfl rfl rfl rfl none x0 x1 (ix2 r o)

/-- One point's block of the product: a row block whose rows sit at offset `tv * 512` of the left array, against
    the whole right array, is the product's block at the same offset. -/
theorem out2_2_point (A : S8192x2048.Idx → EReal) (B : S2048x2048.Idx → EReal)
    (x0 : Vec Ideal S512x2048 .bf16) (x1 : Vec Ideal S2048x2048 .bf16) (tv : Nat)
    (h0 : ∀ (y : S512x2048.Idx) (i : S8192x2048.Idx), (i 0).val = tv * 512 + (y 0).val → (i 1).val = (y 1).val → x0 y = A i)
    (h1 : ∀ y : S2048x2048.Idx, x1 y = B y)
    (y : S512x2048.Idx) (i : S8192x2048.Idx) (hi0 : (i 0).val = tv * 512 + (y 0).val) (hi1 : (i 1).val = (y 1).val) :
    out2_2 x0 x1 y = prodT A B i := by
  obtain ⟨r, q, rfl⟩ : ∃ (r : Fin 512) (q : Fin 2048), y = ix2 r q := ⟨y 0, y 1, eq_ix2 y⟩
  obtain ⟨p, o, rfl⟩ : ∃ (p : Fin 8192) (o : Fin 2048), i = ix2 p o := ⟨i 0, i 1, eq_ix2 i⟩
  rw [out2_2_apply]
  refine Finset.sum_congr rfl fun k _ => ?_
  rw [h0 (ix2 r k) (ix2 p k) hi0 rfl, h1]
  have e : q = o := Fin.ext hi1.symm
  rw [e]

/-- The block index maps over the grid: the left and output windows walk the row blocks in order, the right window
    stays on its one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the arrays as the region finds them. -/
theorem flushed2 (c : Dev nD) (t : Fin cfg2.N) :
    (dat2 (F := Ideal) V c).flushed 2 t = ((cfg2.win 2).blk t).view.read (Elt Ideal) (prodT (V c main_v1) (V c main_v4)) := by
  show (cfg2.win 2).cut (grid2.coords t) ((dat2 V c).after 2 t) = _
  rw [show (dat2 V c).after 2 t = out2_2 (iblk2 V c 0 t) (iblk2 V c 1 t) by dsimp only [dat2]]
  obtain ⟨e00, e01, e10, e11, e20, e21⟩ := idx2 t
  funext j
  rw [View.read_apply]
  refine out2_2_point (V c main_v1) (V c main_v4) _ _ t.val ?_ ?_ _ _ ?_ ?_
  · intro y i hi0 hi1
    unfold iblk2
    rw [View.read_apply]
    show V c main_v1 (((cfg2.win 0).blk t).view.emb y) = V c main_v1 i
    refine congrArg _ (funext fun a => Fin.ext ?_)
    match a with
    | ⟨0, _⟩ => show win2_0.index t (0 : Fin 2) * 512 + 1 * (y 0).val = (i 0).val; omega
    | ⟨1, _⟩ => show win2_0.index t (1 : Fin 2) * 2048 + 1 * (y 1).val = (i 1).val; omega
  · intro y
    unfold iblk2
    rw [View.read_apply]
    show V c main_v4 (((cfg2.win 1).blk t).view.emb y) = V c main_v4 y
    refine congrArg _ (funext fun a => Fin.ext ?_)
    match a with
    | ⟨0, _⟩ => show win2_1.index t (0 : Fin 2) * 2048 + 1 * (y 0).val = (y 0).val; omega
    | ⟨1, _⟩ => show win2_1.index t (1 : Fin 2) * 2048 + 1 * (y 1).val = (y 1).val; omega
  · show win2_2.index t (0 : Fin 2) * 512 + 1 * (j 0).val = t.val * 512 + (j 0).val; omega
  · show win2_2.index t (1 : Fin 2) * 2048 + 1 * (j 1).val = (j 1).val; omega

/-- An index of the output array is in point `t`'s block iff each coordinate is in the block's range on its axis. -/
theorem mem_blk2 (t : Fin cfg2.N) (i : S8192x2048.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_v9).slice (win2_2.rect t)).set ↔ _
  rw [View.set_slice_whole, Rect.mem_set_unit]
  exact Iff.rfl

/-- Row `p` of the output lies in the block of point `p / 512`, and every point writes its block back. -/
theorem cover2 (i : S8192x2048.Idx) :
    ∃ t : Fin cfg2.N, (cfg2.win 2).flush t = true ∧ i ∈ ((cfg2.win 2).blk t).view.set := by
  have hi0 : (i 0).val < 8192 := (i 0).isLt
  have hi1 : (i 1).val < 2048 := (i 1).isLt
  have hN : (i 0).val / 512 < cfg2.N := by show (i 0).val / 512 < 16; omega
  obtain ⟨-, -, -, -, e20, e21⟩ := idx2 ⟨(i 0).val / 512, hN⟩
  refine ⟨⟨(i 0).val / 512, hN⟩, flush2_2 _, ?_⟩
  rw [mem_blk2]
  intro a
  match a with
  | ⟨0, _⟩ => show win2_2.index ⟨(i 0).val / 512, hN⟩ (0 : Fin 2) * 512 ≤ (i 0).val ∧ (i 0).val < win2_2.index ⟨(i 0).val / 512, hN⟩ (0 : Fin 2) * 512 + 512; rw [e20]; show (i 0).val / 512 * 512 ≤ (i 0).val ∧ (i 0).val < (i 0).val / 512 * 512 + 512; omega
  | ⟨1, _⟩ => show win2_2.index ⟨(i 0).val / 512, hN⟩ (1 : Fin 2) * 2048 ≤ (i 1).val ∧ (i 1).val < win2_2.index ⟨(i 0).val / 512, hN⟩ (1 : Fin 2) * 2048 + 2048; rw [e21]; omega

/-- The output array of region 0 after its last point: the product of the two arrays it was entered with. -/
theorem array2 (c : Dev nD) :
    (dat2 (F := Ideal) V c).arrAt 2 cfg2.N = prodT (V c main_v1) (V c main_v4) :=
  (dat2 (F := Ideal) V c).arrAt_eq_of_cover 2 (prodT (V c main_v1) (V c main_v4)) (fun t _ => flushed2 V c t) cover2

/-! ## Region 4: the same product plus the bias row -/

/-- The whole-array product with the bias row added down the rows. -/
abbrev prodTB (A : S8192x2048.Idx → EReal) (B : S2048x2048.Idx → EReal) (b : S1x2048.Idx → EReal) : S8192x2048.Idx → EReal :=
  fun i => (∑ k : Fin 2048, A (ix2 (i 0) k) * B (ix2 (i 1) k)) + b (ix2 (0 : Fin 1) (i 1))

/-- A 1 × 2048 row broadcast down 512 rows reads, at `(r, o)`, the row's entry of column `o`. -/
theorem broadcast_row_apply {α : Type} (v : S1x2048.Idx → α) (r : Fin 512) (o : Fin 2048) :
    broadcastTo S512x2048 v broadcasts_S1x2048_S512x2048 (ix2 r o) = v (ix2 (0 : Fin 1) o) := by
  refine broadcastTo_apply v broadcasts_S1x2048_S512x2048 (ix2 r o) (ix2 (0 : Fin 1) o) fun ax => ?_
  match ax with
  | ⟨0, _⟩ =>
    show 0 = if (1 : ℕ) = 1 then 0 else r.val
    rw [if_pos rfl]
  | ⟨1, _⟩ =>
    show o.val = if (2048 : ℕ) = 1 then 0 else o.val
    rw [if_neg (by decide)]

/-- The product of a row block with the transposed weight matrix plus the bias row, entry by entry. -/
theorem out4_3_apply (x0 : Vec Ideal S512x2048 .bf16) (x1 : Vec Ideal S2048x2048 .bf16) (x2 : Vec Ideal S1x2048 .f32)
    (r : Fin 512) (o : Fin 2048) :
    out4_3 x0 x1 x2 (ix2 r o) = (∑ k : Fin 2048, x0 (ix2 r k) * x1 (ix2 o k)) + x2 (ix2 (0 : Fin 1) o) := by
  unfold out4_3
  rw [View.canon_unit_zero zero2]
  simp only [View.ld_unit_zero (S := S512x2048) zero2, View.ld_unit_zero (S := S2048x2048) zero2,
    View.ld_unit_zero (S := S1x2048) zero2]
  unfold k4_pay1
  simp only [shapeCast_self]
  rw [addf_apply, broadcast_row_apply]
  exact congrArg (· + x2 (ix2 (0 : Fin 1) o))
    (Cert.LibDotT.matmul_zero_transposed_apply dot_S512x2048_S2048x2048_S512x2048_1_1_0_0_n_n rfl rfl rfl rfl rfl rfl none x0 x1 (ix2 r o))

/-- One point's block: a row block at offset `tv * 512` of the left array, against the whole right array and
    the whole bias row, is the block of the biased product at the same offset. -/
theorem out4_3_point (A : S8192x2048.Idx → EReal) (B : S2048x2048.Idx → EReal) (b : S1x2048.Idx → EReal)
    (x0 : Vec Ideal S512x2048 .bf16) (x1 : Vec Ideal S2048x2048 .bf16) (x2 : Vec Ideal S1x2048 .f32) (tv : Nat)
    (h0 : ∀ (y : S512x2048.Idx) (i : S8192x2048.Idx), (i 0).val = tv * 512 + (y 0).val → (i 1).val = (y 1).val → x0 y = A i)
    (h1 : ∀ y : S2048x2048.Idx, x1 y = B y) (h2 : ∀ y : S1x2048.Idx, x2 y = b y)
    (y : S512x2048.Idx) (i : S8192x2048.Idx) (hi0 : (i 0).val = tv * 512 + (y 0).val) (hi1 : (i 1).val = (y 1).val) :
    out4_3 x0 x1 x2 y = prodTB A B b i := by
  obtain ⟨r, q, rfl⟩ : ∃ (r : Fin 512) (q : Fin 2048), y = ix2 r q := ⟨y 0, y 1, eq_ix2 y⟩
  obtain ⟨p, o, rfl⟩ : ∃ (p : Fin 8192) (o : Fin 2048), i = ix2 p o := ⟨i 0, i 1, eq_ix2 i⟩
  have e : q = o := Fin.ext hi1.symm
  rw [out4_3_apply, h2, e]
  refine congrArg (· + b (ix2 (0 : Fin 1) o)) (Finset.sum_congr rfl fun k _ => ?_)
  rw [h0 (ix2 r k) (ix2 p k) hi0 rfl, h1]

/-- The block index maps over the grid: the left and output windows walk the row blocks in order, the weight
    matrix and the bias row stay on their one block. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the biased product of the arrays as the region finds them. -/
theorem flushed4 (c : Dev nD) (t : Fin cfg4.N) :
    (dat4 (F := Ideal) V c).flushed 3 t
      = ((cfg4.win 3).blk t).view.read (Elt Ideal) (prodTB (V c main_v14) (V c main_v5) (V c main_v6)) := by
  show (cfg4.win 3).cut (grid4.coords t) ((dat4 V c).after 3 t) = _
  rw [show (dat4 V c).after 3 t = out4_3 (iblk4 V c 0 t) (iblk4 V c 1 t) (iblk4 V c 2 t) by dsimp only [dat4]]
  obtain ⟨e00, e01, e10, e11, e20, e21, e30, e31⟩ := idx4 t
  funext j
  rw [View.read_apply]
  refine out4_3_point (V c main_v14) (V c main_v5) (V c main_v6) _ _ _ t.val ?_ ?_ ?_ _ _ ?_ ?_
  · intro y i hi0 hi1
    unfold iblk4
    rw [View.read_apply]
    show V c main_v14 (((cfg4.win 0).blk t).view.emb y) = V c main_v14 i
    refine congrArg _ (funext fun a => Fin.ext ?_)
    match a with
    | ⟨0, _⟩ => show win4_0.index t (0 : Fin 2) * 512 + 1 * (y 0).val = (i 0).val; omega
    | ⟨1, _⟩ => show win4_0.index t (1 : Fin 2) * 2048 + 1 * (y 1).val = (i 1).val; omega
  · intro y
    unfold iblk4
    rw [View.read_apply]
    show V c main_v5 (((cfg4.win 1).blk t).view.emb y) = V c main_v5 y
    refine congrArg _ (funext fun a => Fin.ext ?_)
    match a with
    | ⟨0, _⟩ => show win4_1.index t (0 : Fin 2) * 2048 + 1 * (y 0).val = (y 0).val; omega
    | ⟨1, _⟩ => show win4_1.index t (1 : Fin 2) * 2048 + 1 * (y 1).val = (y 1).val; omega
  · intro y
    unfold iblk4
    rw [View.read_apply]
    show V c main_v6 (((cfg4.win 2).blk t).view.emb y) = V c main_v6 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 2048 + 1 * (y 1).val = (y 1).val; omega
  · show win4_3.index t (0 : Fin 2) * 512 + 1 * (j 0).val = t.val * 512 + (j 0).val; omega
  · show win4_3.index t (1 : Fin 2) * 2048 + 1 * (j 1).val = (j 1).val; omega

/-- An index of the output array is in point `t`'s block iff each coordinate is in the block's range on its axis. -/
theorem mem_blk4 (t : Fin cfg4.N) (i : S8192x2048.Idx) :
    i ∈ ((cfg4.win 3).blk t).view.set ↔ ∀ a : Fin 2, win4_3.index t a * S512x2048.size a ≤ (i a).val ∧ (i a).val < win4_3.index t a * S512x2048.size a + S512x2048.size a := by
  show i ∈ ((View.whole main_v15).slice (win4_3.rect t)).set ↔ _
  rw [View.set_slice_whole, Rect.mem_set_unit]
  exact Iff.rfl

/-- Row `p` of the output lies in the block of point `p / 512`, and every point writes its block back. -/
theorem cover4 (i : S8192x2048.Idx) :
    ∃ t : Fin cfg4.N, (cfg4.win 3).flush t = true ∧ i ∈ ((cfg4.win 3).blk t).view.set := by
  have hi0 : (i 0).val < 8192 := (i 0).isLt
  have hi1 : (i 1).val < 2048 := (i 1).isLt
  have hN : (i 0).val / 512 < cfg4.N := by show (i 0).val / 512 < 16; omega
  obtain ⟨-, -, -, -, -, -, e30, e31⟩ := idx4 ⟨(i 0).val / 512, hN⟩
  refine ⟨⟨(i 0).val / 512, hN⟩, flush4_3 _, ?_⟩
  rw [mem_blk4]
  intro a
  match a with
  | ⟨0, _⟩ => show win4_3.index ⟨(i 0).val / 512, hN⟩ (0 : Fin 2) * 512 ≤ (i 0).val ∧ (i 0).val < win4_3.index ⟨(i 0).val / 512, hN⟩ (0 : Fin 2) * 512 + 512; rw [e30]; show (i 0).val / 512 * 512 ≤ (i 0).val ∧ (i 0).val < (i 0).val / 512 * 512 + 512; omega
  | ⟨1, _⟩ => show win4_3.index ⟨(i 0).val / 512, hN⟩ (1 : Fin 2) * 2048 ≤ (i 1).val ∧ (i 1).val < win4_3.index ⟨(i 0).val / 512, hN⟩ (1 : Fin 2) * 2048 + 2048; rw [e31]; omega

/-- The output array of region 4 after its last point: the biased product of the three arrays it was entered with. -/
theorem array4 (c : Dev nD) :
    (dat4 (F := Ideal) V c).arrAt 3 cfg4.N = prodTB (V c main_v14) (V c main_v5) (V c main_v6) :=
  (dat4 (F := Ideal) V c).arrAt_eq_of_cover 3 (prodTB (V c main_v14) (V c main_v5) (V c main_v6)) (fun t _ => flushed4 V c t) cover4

end ProjValue

/-- An 8192 × 2048 array of extended reals at row `p`, column `k`. -/
abbrev at8192 (X : S8192x2048.Idx → EReal) (p : Fin 8192) (k : Fin 2048) : EReal := X (ix2 p k)
/-- A 2048 × 2048 array of extended reals at row `o`, column `k`. -/
abbrev at2048 (X : S2048x2048.Idx → EReal) (o k : Fin 2048) : EReal := X (ix2 o k)
/-- A 1 × 2048 array of extended reals at column `o`. -/
abbrev atRow (X : S1x2048.Idx → EReal) (o : Fin 2048) : EReal := X (ix2 (0 : Fin 1) o)

/-- Region 0's output array after its last point, entry by entry: row `p` of the left array against row `o` of
    the weight matrix. -/
theorem proj0_value (V : (c : Dev nD) → (b : Ref sig .tc) → Buf (Elt Ideal) ((c : Thread nD τ).loc b)) (c : Dev nD) (p : Fin 8192) (o : Fin 2048) :
    (dat0 (F := Ideal) V c).arrAt 2 cfg0.N (ix2 p o)
      = (∑ k : Fin 2048, at8192 (V c main_v1) p k * at2048 (V c main_v2) o k : EReal) :=
  congrFun (ProjValue.array0 V c) (ix2 p o)

/-- Region 1's output array after its last point, entry by entry: row `p` of the left array against row `o` of
    the weight matrix. -/
theorem proj1_value (V : (c : Dev nD) → (b : Ref sig .tc) → Buf (Elt Ideal) ((c : Thread nD τ).loc b)) (c : Dev nD) (p : Fin 8192) (o : Fin 2048) :
    (dat1 (F := Ideal) V c).arrAt 2 cfg1.N (ix2 p o)
      = (∑ k : Fin 2048, at8192 (V c main_v1) p k * at2048 (V c main_v3) o k : EReal) :=
  congrFun (ProjValue.array1 V c) (ix2 p o)

/-- Region 2's output array after its last point, entry by entry: row `p` of the left array against row `o` of
    the weight matrix. -/
theorem proj2_value (V : (c : Dev nD) → (b : Ref sig .tc) → Buf (Elt Ideal) ((c : Thread nD τ).loc b)) (c : Dev nD) (p : Fin 8192) (o : Fin 2048) :
    (dat2 (F := Ideal) V c).arrAt 2 cfg2.N (ix2 p o)
      = (∑ k : Fin 2048, at8192 (V c main_v1) p k * at2048 (V c main_v4) o k : EReal) :=
  congrFun (ProjValue.array2 V c) (ix2 p o)

/-- Region 4's output array after its last point, entry by entry: row `p` of the left array against row `o` of
    the weight matrix, plus entry `o` of the bias row. -/
theorem proj4_value (V : (c : Dev nD) → (b : Ref sig .tc) → Buf (Elt Ideal) ((c : Thread nD τ).loc b)) (c : Dev nD) (p : Fin 8192) (o : Fin 2048) :
    (dat4 (F := Ideal) V c).arrAt 3 cfg4.N (ix2 p o)
      = ((∑ k : Fin 2048, at8192 (V c main_v14) p k * at2048 (V c main_v5) o k) + atRow (V c main_v6) o : EReal) :=
  congrFun (ProjValue.array4 V c) (ix2 p o)

end Cert.KernelIdeal.Hand

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«137829_j2276332667508_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.KI.AttnPay.lean ====
/-
  The attention body's arithmetic, read at an index, on the extended reals.

  Each pure value the tiled attention body stores or carries is a short chain of vector operations over the values
  loaded before it.  Read at a coordinate, each is plain arithmetic: the initial row maximum is −∞, the initial sum and
  weighted values are 0; the score tile at (r, u) is the contraction over the 128 lanes of query row r against key
  row u times the scale, and −∞ where the key's global position exceeds the query's; the new row maximum is the old
  one against the fold of max over the tile's row; the two exponentials; the new sum; the new weighted values; and
  the quotient stored at the end.
-/
import proofs.«137829_j2276332667508_2_alg».proof.Proof.KI.Defs
import proofs.«137829_j2276332667508_2_alg».proof.Proof.LibDot
import proofs.«137829_j2276332667508_2_alg».proof.Proof.LibDotT
import proofs.«137829_j2276332667508_2_alg».proof.Proof.LibColumn
import proofs.«137829_j2276332667508_2_alg».proof.Proof.LibRows
import proofs.«137829_j2276332667508_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.WordArith

set_option maxRecDepth 16384

noncomputable section

namespace Cert.KernelIdeal.Hand

open Idealize.ShloMosaic Idealize.ShloMosaic.ValueIdx Cert.KernelIdeal Cert.KernelIdeal.Gen
open scoped BigOperators

theorem pay1_apply (r : Fin 512) : k3_pay1 (F := Ideal) (ix2 r 0) = ⊥ := by
  show shapeCast S512x1 (broadcast S512x1 (Scalar.ofBits (F := Ideal) .f32 0xFF800000#32)) shapeCasts_S512x1_S512x1 (ix2 r 0) = ⊥
  rw [shapeCast_self]
  show Ideal.ofBits .f32 0xFF800000#32 = ⊥
  simp [Ideal.ofBits, Ideal.ieee]

theorem pay2_apply (r : Fin 512) : k3_pay2 (F := Ideal) (ix2 r 0) = 0 := by
  show shapeCast S512x1 (broadcast S512x1 (Scalar.ofBits (F := Ideal) .f32 0x00000000#32)) shapeCasts_S512x1_S512x1 (ix2 r 0) = 0
  rw [shapeCast_self]
  exact Ideal.ofBits_zero_f32

theorem pay3_apply (r : Fin 512) (e : Fin 128) : k3_pay3 (F := Ideal) (ix2 r e) = 0 := by
  show shapeCast S512x128 (broadcast S512x128 (Scalar.ofBits (F := Ideal) .f32 0x00000000#32)) shapeCasts_S512x128_S512x128 (ix2 r e) = 0
  rw [shapeCast_self]
  exact Ideal.ofBits_zero_f32

theorem pay5_eq (x : Vec Ideal S512x1 .f32) : k3_pay5 (F := Ideal) x = x :=
  shapeCast_self x _

theorem pay7_apply (v : Vec Ideal S1x512x128 .bf16) (u : Fin 512) (e : Fin 128) : k3_pay7 (F := Ideal) v (ix2 u e) = v (ix3 0 u e) := by
  show shapeCast S512x128 v shapeCasts_S1x512x128_S512x128 (ix2 u e) = v (ix3 0 u e)
  refine shapeCast_apply v _ (ix2 u e) (ix3 0 u e) ?_
  rw [Shape.rowMajor_val_three, Shape.rowMajor_val_two]
  show (0 * 512 + u.val) * 128 + e.val = u.val * 128 + e.val
  omega

/-- The 32-bit word of a coordinate below 512 plus a tile number below 4 times 512 is the word of the global position. -/
private theorem word_pos (t : Fin 4) (r : Fin 512) :
    IntOp.addi (BitVec.ofNat 32 r.val) (Scalar.muli (BitVec.ofNat 32 t.val) 512#32) = BitVec.ofNat 32 (512 * t.val + r.val) := by
  apply BitVec.eq_of_toNat_eq
  show (BitVec.ofNat 32 r.val + BitVec.ofNat 32 t.val * 512#32).toNat = _
  rw [BitVec.toNat_add, BitVec.toNat_mul]
  simp only [BitVec.toNat_ofNat]
  have := r.isLt
  have := t.isLt
  omega

/-- Two global positions below 2048, compared signed-greater as 32-bit words: the comparison of the naturals. -/
private theorem mask_bit (a b : Nat) (ha : a < 2048) (hb : b < 2048) :
    IntOp.cmpi .sgt (BitVec.ofNat 32 b) (BitVec.ofNat 32 a) = if a < b then 1#1 else 0#1 := by
  show BitVec.ofBool ((BitVec.ofNat 32 a).slt (BitVec.ofNat 32 b)) = _
  have hq := WordArith.toInt_ofNat_small a (by omega)
  have hk := WordArith.toInt_ofNat_small b (by omega)
  by_cases h : a < b
  · rw [if_pos h]
    have hs : (BitVec.ofNat 32 a).slt (BitVec.ofNat 32 b) = true := by
      rw [BitVec.slt_iff_toInt_lt, hq, hk]
      exact_mod_cast h
    rw [hs]
    rfl
  · rw [if_neg h]
    have hs : (BitVec.ofNat 32 a).slt (BitVec.ofNat 32 b) = false := by
      rw [Bool.eq_false_iff]
      intro hh
      rw [BitVec.slt_iff_toInt_lt, hq, hk] at hh
      exact h (by exact_mod_cast hh)
    rw [hs]
    rfl

/-- The scale constant's name denotes the rational scale. -/
private theorem named_scale : Named.named (F := Ideal) κ "inv_sqrt_d" (φ := .f32) 0x3DB504F3#32 = Cert.Spec.scale :=
  IdealRules.named_const.ideal_named_scalar _ _ _ _ rfl

/-- The mask constant's name denotes −∞. -/
private theorem named_neg : Named.named (F := Ideal) κ "neg_big" (φ := .f32) 0xFF333332#32 = ⊥ :=
  IdealRules.named_const.ideal_named_scalar _ _ _ _ rfl

/-- A leading unit axis dropped: the 512 × 128 view of a 1 × 512 × 128 tile reads (0, r, e) at (r, e). -/
private theorem drop_unit (v : Vec Ideal S1x512x128 .bf16) (u : Fin 512) (e : Fin 128) :
    shapeCast S512x128 v shapeCasts_S1x512x128_S512x128 (ix2 u e) = v (ix3 0 u e) := by
  refine shapeCast_apply v _ (ix2 u e) (ix3 0 u e) ?_
  rw [Shape.rowMajor_val_three, Shape.rowMajor_val_two]
  show (0 * 512 + u.val) * 128 + e.val = u.val * 128 + e.val
  omega

theorem pay8_apply (qi ki : Fin 4) (q k : Vec Ideal S1x512x128 .bf16) (r u : Fin 512) :
    k3_pay8 (F := Ideal) (BitVec.ofNat 32 qi.val) (BitVec.ofNat 32 ki.val) q k (ix2 r u)
      = if 512 * qi.val + r.val < 512 * ki.val + u.val then ⊥ else (∑ e : Fin 128, q (ix3 0 r e) * k (ix3 0 u e)) * Cert.Spec.scale := by
  show Scalar.select
      (IntOp.cmpi .sgt
        (IntOp.addi (iota .tc S512x512 32 [1] iota_S512x512_d1_w32 (ix2 r u)) (Scalar.muli (BitVec.ofNat 32 ki.val) 512#32))
        (IntOp.addi (iota .tc S512x512 32 [0] iota_S512x512_d0_w32 (ix2 r u)) (Scalar.muli (BitVec.ofNat 32 qi.val) 512#32)))
      (Named.named (F := Ideal) κ "neg_big" (φ := .f32) 0xFF333332#32)
      (FloatOps.matmul dot_S512x128_S512x128_S512x512_1_1_0_0_n_n none
          (shapeCast S512x128 q shapeCasts_S1x512x128_S512x128 : FVec Ideal S512x128 .bf16)
          (shapeCast S512x128 k shapeCasts_S1x512x128_S512x128 : FVec Ideal S512x128 .bf16)
          (constant S512x512 .f32 0x00000000#32) (ix2 r u)
        * Named.named (F := Ideal) κ "inv_sqrt_d" (φ := .f32) 0x3DB504F3#32) = _
  rw [iota_single_apply, iota_single_apply]
  show Scalar.select
      (IntOp.cmpi .sgt
        (IntOp.addi (BitVec.ofNat 32 u.val) (Scalar.muli (BitVec.ofNat 32 ki.val) 512#32))
        (IntOp.addi (BitVec.ofNat 32 r.val) (Scalar.muli (BitVec.ofNat 32 qi.val) 512#32))) _ _ = _
  rw [word_pos, word_pos, mask_bit _ _ (by have := r.isLt; have := qi.isLt; omega) (by have := u.isLt; have := ki.isLt; omega),
    named_scale, named_neg,
    Cert.LibDotT.matmul_zero_transposed_apply (M := 512) (K := 128) (N := 512) dot_S512x128_S512x128_S512x512_1_1_0_0_n_n
      rfl rfl rfl rfl rfl rfl]
  have hsum : (∑ e : Fin 128, shapeCast S512x128 q shapeCasts_S1x512x128_S512x128 (ix2 ((ix2 r u : S512x512.Idx) 0) e)
        * shapeCast S512x128 k shapeCasts_S1x512x128_S512x128 (ix2 ((ix2 r u : S512x512.Idx) 1) e))
      = ∑ e : Fin 128, q (ix3 0 r e) * k (ix3 0 u e) :=
    Finset.sum_congr rfl fun e _ => by
      rw [show (ix2 r u : S512x512.Idx) 0 = r from rfl, show (ix2 r u : S512x512.Idx) 1 = u from rfl, drop_unit, drop_unit]
  rw [hsum]
  by_cases h : 512 * qi.val + r.val < 512 * ki.val + u.val
  · rw [if_pos h, if_pos h]
    exact select_one _ _
  · rw [if_neg h, if_neg h]
    exact select_zero _ _

theorem pay9_apply (a2 a3 : BitVec 32) (q k : Vec Ideal S1x512x128 .bf16) (m : Vec Ideal S512x1 .f32) (r : Fin 512) :
    k3_pay9 (F := Ideal) a2 a3 q k m (ix2 r 0) = max (m (ix2 r 0)) ((Finset.univ : Finset (Fin 512)).fold max ⊥ fun u => k3_pay8 (F := Ideal) a2 a3 q k (ix2 r u)) := by
  show max (m (ix2 r 0)) (shapeCast S512x1 (multiReduction .maximumf [1] S512 (k3_pay8 (F := Ideal) a2 a3 q k) 0xFF800000#32
      reduces_S512x512_S512 (.inl rfl) rfl) shapeCasts_S512_S512x1 (ix2 r 0)) = _
  rw [Cert.LibColumn.shapeCast_a_a1_apply]
  refine congrArg (max (m (ix2 r 0))) ((Cert.LibRows.rowMaxf_apply (a := 512) (b := 512) (k3_pay8 (F := Ideal) a2 a3 q k)
    0xFF800000#32 reduces_S512x512_S512 (.inl rfl) rfl r).trans ?_)
  have hb : Ideal.ofBits .f32 0xFF800000#32 = ⊥ := by simp [Ideal.ofBits, Ideal.ieee]
  rw [hb]

theorem pay10_apply (a2 a3 : BitVec 32) (q k : Vec Ideal S1x512x128 .bf16) (m : Vec Ideal S512x1 .f32) (r : Fin 512) :
    k3_pay10 (F := Ideal) a2 a3 q k m (ix2 r 0) = Ideal.exp (m (ix2 r 0) - k3_pay9 (F := Ideal) a2 a3 q k m (ix2 r 0)) := rfl

theorem pay11_apply (a2 a3 : BitVec 32) (q k : Vec Ideal S1x512x128 .bf16) (m : Vec Ideal S512x1 .f32) (r u : Fin 512) :
    k3_pay11 (F := Ideal) a2 a3 q k m (ix2 r u) = Ideal.exp (k3_pay8 (F := Ideal) a2 a3 q k (ix2 r u) - k3_pay9 (F := Ideal) a2 a3 q k m (ix2 r 0)) := by
  show Ideal.exp (k3_pay8 (F := Ideal) a2 a3 q k (ix2 r u)
      - broadcastTo S512x512 (k3_pay9 (F := Ideal) a2 a3 q k m) broadcasts_S512x1_S512x512 (ix2 r u)) = _
  rw [Cert.LibColumn.broadcastTo_a1_ab_apply]

theorem pay12_apply (a2 a3 : BitVec 32) (q k : Vec Ideal S1x512x128 .bf16) (m l : Vec Ideal S512x1 .f32) (r : Fin 512) :
    k3_pay12 (F := Ideal) a2 a3 q k m l (ix2 r 0)
      = k3_pay10 (F := Ideal) a2 a3 q k m (ix2 r 0) * l (ix2 r 0) + (0 + ∑ u : Fin 512, k3_pay11 (F := Ideal) a2 a3 q k m (ix2 r u)) := by
  show shapeCast S512x1 (addf (mulf (k3_pay10 (F := Ideal) a2 a3 q k m) l)
      (shapeCast S512x1 (multiReduction .add [1] S512 (k3_pay11 (F := Ideal) a2 a3 q k m) 0x00000000#32
        reduces_S512x512_S512 (.inl rfl) rfl) shapeCasts_S512_S512x1)) shapeCasts_S512x1_S512x1 (ix2 r 0) = _
  rw [shapeCast_self]
  show k3_pay10 (F := Ideal) a2 a3 q k m (ix2 r 0) * l (ix2 r 0)
      + shapeCast S512x1 (multiReduction .add [1] S512 (k3_pay11 (F := Ideal) a2 a3 q k m) 0x00000000#32
        reduces_S512x512_S512 (.inl rfl) rfl) shapeCasts_S512_S512x1 (ix2 r 0) = _
  rw [Cert.LibColumn.shapeCast_a_a1_apply]
  refine congrArg (k3_pay10 (F := Ideal) a2 a3 q k m (ix2 r 0) * l (ix2 r 0) + ·)
    ((Cert.LibRows.rowSum_apply (a := 512) (b := 512) (k3_pay11 (F := Ideal) a2 a3 q k m) 0x00000000#32
      reduces_S512x512_S512 (.inl rfl) rfl r).trans (zero_add _).symm)

theorem pay4_apply (v14 : Vec Ideal S512x128 .bf16) (v34 : Vec Ideal S512x1 .f32) (v37 : Vec Ideal S512x512 .f32) (v48 : Vec Ideal S512x128 .f32) (r : Fin 512) (e : Fin 128) :
    k3_pay4 (F := Ideal) v14 v34 v37 v48 (ix2 r e) = v34 (ix2 r 0) * v48 (ix2 r e) + ∑ u : Fin 512, v37 (ix2 r u) * v14 (ix2 u e) := by
  show shapeCast S512x128 (addf (F := Ideal) (φ := .f32) (mulf (F := Ideal) (φ := .f32)
        (broadcastTo S512x128 (v34 : FVec Ideal S512x1 .f32) broadcasts_S512x1_S512x128) v48)
      (matmul (F := Ideal) dot_S512x512_S512x128_S512x128_1_0_0_1_n_n none
        (truncf (F := Ideal) .bf16 (v37 : FVec Ideal S512x512 .f32) bitsLt_bf16_f32) (v14 : FVec Ideal S512x128 .bf16)
        (constant S512x128 .f32 0x00000000#32))) shapeCasts_S512x128_S512x128 (ix2 r e) = _
  rw [shapeCast_self]
  show broadcastTo S512x128 (v34 : FVec Ideal S512x1 .f32) broadcasts_S512x1_S512x128 (ix2 r e) * v48 (ix2 r e)
      + FloatOps.matmul dot_S512x512_S512x128_S512x128_1_0_0_1_n_n none
        (truncf (F := Ideal) .bf16 (v37 : FVec Ideal S512x512 .f32) bitsLt_bf16_f32) (v14 : FVec Ideal S512x128 .bf16)
        (constant S512x128 .f32 0x00000000#32) (ix2 r e) = _
  rw [Cert.LibColumn.broadcastTo_a1_ab_apply]
  have hm := Cert.LibDot.matmul_zero_plain_apply (M := 512) (K := 512) (N := 128) (φ₁ := .bf16) (φ₂ := .bf16)
    dot_S512x512_S512x128_S512x128_1_0_0_1_n_n rfl rfl rfl rfl rfl rfl none
    (truncf (F := Ideal) .bf16 (v37 : FVec Ideal S512x512 .f32) bitsLt_bf16_f32) (v14 : FVec Ideal S512x128 .bf16) (ix2 r e)
  exact congrArg (fun z => v34 (ix2 r 0) * v48 (ix2 r e) + z) hm

theorem pay6_apply (acc : Vec Ideal S512x128 .f32) (l : Vec Ideal S512x1 .f32) (r : Fin 512) (e : Fin 128) :
    k3_pay6 (F := Ideal) acc l (ix3 0 r e) = Ideal.div (acc (ix2 r e)) (l (ix2 r 0)) := by
  show shapeCast S1x512x128 (truncf (F := Ideal) .bf16 (divf (F := Ideal) (φ := .f32) acc
        (broadcastTo S512x128 (l : FVec Ideal S512x1 .f32) broadcasts_S512x1_S512x128)) bitsLt_bf16_f32)
      shapeCasts_S512x128_S1x512x128 (ix3 0 r e) = _
  refine (shapeCast_apply _ _ (ix3 0 r e) (ix2 r e) ?_).trans ?_
  · rw [Shape.rowMajor_val_three, Shape.rowMajor_val_two]
    show r.val * 128 + e.val = (0 * 512 + r.val) * 128 + e.val
    omega
  · show Ideal.div (acc (ix2 r e)) (broadcastTo S512x128 (l : FVec Ideal S512x1 .f32) broadcasts_S512x1_S512x128 (ix2 r e)) = _
    rw [Cert.LibColumn.broadcastTo_a1_ab_apply]

theorem out3_apply (s : St3 Ideal) (r : Fin 512) (e : Fin 128) : out3 (F := Ideal) s (ix3 0 r e) = Ideal.div (s.2.2 (ix2 r e)) (s.2.1 (ix2 r 0)) := by
  have hz : (![0, 0, 0] : Fin 3 → Nat) = fun _ => 0 := funext fun a => by fin_cases a <;> rfl
  have h : out3 (F := Ideal) s = k3_pay6 (F := Ideal) s.2.2 s.2.1 :=
    View.canon_unit_zero (Val := Elt Ideal) hz inb_S1x512x128_S1x512x128_0_0_0 _
  rw [h]
  exact pay6_apply s.2.2 s.2.1 r e

end Cert.KernelIdeal.Hand

end
-- ==== Proof.LibOnlineSoftmax.lean ====
/-
  The online softmax: a running maximum, a running denominator and a running numerator, updated tile by tile,
  compute the same quotient as the two-pass softmax.

  Scores and values come in tiles of width B: tile t holds s t u and v t u for the positions u < B. Write
  m_t for the maximum of the scores of tile t, and  M n = max (m_0, …, m_(n-1))  for the maximum of the first n tiles
  (the empty maximum is −∞). The recurrence starts from (m, l, a) = (−∞, 0, 0) and, reading tile n, replaces it by

      m' = max (m, m_n),    l' = exp (m − m') · l + Σ_u exp (s n u − m'),    a' = exp (m − m') · a + Σ_u exp (s n u − m') · v n u.

  When the scores and values of the first n tiles are real numbers, after n tiles

      m = M n,     l = Σ_(t < n) Σ_u exp (s t u − M n),     a = Σ_(t < n) Σ_u exp (s t u − M n) · v t u,

  because exp (m − m') · exp (x − m) = exp (x − m') for real numbers, and because at the first tile the old maximum is −∞,
  exp (−∞ − m') = 0, and the old sums are 0. For n ≥ 1 the maximum M n is a real number, l is a positive real number and a is
  a real number, so the quotient a / l is the sum of the quotients exp (s t u − M n) / l times v t u: the softmax weights
  against the values. Read along one flat index j = u + B · t < T · B this is the two-pass softmax of the whole row.

  All arithmetic is that of the extended reals with exp (−∞) = 0; nothing is distributed or cancelled before the terms
  have been shown to be real numbers.
-/
import Idealize.ShloMosaic.PureOps.Ideal
import Mathlib.Logic.Equiv.Fin.Basic
import Mathlib.Algebra.BigOperators.Fin

noncomputable section

namespace Cert.LibOnlineSoftmax

open Idealize.ShloMosaic
open scoped BigOperators

/-! # The online softmax equals the two-pass softmax

For tiles of scores s t u and values v t u (tile t, position u < B), the recurrence
(m, l, a) ↦ (m', exp (m − m') · l + Σ_u exp (s n u − m'), exp (m − m') · a + Σ_u exp (s n u − m') · v n u) with
m' = max (m, max_u s n u), started at (−∞, 0, 0), reaches after n tiles of real numbers the maximum M n of all scores read,
the sum of exp (s t u − M n) and the sum of exp (s t u − M n) · v t u; for n ≥ 1 their quotient is the sum of the softmax
weights times the values, and along the flat index j = u + B · t it is the two-pass softmax of the whole row. -/

/-! ### Real numbers inside the extended reals -/

/-- The coercion of a finite sum of real numbers is the sum of the coercions. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a difference of two real numbers is the real exponential of the real difference. -/
theorem exp_coe_sub (x c : ℝ) :
    Ideal.exp ((x : EReal) - (c : EReal)) = ((Real.exp (x - c) : ℝ) : EReal) := by
  rw [← EReal.coe_sub]; rfl

/-- A finite nonempty supremum of real numbers is a real number. -/
theorem sup_isReal {ι : Type*} (S : Finset ι) (hS : S.Nonempty) (f : ι → EReal)
    (hf : ∀ i ∈ S, ∃ r : ℝ, f i = (r : EReal)) : ∃ r : ℝ, S.sup f = (r : EReal) := by
  obtain ⟨i, hi, h⟩ := Finset.exists_mem_eq_sup S hS f
  obtain ⟨r, hr⟩ := hf i hi
  exact ⟨r, h.trans hr⟩

/-! ### The recurrence -/

variable {B : ℕ}

/-- The running state of the online softmax: the maximum m seen so far, the denominator l and the numerator a,
    both scaled to that maximum. -/
@[ext] structure Acc where
  /-- the running maximum -/
  m : EReal
  /-- the running denominator, the sum of exp (score − m) -/
  l : EReal
  /-- the running numerator, the sum of exp (score − m) · value -/
  a : EReal

/-- The state after n tiles: start from (−∞, 0, 0); tile n raises the maximum to m' = max (m, maximum of tile n),
    scales both sums by α = exp (m − m') and adds the tile's terms exp (s n u − m') and exp (s n u − m') · v n u. -/
def state (s v : ℕ → Fin B → EReal) : ℕ → Acc
  | 0 => ⟨⊥, 0, 0⟩
  | n + 1 =>
    ⟨max (state s v n).m (Finset.univ.sup (s n)),
     Ideal.exp ((state s v n).m - max (state s v n).m (Finset.univ.sup (s n))) * (state s v n).l
       + ∑ u, Ideal.exp (s n u - max (state s v n).m (Finset.univ.sup (s n))),
     Ideal.exp ((state s v n).m - max (state s v n).m (Finset.univ.sup (s n))) * (state s v n).a
       + ∑ u, Ideal.exp (s n u - max (state s v n).m (Finset.univ.sup (s n))) * v n u⟩

/-- Before any tile the state is (−∞, 0, 0). -/
@[simp] theorem state_zero (s v : ℕ → Fin B → EReal) : state s v 0 = ⟨⊥, 0, 0⟩ := rfl

/-- One step of the recurrence, spelt with its two intermediate quantities m' and α. -/
theorem state_succ (s v : ℕ → Fin B → EReal) (n : ℕ) :
    state s v (n + 1) =
      (let m := (state s v n).m
       let l := (state s v n).l
       let a := (state s v n).a
       let m' := max m (Finset.univ.sup (s n))
       let α := Ideal.exp (m - m')
       ⟨m', α * l + ∑ u, Ideal.exp (s n u - m'), α * a + ∑ u, Ideal.exp (s n u - m') * v n u⟩) := rfl

/-- The new maximum: the larger of the old one and the maximum of the tile. -/
theorem state_succ_m (s v : ℕ → Fin B → EReal) (n : ℕ) :
    (state s v (n + 1)).m = max (state s v n).m (Finset.univ.sup (s n)) := rfl

/-- The new denominator: the old one scaled by exp (m − m'), plus the tile's terms exp (s n u − m'). -/
theorem state_succ_l (s v : ℕ → Fin B → EReal) (n : ℕ) :
    (state s v (n + 1)).l =
      Ideal.exp ((state s v n).m - (state s v (n + 1)).m) * (state s v n).l
        + ∑ u, Ideal.exp (s n u - (state s v (n + 1)).m) := rfl

/-- The new numerator: the old one scaled by exp (m − m'), plus the tile's terms exp (s n u − m') · v n u. -/
theorem state_succ_a (s v : ℕ → Fin B → EReal) (n : ℕ) :
    (state s v (n + 1)).a =
      Ideal.exp ((state s v n).m - (state s v (n + 1)).m) * (state s v n).a
        + ∑ u, Ideal.exp (s n u - (state s v (n + 1)).m) * v n u := rfl

/-! ### The maximum of the first n tiles -/

/-- M n: the maximum of the scores of the tiles before n (−∞ for no tile). -/
def M (s : ℕ → Fin B → EReal) (n : ℕ) : EReal := (Finset.range n).sup fun t => Finset.univ.sup (s t)

/-- M n written out. -/
theorem M_def (s : ℕ → Fin B → EReal) (n : ℕ) :
    M s n = (Finset.range n).sup fun t => Finset.univ.sup (s t) := rfl

/-- The maximum of no tile is −∞. -/
@[simp] theorem M_zero (s : ℕ → Fin B → EReal) : M s 0 = ⊥ := by
  rw [M, Finset.range_zero, Finset.sup_empty]

/-- One more tile: the maximum of the earlier tiles and of the new one. -/
theorem M_succ (s : ℕ → Fin B → EReal) (n : ℕ) :
    M s (n + 1) = max (M s n) (Finset.univ.sup (s n)) := by
  rw [M, Finset.range_add_one, Finset.sup_insert, max_comm]; rfl

/-- With at least one tile, a positive tile width and real scores, the maximum M n is a real number. -/
theorem M_isReal {s : ℕ → Fin B → EReal} {n : ℕ} (hB : 0 < B) (hn : 1 ≤ n)
    (hs : ∀ t < n, ∀ u, ∃ r : ℝ, s t u = (r : EReal)) : ∃ r : ℝ, M s n = (r : EReal) :=
  sup_isReal _ (Finset.nonempty_range_iff.mpr (by omega)) _ fun t ht =>
    sup_isReal _ ⟨⟨0, hB⟩, Finset.mem_univ _⟩ _ fun u _ => hs t (Finset.mem_range.mp ht) u

/-! ### The two sums as real numbers -/

/-- The sum of exp (s t u − c) over the first n tiles, for real scores and a real c, is the coercion of the real sum. -/
theorem den_coe {s : ℕ → Fin B → EReal} {n : ℕ} (hs : ∀ t < n, ∀ u, ∃ r : ℝ, s t u = (r : EReal)) (c : ℝ) :
    ∑ t ∈ Finset.range n, ∑ u, Ideal.exp (s t u - (c : EReal))
      = ((∑ t ∈ Finset.range n, ∑ u, Real.exp ((s t u).toReal - c) : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  rw [hr, exp_coe_sub, EReal.toReal_coe]

/-- The sum of exp (s t u − c) · v t u over the first n tiles, for real scores and values and a real c, is the coercion of
    the real sum. -/
theorem num_coe {s v : ℕ → Fin B → EReal} {n : ℕ} (hs : ∀ t < n, ∀ u, ∃ r : ℝ, s t u = (r : EReal))
    (hv : ∀ t < n, ∀ u, ∃ r : ℝ, v t u = (r : EReal)) (c : ℝ) :
    ∑ t ∈ Finset.range n, ∑ u, Ideal.exp (s t u - (c : EReal)) * v t u
      = ((∑ t ∈ Finset.range n, ∑ u, Real.exp ((s t u).toReal - c) * (v t u).toReal : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  obtain ⟨q, hq⟩ := hv t (Finset.mem_range.mp ht) u
  rw [hr, hq, exp_coe_sub, EReal.toReal_coe, EReal.toReal_coe, EReal.coe_mul]

/-- Moving the reference point of the denominator from c to d multiplies it by exp (c − d). -/
theorem rescale_den {s : ℕ → Fin B → EReal} {n : ℕ} (hs : ∀ t < n, ∀ u, ∃ r : ℝ, s t u = (r : EReal)) (c d : ℝ) :
    Ideal.exp ((c : EReal) - (d : EReal)) * ∑ t ∈ Finset.range n, ∑ u, Ideal.exp (s t u - (c : EReal))
      = ∑ t ∈ Finset.range n, ∑ u, Ideal.exp (s t u - (d : EReal)) := by
  rw [den_coe hs c, den_coe hs d, exp_coe_sub, ← EReal.coe_mul, EReal.coe_eq_coe_iff, Finset.mul_sum]
  refine Finset.sum_congr rfl fun t _ => ?_
  rw [Finset.mul_sum]
  refine Finset.sum_congr rfl fun u _ => ?_
  rw [← Real.exp_add]
  congr 1; ring

/-- Moving the reference point of the numerator from c to d multiplies it by exp (c − d). -/
theorem rescale_num {s v : ℕ → Fin B → EReal} {n : ℕ} (hs : ∀ t < n, ∀ u, ∃ r : ℝ, s t u = (r : EReal))
    (hv : ∀ t < n, ∀ u, ∃ r : ℝ, v t u = (r : EReal)) (c d : ℝ) :
    Ideal.exp ((c : EReal) - (d : EReal)) * ∑ t ∈ Finset.range n, ∑ u, Ideal.exp (s t u - (c : EReal)) * v t u
      = ∑ t ∈ Finset.range n, ∑ u, Ideal.exp (s t u - (d : EReal)) * v t u := by
  rw [num_coe hs hv c, num_coe hs hv d, exp_coe_sub, ← EReal.coe_mul, EReal.coe_eq_coe_iff, Finset.mul_sum]
  refine Finset.sum_congr rfl fun t _ => ?_
  rw [Finset.mul_sum]
  refine Finset.sum_congr rfl fun u _ => ?_
  rw [← mul_assoc, ← Real.exp_add]
  congr 2; ring

/-! ### The state after n tiles -/

/-- After n tiles whose scores and values are real numbers, the running maximum is M n and the two running sums are the
    sums over all n tiles taken against M n. (True for n = 0 as well: −∞, 0, 0.) -/
theorem state_eq {s v : ℕ → Fin B → EReal} (hB : 0 < B) :
    ∀ n : ℕ, (∀ t < n, ∀ u, ∃ r : ℝ, s t u = (r : EReal)) → (∀ t < n, ∀ u, ∃ r : ℝ, v t u = (r : EReal)) →
      state s v n = ⟨M s n, ∑ t ∈ Finset.range n, ∑ u, Ideal.exp (s t u - M s n),
                     ∑ t ∈ Finset.range n, ∑ u, Ideal.exp (s t u - M s n) * v t u⟩ := by
  intro n
  induction n with
  | zero => intro _ _; simp
  | succ n ih =>
    intro hs hv
    have hs' : ∀ t < n, ∀ u, ∃ r : ℝ, s t u = (r : EReal) := fun t ht => hs t (by omega)
    have hv' : ∀ t < n, ∀ u, ∃ r : ℝ, v t u = (r : EReal) := fun t ht => hv t (by omega)
    obtain ⟨m', hm'⟩ := M_isReal hB (n := n + 1) (by omega) hs
    have hmax : max (M s n) (Finset.univ.sup (s n)) = (m' : EReal) := by rw [← M_succ, hm']
    have hd : Ideal.exp (M s n - (m' : EReal)) * ∑ t ∈ Finset.range n, ∑ u, Ideal.exp (s t u - M s n)
        = ∑ t ∈ Finset.range n, ∑ u, Ideal.exp (s t u - (m' : EReal)) := by
      rcases Nat.eq_zero_or_pos n with rfl | hn
      · simp
      · obtain ⟨m, hm⟩ := M_isReal hB hn hs'
        rw [hm]; exact rescale_den hs' m m'
    have ha : Ideal.exp (M s n - (m' : EReal)) * ∑ t ∈ Finset.range n, ∑ u, Ideal.exp (s t u - M s n) * v t u
        = ∑ t ∈ Finset.range n, ∑ u, Ideal.exp (s t u - (m' : EReal)) * v t u := by
      rcases Nat.eq_zero_or_pos n with rfl | hn
      · simp
      · obtain ⟨m, hm⟩ := M_isReal hB hn hs'
        rw [hm]; exact rescale_num hs' hv' m m'
    rw [state_succ, ih hs' hv']
    dsimp only
    rw [hmax, hm', Finset.sum_range_succ, Finset.sum_range_succ, hd, ha]

/-- The running maximum after n ≥ 1 tiles is the maximum M n of all their scores, a real number. -/
theorem max_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).m = M s n ∧ ∃ r : ℝ, M s n = (r : EReal) :=
  ⟨by rw [state_eq hB n hs hv], M_isReal hB hn hs⟩

/-- The running denominator after n ≥ 1 tiles is the sum of exp (s t u − M n) over all their positions, a positive
    real number. -/
theorem den_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).l = ∑ t ∈ Finset.range n, ∑ u, Ideal.exp (s t u - M s n)
      ∧ ∃ r : ℝ, 0 < r ∧ (state s v n).l = (r : EReal) := by
  have h : (state s v n).l = ∑ t ∈ Finset.range n, ∑ u, Ideal.exp (s t u - M s n) := by rw [state_eq hB n hs hv]
  refine ⟨h, ?_⟩
  obtain ⟨m, hm⟩ := M_isReal hB hn hs
  refine ⟨_, ?_, by rw [h, hm]; exact den_coe hs m⟩
  exact Finset.sum_pos (fun t _ => Finset.sum_pos (fun u _ => Real.exp_pos _) ⟨⟨0, hB⟩, Finset.mem_univ _⟩)
    (Finset.nonempty_range_iff.mpr (by omega))

/-- The running numerator after n ≥ 1 tiles is the sum of exp (s t u − M n) · v t u over all their positions, a real
    number. -/
theorem num_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).a = ∑ t ∈ Finset.range n, ∑ u, Ideal.exp (s t u - M s n) * v t u
      ∧ ∃ r : ℝ, (state s v n).a = (r : EReal) := by
  have h : (state s v n).a = ∑ t ∈ Finset.range n, ∑ u, Ideal.exp (s t u - M s n) * v t u := by
    rw [state_eq hB n hs hv]
  obtain ⟨m, hm⟩ := M_isReal hB hn hs
  exact ⟨h, _, by rw [h, hm]; exact num_coe hs hv m⟩

/-! ### The quotient of the sums is the sum of the quotients -/

/-- Dividing a finite sum of products of real numbers by a nonzero real number divides the first factor of each term. -/
theorem div_sum {ι : Type*} (S : Finset ι) (a b : ι → EReal) (ha : ∀ i ∈ S, ∃ r : ℝ, a i = (r : EReal))
    (hb : ∀ i ∈ S, ∃ r : ℝ, b i = (r : EReal)) {L : ℝ} (hL : L ≠ 0) :
    Ideal.div (∑ i ∈ S, a i * b i) (L : EReal) = ∑ i ∈ S, Ideal.div (a i) (L : EReal) * b i := by
  simp only [Ideal.div_coe hL]
  have e1 : ∑ i ∈ S, a i * b i = ((∑ i ∈ S, (a i).toReal * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul]
  have e2 : ∑ i ∈ S, a i * ((1 / L : ℝ) : EReal) * b i
      = ((∑ i ∈ S, (a i).toReal * (1 / L) * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul, EReal.coe_mul]
  rw [e1, e2, ← EReal.coe_mul, EReal.coe_eq_coe_iff, Finset.sum_mul]
  exact Finset.sum_congr rfl fun i _ => by ring

/-- The same over a whole finite index type: (Σ_j a j · b j) / L = Σ_j (a j / L) · b j for real a, b and a real L ≠ 0. -/
theorem div_sum_univ {ι : Type*} [Fintype ι] (a b : ι → EReal) (ha : ∀ j, ∃ r : ℝ, a j = (r : EReal))
    (hb : ∀ j, ∃ r : ℝ, b j = (r : EReal)) {L : ℝ} (hL : L ≠ 0) :
    Ideal.div (∑ j, a j * b j) (L : EReal) = ∑ j, Ideal.div (a j) (L : EReal) * b j :=
  div_sum Finset.univ a b (fun j _ => ha j) (fun j _ => hb j) hL

/-- After n ≥ 1 tiles the quotient numerator / denominator is the sum, over all positions of the n tiles, of the softmax
    weight exp (s t u − M n) / Σ exp (s t' u' − M n) times the value v t u. -/
theorem quot_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    Ideal.div (state s v n).a (state s v n).l
      = ∑ t ∈ Finset.range n, ∑ u,
          Ideal.div (Ideal.exp (s t u - M s n)) (∑ t' ∈ Finset.range n, ∑ u', Ideal.exp (s t' u' - M s n)) * v t u := by
  obtain ⟨hl, L, hLpos, hL⟩ := den_eq hB hn hs hv
  obtain ⟨m, hm⟩ := M_isReal hB hn hs
  rw [(num_eq hB hn hs hv).1, ← hl, hL, hm, ← Finset.sum_product', ← Finset.sum_product']
  refine div_sum _ (fun p : ℕ × Fin B => Ideal.exp (s p.1 p.2 - (m : EReal))) (fun p : ℕ × Fin B => v p.1 p.2)
    (fun p hp => ?_) (fun p hp => ?_)
    hLpos.ne'
  · obtain ⟨r, hr⟩ := hs p.1 (Finset.mem_range.mp (Finset.mem_product.mp hp).1) p.2
    exact ⟨_, by rw [hr, exp_coe_sub]⟩
  · exact hv p.1 (Finset.mem_range.mp (Finset.mem_product.mp hp).1) p.2

/-! ### One flat index

A row of T · B entries is cut into T tiles of width B: position u of tile t is the entry j = u + B · t. -/

/-- The flat position of entry u of tile t is u + B · t. -/
theorem flat_val {T : ℕ} (t : Fin T) (u : Fin B) : (finProdFinEquiv (t, u) : Fin (T * B)).val = u.val + B * t.val := rfl

/-- The flat position of entry u of tile t, written as a bounded number. -/
theorem flat_mk {T : ℕ} (t : ℕ) (ht : t < T) (u : Fin B) (h : u.val + B * t < T * B) :
    (finProdFinEquiv ((⟨t, ht⟩ : Fin T), u) : Fin (T * B)) = ⟨u.val + B * t, h⟩ := rfl

/-- The tiles of a flat row f: position u of tile t < T is the entry u + B · t; tiles from T on are filled with z. -/
def tiles {T : ℕ} (f : Fin (T * B) → EReal) (z : EReal) (t : ℕ) (u : Fin B) : EReal :=
  if h : t < T then f (finProdFinEquiv (⟨t, h⟩, u)) else z

/-- A tile before T reads the flat row. -/
theorem tiles_of_lt {T : ℕ} (f : Fin (T * B) → EReal) (z : EReal) (t : ℕ) (ht : t < T) (u : Fin B) :
    tiles f z t u = f (finProdFinEquiv (⟨t, ht⟩, u)) := dif_pos ht

/-- Summing over the T tiles and the B positions of each is summing over the flat index. -/
theorem sum_tiles {T : ℕ} (G : ℕ → Fin B → EReal) (H : Fin (T * B) → EReal)
    (h : ∀ (t : ℕ) (ht : t < T) (u : Fin B), G t u = H (finProdFinEquiv (⟨t, ht⟩, u))) :
    ∑ t ∈ Finset.range T, ∑ u, G t u = ∑ j, H j := by
  rw [Finset.sum_range, ← Fintype.sum_prod_type', ← Equiv.sum_comp finProdFinEquiv H]
  exact Fintype.sum_congr _ _ fun p => h p.1 p.1.2 p.2

/-- The maximum over the T tiles is the maximum over the flat index. -/
theorem M_flat {T : ℕ} {s : ℕ → Fin B → EReal} {f : Fin (T * B) → EReal}
    (hs : ∀ (t : ℕ) (ht : t < T) (u : Fin B), s t u = f (finProdFinEquiv (⟨t, ht⟩, u))) :
    M s T = Finset.univ.sup f := by
  apply le_antisymm
  · refine Finset.sup_le fun t ht => Finset.sup_le fun u _ => ?_
    rw [hs t (Finset.mem_range.mp ht) u]
    exact Finset.le_sup (Finset.mem_univ _)
  · refine Finset.sup_le fun j _ => ?_
    obtain ⟨⟨t, u⟩, rfl⟩ := finProdFinEquiv.surjective j
    calc f (finProdFinEquiv (t, u)) = s t.1 u := (hs t.1 t.2 u).symm
      _ ≤ Finset.univ.sup (s t.1) := Finset.le_sup (Finset.mem_univ u)
      _ ≤ M s T := Finset.le_sup (f := fun t => Finset.univ.sup (s t)) (Finset.mem_range.mpr t.2)

/-- The online softmax of a flat row. When the tiles s, v read the real rows f, g (position u of tile t is the entry
    u + B · t), after all T ≥ 1 tiles the quotient numerator / denominator is the two-pass softmax of f against g:
    the sum over j of exp (f j − max f) / Σ_j' exp (f j' − max f) times g j. -/
theorem quot_eq_flat {T : ℕ} {s v : ℕ → Fin B → EReal} {f g : Fin (T * B) → EReal} (hB : 0 < B) (hT : 1 ≤ T)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    Ideal.div (state s v T).a (state s v T).l
      = ∑ j, Ideal.div (Ideal.exp (f j - Finset.univ.sup f)) (∑ j', Ideal.exp (f j' - Finset.univ.sup f)) * g j := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t' ∈ Finset.range T, ∑ u', Ideal.exp (s t' u' - Finset.univ.sup f)
      = ∑ j', Ideal.exp (f j' - Finset.univ.sup f) :=
    sum_tiles _ _ fun t ht u => by rw [hs t ht u]
  rw [quot_eq hB hT hsr hvr, M_flat hs, hD]
  exact sum_tiles _ _ fun t ht u => by rw [hs t ht u, hv t ht u]

/-- The online softmax of a flat row, for the tiles cut from the flat rows themselves. -/
theorem quot_eq_tiles {T : ℕ} {f g : Fin (T * B) → EReal} (hB : 0 < B) (hT : 1 ≤ T)
    (hf : ∀ j, ∃ r : ℝ, f j = (r : EReal)) (hg : ∀ j, ∃ r : ℝ, g j = (r : EReal)) (z z' : EReal) :
    Ideal.div (state (tiles f z) (tiles g z') T).a (state (tiles f z) (tiles g z') T).l
      = ∑ j, Ideal.div (Ideal.exp (f j - Finset.univ.sup f)) (∑ j', Ideal.exp (f j' - Finset.univ.sup f)) * g j :=
  quot_eq_flat hB hT hf hg (tiles_of_lt f z) (tiles_of_lt g z')

/-- The state after n tiles only reads the tiles before n. -/
theorem state_congr {s s' v v' : ℕ → Fin B → EReal} :
    ∀ n : ℕ, (∀ t < n, s t = s' t) → (∀ t < n, v t = v' t) → state s v n = state s' v' n
  | 0, _, _ => rfl
  | n + 1, hs, hv => by
    have ih := state_congr n (fun t ht => hs t (by omega)) (fun t ht => hv t (by omega))
    rw [state_succ, state_succ, ih, hs n (by omega), hv n (by omega)]

/-- The state after all T tiles of the flat real rows f, g: the maximum of f, the sum of exp (f j − max f) and the sum of
    exp (f j − max f) · g j. -/
theorem state_flat {T : ℕ} {s v : ℕ → Fin B → EReal} {f g : Fin (T * B) → EReal} (hB : 0 < B)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    state s v T = ⟨Finset.univ.sup f, ∑ j, Ideal.exp (f j - Finset.univ.sup f),
                   ∑ j, Ideal.exp (f j - Finset.univ.sup f) * g j⟩ := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t ∈ Finset.range T, ∑ u, Ideal.exp (s t u - Finset.univ.sup f)
      = ∑ j, Ideal.exp (f j - Finset.univ.sup f) :=
    sum_tiles _ _ fun t ht u => by rw [hs t ht u]
  have hN : ∑ t ∈ Finset.range T, ∑ u, Ideal.exp (s t u - Finset.univ.sup f) * v t u
      = ∑ j, Ideal.exp (f j - Finset.univ.sup f) * g j :=
    sum_tiles _ _ fun t ht u => by rw [hs t ht u, hv t ht u]
  rw [state_eq hB T hsr hvr, M_flat hs, hD, hN]

/-- The maximum of a real row over a nonempty finite index type is a real number. -/
theorem sup_univ_isReal {ι : Type*} [Fintype ι] [Nonempty ι] (f : ι → EReal) (hf : ∀ j, ∃ r : ℝ, f j = (r : EReal)) :
    ∃ r : ℝ, Finset.univ.sup f = (r : EReal) :=
  sup_isReal _ Finset.univ_nonempty f fun j _ => hf j

/-- The denominator of the two-pass softmax of a real row over a nonempty finite index type, the sum of
    exp (f j − max f), is a positive real number. -/
theorem softmax_den_pos {ι : Type*} [Fintype ι] [Nonempty ι] (f : ι → EReal) (hf : ∀ j, ∃ r : ℝ, f j = (r : EReal)) :
    ∃ r : ℝ, 0 < r ∧ ∑ j, Ideal.exp (f j - Finset.univ.sup f) = (r : EReal) := by
  obtain ⟨m, hm⟩ := sup_univ_isReal f hf
  refine ⟨∑ j, Real.exp ((f j).toReal - m), Finset.sum_pos (fun j _ => Real.exp_pos _) Finset.univ_nonempty, ?_⟩
  rw [hm, coe_finset_sum]
  refine Finset.sum_congr rfl fun j _ => ?_
  obtain ⟨r, hr⟩ := hf j
  rw [hr, exp_coe_sub, EReal.toReal_coe]

end Cert.LibOnlineSoftmax

end
-- ==== Proof.KI.AttnStep.lean ====
/-
  One key tile's update of the attention scratch is one step of the online softmax recurrence, row by row and lane by
  lane: with m, l, a the running maximum, running sum and running weighted value of query row r (and value lane e),
  reading a tile of scores s and values v replaces them by

      m' = max m (max_u s u),   l' = exp (m − m') · l + Σ_u exp (s u − m'),   a' = exp (m − m') · a + Σ_u exp (s u − m') · v u.
-/
import proofs.«137829_j2276332667508_2_alg».proof.Proof.KI.AttnPay
import proofs.«137829_j2276332667508_2_alg».proof.Proof.LibOnlineSoftmax

set_option maxRecDepth 16384

noncomputable section

namespace Cert.KernelIdeal.Hand

open Idealize.ShloMosaic Idealize.ShloMosaic.ValueIdx Cert.KernelIdeal Cert.KernelIdeal.Gen Cert.LibOnlineSoftmax
open scoped BigOperators

/-- The fold of max from −∞ over a tile's row is its supremum. -/
theorem fold_max_eq_sup {n : ℕ} (f : Fin n → EReal) : (Finset.univ : Finset (Fin n)).fold max ⊥ f = Finset.univ.sup f := rfl

/-- The update of the three scratch buffers at a point that reads a tile, read at row r and lane e: one step of the
    recurrence from the state the scratch held. -/
theorem step_update (a2 a3 : BitVec 32) (q k v : Vec Ideal S1x512x128 .bf16) (st : St3 Ideal)
    (s vv : ℕ → Fin 512 → EReal) (T : ℕ) (r : Fin 512) (e : Fin 128)
    (hm : st.1 (ix2 r 0) = (state s vv T).m) (hl : st.2.1 (ix2 r 0) = (state s vv T).l) (ha : st.2.2 (ix2 r e) = (state s vv T).a)
    (hs : ∀ u, k3_pay8 (F := Ideal) a2 a3 q k (ix2 r u) = s T u) (hv : ∀ u, v (ix3 0 u e) = vv T u) :
    k3_pay5 (F := Ideal) (k3_pay9 (F := Ideal) a2 a3 q k st.1) (ix2 r 0) = (state s vv (T + 1)).m
    ∧ k3_pay12 (F := Ideal) a2 a3 q k st.1 st.2.1 (ix2 r 0) = (state s vv (T + 1)).l
    ∧ k3_pay4 (F := Ideal) (k3_pay7 (F := Ideal) v) (k3_pay10 (F := Ideal) a2 a3 q k st.1) (k3_pay11 (F := Ideal) a2 a3 q k st.1) st.2.2 (ix2 r e)
        = (state s vv (T + 1)).a := by
  have h9 : k3_pay9 (F := Ideal) a2 a3 q k st.1 (ix2 r 0) = max (state s vv T).m (Finset.univ.sup (s T)) := by
    rw [pay9_apply, hm, fold_max_eq_sup]
    congr 2
    funext u; exact hs u
  have h10 : k3_pay10 (F := Ideal) a2 a3 q k st.1 (ix2 r 0)
      = Ideal.exp ((state s vv T).m - max (state s vv T).m (Finset.univ.sup (s T))) := by
    rw [pay10_apply, h9, hm]
  have h11 : ∀ u, k3_pay11 (F := Ideal) a2 a3 q k st.1 (ix2 r u)
      = Ideal.exp (s T u - max (state s vv T).m (Finset.univ.sup (s T))) := fun u => by
    rw [pay11_apply, h9, hs u]
  refine ⟨?_, ?_, ?_⟩
  · rw [pay5_eq, h9]; rfl
  · rw [pay12_apply, h10, hl, zero_add]
    rw [show (state s vv (T + 1)).l = Ideal.exp ((state s vv T).m - max (state s vv T).m (Finset.univ.sup (s T))) * (state s vv T).l
        + ∑ u, Ideal.exp (s T u - max (state s vv T).m (Finset.univ.sup (s T))) from rfl]
    congr 1
    exact Finset.sum_congr rfl fun u _ => h11 u
  · rw [pay4_apply, h10, ha]
    rw [show (state s vv (T + 1)).a = Ideal.exp ((state s vv T).m - max (state s vv T).m (Finset.univ.sup (s T))) * (state s vv T).a
        + ∑ u, Ideal.exp (s T u - max (state s vv T).m (Finset.univ.sup (s T))) * vv T u from rfl]
    congr 1
    refine Finset.sum_congr rfl fun u _ => ?_
    rw [h11 u, pay7_apply, hv u]

/-- The reset the first key tile makes is the recurrence's start (−∞, 0, 0). -/
theorem reset_start (s vv : ℕ → Fin 512 → EReal) (r : Fin 512) (e : Fin 128) :
    k3_pay1 (F := Ideal) (ix2 r 0) = (state s vv 0).m ∧ k3_pay2 (F := Ideal) (ix2 r 0) = (state s vv 0).l
      ∧ k3_pay3 (F := Ideal) (ix2 r e) = (state s vv 0).a :=
  ⟨pay1_apply r, pay2_apply r, pay3_apply r e⟩

end Cert.KernelIdeal.Hand

end
-- ==== Proof.KI.AttnValueA.lean ====
/-
  What the tiled attention leaves in its scratch, point by point, is the online softmax recurrence of the causally masked
  score rows.

  The grid has 4 · 16 · 4 · 4 points: position t stands for batch t / 256, head t / 16 mod 16, query tile t / 4 mod 4 and
  key tile t mod 4.  The query window's block at t holds rows 512·qi … 512·qi + 511 and lanes 128·h … 128·h + 127 of the
  query array, the key and value windows' blocks the rows 512·ki … of theirs.  After the point with key tile ki the three
  scratch buffers hold, at query row r (and value lane e), the state of the recurrence after min (ki, qi) + 1 tiles of
  that row's scores: the first key tile resets and reads tile 0, a key tile up to the diagonal reads its tile, a key tile
  above the diagonal changes nothing.
-/
import proofs.«137829_j2276332667508_2_alg».proof.Proof.KI.AttnStep
import proofs.«137829_j2276332667508_2_alg».proof.Proof.SpecRead

set_option maxRecDepth 16384

noncomputable section

namespace Cert.KernelIdeal.Hand

open Idealize.ShloMosaic Idealize.ShloMosaic.TcCoe Idealize.ShloMosaic.ValueIdx Cert.KernelIdeal Cert.KernelIdeal.Gen Cert.LibOnlineSoftmax
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The grid, decided once -/

/-- The index maps and the coordinates as arithmetic of the position. -/
theorem idx_facts3 : ∀ t : Fin cfg3.N,
    win3_0.index t (0 : Fin 3) = t.val / 256 ∧ win3_0.index t (1 : Fin 3) = t.val / 4 % 4 ∧ win3_0.index t (2 : Fin 3) = t.val / 16 % 16
    ∧ win3_1.index t (0 : Fin 3) = t.val / 256 ∧ win3_1.index t (1 : Fin 3) = t.val % 4 ∧ win3_1.index t (2 : Fin 3) = t.val / 16 % 16
    ∧ win3_2.index t (0 : Fin 3) = t.val / 256 ∧ win3_2.index t (1 : Fin 3) = t.val % 4 ∧ win3_2.index t (2 : Fin 3) = t.val / 16 % 16
    ∧ win3_3.index t (0 : Fin 3) = t.val / 256 ∧ win3_3.index t (1 : Fin 3) = t.val / 4 % 4 ∧ win3_3.index t (2 : Fin 3) = t.val / 16 % 16
    ∧ (grid3.coords t 2).val = t.val / 4 % 4 ∧ (grid3.coords t 3).val = t.val % 4 :=
  (by decide +kernel : ∀ t : Fin grid3.N, _)

/-- The three branch conditions as arithmetic of the position. -/
theorem vcond3 : ∀ t : Fin cfg3.N, (cond3_0 (grid3.coords t) ↔ t.val % 4 = 0)
    ∧ (cond3_1 (grid3.coords t) ↔ t.val % 4 ≤ t.val / 4 % 4) ∧ (cond3_2 (grid3.coords t) ↔ t.val % 4 = 3) :=
  (by decide +kernel : ∀ t : Fin grid3.N, _)

theorem lt_N3 (t : Fin cfg3.N) : t.val < 1024 := lt_of_lt_of_eq t.isLt (show cfg3.N = 1024 from N_3)

/-! ## The three arrays by natural-number coordinates -/

/-- The query array at natural-number coordinates (0 outside the array). -/
def Qn (c : Dev nD) (b i o : ℕ) : EReal :=
  if h : b < 4 ∧ i < 2048 ∧ o < 2048 then (V c main_v10 : S4x2048x2048.Idx → EReal) (ix3 ⟨b, h.1⟩ ⟨i, h.2.1⟩ ⟨o, h.2.2⟩) else 0
/-- The key array. -/
def Kn (c : Dev nD) (b i o : ℕ) : EReal :=
  if h : b < 4 ∧ i < 2048 ∧ o < 2048 then (V c main_v11 : S4x2048x2048.Idx → EReal) (ix3 ⟨b, h.1⟩ ⟨i, h.2.1⟩ ⟨o, h.2.2⟩) else 0
/-- The value array. -/
def Vn (c : Dev nD) (b i o : ℕ) : EReal :=
  if h : b < 4 ∧ i < 2048 ∧ o < 2048 then (V c main_v12 : S4x2048x2048.Idx → EReal) (ix3 ⟨b, h.1⟩ ⟨i, h.2.1⟩ ⟨o, h.2.2⟩) else 0

/-- The query window's block at a point: rows of the point's query tile, lanes of its head. -/
theorem iblk3_0_apply (c : Dev nD) (t : Fin cfg3.N) (r : Fin 512) (e : Fin 128) :
    (iblk3 V c 0 t : S1x512x128.Idx → EReal) (ix3 0 r e) = Qn V c (t.val / 256) (512 * (t.val / 4 % 4) + r.val) (128 * (t.val / 16 % 16) + e.val) := by
  obtain ⟨e0, e1, e2, -⟩ := idx_facts3 t
  have ht := lt_N3 t
  have hb : t.val / 256 < 4 ∧ 512 * (t.val / 4 % 4) + r.val < 2048 ∧ 128 * (t.val / 16 % 16) + e.val < 2048 := by
    have := r.isLt; have := e.isLt; omega
  unfold Qn
  rw [dif_pos hb]
  show V c main_v10 (((cfg3.win 0).blk t).view.emb (ix3 0 r e)) = _
  refine congrArg (V c main_v10) ?_
  funext a; apply Fin.ext
  match a with
  | ⟨0, _⟩ => show win3_0.index t (0 : Fin 3) * 1 + 1 * 0 = t.val / 256; omega
  | ⟨1, _⟩ => show win3_0.index t (1 : Fin 3) * 512 + 1 * r.val = 512 * (t.val / 4 % 4) + r.val; omega
  | ⟨2, _⟩ => show win3_0.index t (2 : Fin 3) * 128 + 1 * e.val = 128 * (t.val / 16 % 16) + e.val; omega

/-- The key window's block at a point: rows of the point's key tile. -/
theorem iblk3_1_apply (c : Dev nD) (t : Fin cfg3.N) (u : Fin 512) (e : Fin 128) :
    (iblk3 V c 1 t : S1x512x128.Idx → EReal) (ix3 0 u e) = Kn V c (t.val / 256) (512 * (t.val % 4) + u.val) (128 * (t.val / 16 % 16) + e.val) := by
  obtain ⟨-, -, -, e0, e1, e2, -⟩ := idx_facts3 t
  have ht := lt_N3 t
  have hb : t.val / 256 < 4 ∧ 512 * (t.val % 4) + u.val < 2048 ∧ 128 * (t.val / 16 % 16) + e.val < 2048 := by
    have := u.isLt; have := e.isLt; omega
  unfold Kn
  rw [dif_pos hb]
  show V c main_v11 (((cfg3.win 1).blk t).view.emb (ix3 0 u e)) = _
  refine congrArg (V c main_v11) ?_
  funext a; apply Fin.ext
  match a with
  | ⟨0, _⟩ => show win3_1.index t (0 : Fin 3) * 1 + 1 * 0 = t.val / 256; omega
  | ⟨1, _⟩ => show win3_1.index t (1 : Fin 3) * 512 + 1 * u.val = 512 * (t.val % 4) + u.val; omega
  | ⟨2, _⟩ => show win3_1.index t (2 : Fin 3) * 128 + 1 * e.val = 128 * (t.val / 16 % 16) + e.val; omega

/-- The value window's block at a point. -/
theorem iblk3_2_apply (c : Dev nD) (t : Fin cfg3.N) (u : Fin 512) (e : Fin 128) :
    (iblk3 V c 2 t : S1x512x128.Idx → EReal) (ix3 0 u e) = Vn V c (t.val / 256) (512 * (t.val % 4) + u.val) (128 * (t.val / 16 % 16) + e.val) := by
  obtain ⟨-, -, -, -, -, -, e0, e1, e2, -⟩ := idx_facts3 t
  have ht := lt_N3 t
  have hb : t.val / 256 < 4 ∧ 512 * (t.val % 4) + u.val < 2048 ∧ 128 * (t.val / 16 % 16) + e.val < 2048 := by
    have := u.isLt; have := e.isLt; omega
  unfold Vn
  rw [dif_pos hb]
  show V c main_v12 (((cfg3.win 2).blk t).view.emb (ix3 0 u e)) = _
  refine congrArg (V c main_v12) ?_
  funext a; apply Fin.ext
  match a with
  | ⟨0, _⟩ => show win3_2.index t (0 : Fin 3) * 1 + 1 * 0 = t.val / 256; omega
  | ⟨1, _⟩ => show win3_2.index t (1 : Fin 3) * 512 + 1 * u.val = 512 * (t.val % 4) + u.val; omega
  | ⟨2, _⟩ => show win3_2.index t (2 : Fin 3) * 128 + 1 * e.val = 128 * (t.val / 16 % 16) + e.val; omega

/-! ## The scores and the recurrence -/

/-- The scaled, causally masked score of query row i against key row j of head h. -/
def scoreN (c : Dev nD) (b h i j : ℕ) : EReal :=
  if i < j then ⊥ else (∑ e : Fin 128, Qn V c b i (128 * h + e.val) * Kn V c b j (128 * h + e.val)) * Cert.Spec.scale

/-- A query row's scores in tiles of 512. -/
def sT (c : Dev nD) (b h i : ℕ) : ℕ → Fin 512 → EReal := fun n u => scoreN V c b h i (512 * n + u.val)
/-- A value column in tiles of 512. -/
def vT (c : Dev nD) (b o : ℕ) : ℕ → Fin 512 → EReal := fun n u => Vn V c b (512 * n + u.val) o

/-- The scratch holds, row by row and lane by lane, the recurrence's state after T tiles. -/
def Inv (c : Dev nD) (b h qi T : ℕ) (st : St3 Ideal) : Prop :=
  ∀ (r : Fin 512) (e : Fin 128),
    st.1 (ix2 r 0) = (state (sT V c b h (512 * qi + r.val)) (vT V c b (128 * h + e.val)) T).m
    ∧ st.2.1 (ix2 r 0) = (state (sT V c b h (512 * qi + r.val)) (vT V c b (128 * h + e.val)) T).l
    ∧ st.2.2 (ix2 r e) = (state (sT V c b h (512 * qi + r.val)) (vT V c b (128 * h + e.val)) T).a

/-- The score tile the body computes at a point is the point's tile of the query rows' scores. -/
theorem pay8_point (c : Dev nD) (t : Fin cfg3.N) (r u : Fin 512) :
    k3_pay8 (F := Ideal) (BitVec.ofNat 32 (grid3.coords t 2).val) (BitVec.ofNat 32 (grid3.coords t 3).val) (iblk3 V c 0 t) (iblk3 V c 1 t) (ix2 r u)
      = sT V c (t.val / 256) (t.val / 16 % 16) (512 * (t.val / 4 % 4) + r.val) (t.val % 4) u := by
  obtain ⟨-, -, -, -, -, -, -, -, -, -, -, -, hc2, hc3⟩ := idx_facts3 t
  have ht := lt_N3 t
  rw [hc2, hc3]
  have h8 := pay8_apply (⟨t.val / 4 % 4, by omega⟩ : Fin 4) (⟨t.val % 4, by omega⟩ : Fin 4) (iblk3 V c 0 t) (iblk3 V c 1 t) r u
  refine h8.trans ?_
  unfold sT scoreN
  refine if_congr Iff.rfl rfl ?_
  congr 1
  refine Finset.sum_congr rfl fun e _ => ?_
  rw [iblk3_0_apply, iblk3_1_apply]

/-- One point's effect on the invariant. -/
theorem step3_inv (c : Dev nD) (t : Fin cfg3.N) (st : St3 Ideal)
    (hprev : t.val % 4 ≠ 0 → Inv V c (t.val / 256) (t.val / 16 % 16) (t.val / 4 % 4) (min (t.val % 4 - 1) (t.val / 4 % 4) + 1) st) :
    Inv V c (t.val / 256) (t.val / 16 % 16) (t.val / 4 % 4) (min (t.val % 4) (t.val / 4 % 4) + 1)
      (step3 (grid3.coords t) (iblk3 V c 0 t) (iblk3 V c 1 t) (iblk3 V c 2 t) st) := by
  obtain ⟨h0, h1, -⟩ := vcond3 t
  have ht := lt_N3 t
  -- what the reset leaves: the state after as many tiles as were read before this point
  have hres : Inv V c (t.val / 256) (t.val / 16 % 16) (t.val / 4 % 4) (if t.val % 4 = 0 then 0 else min (t.val % 4 - 1) (t.val / 4 % 4) + 1)
      (reset3 (grid3.coords t) st) := by
    unfold reset3
    by_cases hz : t.val % 4 = 0
    · rw [if_pos (h0.mpr hz), if_pos hz]
      intro r e
      exact reset_start _ _ r e
    · rw [if_neg (fun h => hz (h0.mp h)), if_neg hz]
      exact hprev hz
  unfold step3
  by_cases hle : t.val % 4 ≤ t.val / 4 % 4
  · rw [if_pos (h1.mpr hle)]
    have hT : (if t.val % 4 = 0 then 0 else min (t.val % 4 - 1) (t.val / 4 % 4) + 1) = t.val % 4 := by
      split <;> omega
    rw [hT] at hres
    rw [show min (t.val % 4) (t.val / 4 % 4) + 1 = t.val % 4 + 1 from by omega]
    intro r e
    obtain ⟨hm, hl, ha⟩ := hres r e
    exact step_update _ _ (iblk3 V c 0 t) (iblk3 V c 1 t) (iblk3 V c 2 t) (reset3 (grid3.coords t) st) _ _ (t.val % 4) r e hm hl ha
      (fun u => pay8_point V c t r u)
      (fun u => by rw [iblk3_2_apply]; rfl)
  · rw [if_neg (fun h => hle (h1.mp h))]
    have hT : (if t.val % 4 = 0 then 0 else min (t.val % 4 - 1) (t.val / 4 % 4) + 1) = min (t.val % 4) (t.val / 4 % 4) + 1 := by
      split <;> omega
    rw [hT] at hres
    exact hres

/-- THE SCRATCH AFTER EVERY POINT: the recurrence's state after min (ki, qi) + 1 tiles. -/
theorem st3_inv (c : Dev nD) : ∀ (k : ℕ) (hk : k < cfg3.N),
    Inv V c (k / 256) (k / 16 % 16) (k / 4 % 4) (min (k % 4) (k / 4 % 4) + 1) (st3 V c k hk)
  | 0, hk => step3_inv V c ⟨0, hk⟩ _ (fun h => absurd rfl h)
  | k + 1, hk => by
    have ih := st3_inv c k (Nat.lt_of_succ_lt hk)
    have hk' : k + 1 < 1024 := lt_of_lt_of_eq hk (show cfg3.N = 1024 from N_3)
    show Inv V c ((k + 1) / 256) ((k + 1) / 16 % 16) ((k + 1) / 4 % 4) (min ((k + 1) % 4) ((k + 1) / 4 % 4) + 1)
      (step3 (grid3.coords ⟨k + 1, hk⟩) (iblk3 V c 0 ⟨k + 1, hk⟩) (iblk3 V c 1 ⟨k + 1, hk⟩) (iblk3 V c 2 ⟨k + 1, hk⟩) (st3 V c k (Nat.lt_of_succ_lt hk)))
    refine step3_inv V c ⟨k + 1, hk⟩ _ (fun hnz => ?_)
    show Inv V c ((k + 1) / 256) ((k + 1) / 16 % 16) ((k + 1) / 4 % 4) (min ((k + 1) % 4 - 1) ((k + 1) / 4 % 4) + 1) _
    have hnz' : (k + 1) % 4 ≠ 0 := hnz
    rw [show (k + 1) / 256 = k / 256 from by omega, show (k + 1) / 16 % 16 = k / 16 % 16 from by omega,
      show (k + 1) / 4 % 4 = k / 4 % 4 from by omega, show (k + 1) % 4 - 1 = k % 4 from by omega]
    exact ih

end Cert.KernelIdeal.Hand

end
-- ==== Proof.LibSoftmaxMasked.lean ====
/-
  The online softmax with masked positions.

  A score may be −∞: a masked position. Scores are never +∞, values are real numbers. The tile-by-tile recurrence

      m' = max (m, m_n),    l' = exp (m − m') · l + Σ_u exp (s n u − m'),    a' = exp (m − m') · a + Σ_u exp (s n u − m') · v n u,

  started at (−∞, 0, 0), still reaches after n tiles

      m = M n,     l = Σ_(t < n) Σ_u exp (s t u − M n),     a = Σ_(t < n) Σ_u exp (s t u − M n) · v t u,

  in the arithmetic of the extended reals with exp (−∞) = 0, −∞ − x = −∞ and 0 · x = 0.

  While the running maximum is −∞ every score read so far is −∞: both sums are sums of exp (−∞ − −∞) = exp (−∞) = 0, and
  the factor exp (−∞ − m') is 0 as well. Once the running maximum is a real number m, every score x read so far has
  x ≤ m, so exp (x − m) is a non-negative real number (0 for x = −∞); the factor exp (m − m') is a positive real number, and

      exp (m − m') · exp (x − m) = exp (x − m')

  for x real (the exponential of a sum) and for x = −∞ (0 = 0). So for all x ≤ m ≤ m' < +∞ the rescaling identity holds
  term by term, all terms are real numbers, and a real factor distributes over a finite sum of real numbers.

  When at least one score of the row is not −∞, the maximum of the row is a real number, the denominator is a positive real
  number (the term of a real score is positive, every other term is ≥ 0), and the quotient numerator / denominator is the sum
  of the weights exp (f j − max f) / Σ_j' exp (f j' − max f) times the values: the two-pass softmax, whose weight is 0 at
  every masked position.

  Nothing is distributed over a sum before its terms are known to be real numbers.
-/
import proofs.«137829_j2276332667508_2_alg».proof.Proof.LibOnlineSoftmax

noncomputable section

namespace Cert.LibSoftmaxMasked

open Idealize.ShloMosaic Cert.LibOnlineSoftmax
open scoped BigOperators

/-! ### Exponentials of differences below a reference point that is not +∞ -/

/-- For x ≤ m < +∞ the exponential exp (x − m) is a non-negative real number: exp (−∞ − m) = 0, and for real x and m
    it is the real exponential. (For m = −∞ also x = −∞, and −∞ − −∞ = −∞.) -/
theorem exp_sub_isReal {x m : EReal} (hx : x ≤ m) (hm : m ≠ ⊤) :
    ∃ r : ℝ, 0 ≤ r ∧ Ideal.exp (x - m) = (r : EReal) := by
  induction m using EReal.rec with
  | bot =>
    rw [le_bot_iff] at hx
    subst hx
    exact ⟨0, le_refl _, by rw [EReal.bot_sub]; rfl⟩
  | coe c =>
    induction x using EReal.rec with
    | bot => exact ⟨0, le_refl _, by rw [EReal.bot_sub]; rfl⟩
    | coe r => exact ⟨Real.exp (r - c), (Real.exp_pos _).le, exp_coe_sub r c⟩
    | top => exact absurd hx (not_le.mpr (EReal.coe_lt_top c))
  | top => exact absurd rfl hm

/-- For a real x and a real c the exponential exp (x − c) is a positive real number. -/
theorem exp_sub_pos {x : EReal} (hb : x ≠ ⊥) (ht : x ≠ ⊤) (c : ℝ) :
    ∃ r : ℝ, 0 < r ∧ Ideal.exp (x - (c : EReal)) = (r : EReal) := by
  induction x using EReal.rec with
  | bot => exact absurd rfl hb
  | coe q => exact ⟨Real.exp (q - c), Real.exp_pos _, exp_coe_sub q c⟩
  | top => exact absurd rfl ht

/-- Moving the reference point: for x ≤ m ≤ m' < +∞,  exp (m − m') · exp (x − m) = exp (x − m').
    For m = −∞ both sides are 0; for real m, m' it is exp (a + b) = exp a · exp b when x is real and 0 = 0 when x = −∞. -/
theorem exp_rescale {x m m' : EReal} (hx : x ≤ m) (hm : m ≤ m') (hm' : m' ≠ ⊤) :
    Ideal.exp (m - m') * Ideal.exp (x - m) = Ideal.exp (x - m') := by
  induction m using EReal.rec with
  | bot =>
    rw [le_bot_iff] at hx
    subst hx
    simp only [EReal.bot_sub, Ideal.exp_bot, mul_zero]
  | coe c =>
    induction m' using EReal.rec with
    | bot => exact absurd hm (not_le.mpr (EReal.bot_lt_coe c))
    | coe d =>
      induction x using EReal.rec with
      | bot => simp only [EReal.bot_sub, Ideal.exp_bot, mul_zero]
      | coe r =>
        rw [exp_coe_sub, exp_coe_sub, exp_coe_sub, ← EReal.coe_mul, ← Real.exp_add]
        congr 2; ring
      | top => exact absurd hx (not_le.mpr (EReal.coe_lt_top c))
    | top => exact absurd rfl hm'
  | top => exact absurd (top_le_iff.mp hm) hm'

/-! ### Finite sums of real numbers inside the extended reals -/

/-- A finite sum of real numbers is a real number. -/
theorem sum_isReal {ι : Type*} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_finset_sum]
  refine Finset.sum_congr rfl fun i hi => ?_
  obtain ⟨r, hr⟩ := hf i hi
  rw [hr, EReal.toReal_coe]

/-- A real factor distributes over a finite sum of real numbers. -/
theorem coe_mul_sum {ι : Type*} (S : Finset ι) (a : ℝ) (f : ι → EReal)
    (hf : ∀ i ∈ S, ∃ r : ℝ, f i = (r : EReal)) :
    (a : EReal) * ∑ i ∈ S, f i = ∑ i ∈ S, (a : EReal) * f i := by
  have e1 : ∑ i ∈ S, f i = ((∑ i ∈ S, (f i).toReal : ℝ) : EReal) := by
    rw [coe_finset_sum]
    refine Finset.sum_congr rfl fun i hi => ?_
    obtain ⟨r, hr⟩ := hf i hi
    rw [hr, EReal.toReal_coe]
  have e2 : ∑ i ∈ S, (a : EReal) * f i = ((∑ i ∈ S, a * (f i).toReal : ℝ) : EReal) := by
    rw [coe_finset_sum]
    refine Finset.sum_congr rfl fun i hi => ?_
    obtain ⟨r, hr⟩ := hf i hi
    rw [hr, EReal.toReal_coe, EReal.coe_mul]
  rw [e1, e2, ← EReal.coe_mul, Finset.mul_sum]

/-! ### The maximum of the first n tiles -/

variable {B : ℕ}

/-- Every score of a tile before n is at most the maximum M n. -/
theorem le_M (s : ℕ → Fin B → EReal) {n t : ℕ} (ht : t < n) (u : Fin B) : s t u ≤ M s n :=
  le_trans (Finset.le_sup (f := s t) (Finset.mem_univ u))
    (Finset.le_sup (f := fun t => Finset.univ.sup (s t)) (Finset.mem_range.mpr ht))

/-- The maximum grows with the number of tiles. -/
theorem M_le_succ (s : ℕ → Fin B → EReal) (n : ℕ) : M s n ≤ M s (n + 1) := by
  rw [M_succ]; exact le_max_left _ _

/-- When no score of the first n tiles is +∞, their maximum M n is not +∞. -/
theorem M_ne_top {s : ℕ → Fin B → EReal} {n : ℕ} (hs : ∀ t < n, ∀ u, s t u ≠ ⊤) : M s n ≠ ⊤ := by
  rw [M_def]
  exact ne_of_lt ((Finset.sup_lt_iff bot_lt_top).mpr fun t ht =>
    (Finset.sup_lt_iff bot_lt_top).mpr fun u _ => lt_top_iff_ne_top.mpr (hs t (Finset.mem_range.mp ht) u))

/-! ### Moving the reference point of the two sums -/

/-- Moving the reference point of the denominator from m to m' multiplies it by exp (m − m'), when every score is ≤ m
    and m ≤ m' < +∞. -/
theorem rescale_den_masked {s : ℕ → Fin B → EReal} {n : ℕ} {m m' : EReal}
    (hs : ∀ t < n, ∀ u, s t u ≤ m) (hm : m ≤ m') (hm' : m' ≠ ⊤) :
    Ideal.exp (m - m') * ∑ t ∈ Finset.range n, ∑ u, Ideal.exp (s t u - m)
      = ∑ t ∈ Finset.range n, ∑ u, Ideal.exp (s t u - m') := by
  have hmt : m ≠ ⊤ := fun h => hm' (top_le_iff.mp (h ▸ hm))
  obtain ⟨a, -, ha⟩ := exp_sub_isReal hm hm'
  have hterm : ∀ t < n, ∀ u, ∃ r : ℝ, Ideal.exp (s t u - m) = (r : EReal) := fun t ht u => by
    obtain ⟨r, -, hr⟩ := exp_sub_isReal (hs t ht u) hmt
    exact ⟨r, hr⟩
  rw [ha, coe_mul_sum _ a _ fun t ht => sum_isReal _ _ fun u _ => hterm t (Finset.mem_range.mp ht) u]
  refine Finset.sum_congr rfl fun t ht => ?_
  rw [coe_mul_sum _ a _ fun u _ => hterm t (Finset.mem_range.mp ht) u]
  refine Finset.sum_congr rfl fun u _ => ?_
  rw [← ha]
  exact exp_rescale (hs t (Finset.mem_range.mp ht) u) hm hm'

/-- Moving the reference point of the numerator from m to m' multiplies it by exp (m − m'), when every score is ≤ m,
    every value is a real number and m ≤ m' < +∞. -/
theorem rescale_num_masked {s v : ℕ → Fin B → EReal} {n : ℕ} {m m' : EReal}
    (hs : ∀ t < n, ∀ u, s t u ≤ m) (hv : ∀ t < n, ∀ u, ∃ r : ℝ, v t u = (r : EReal)) (hm : m ≤ m') (hm' : m' ≠ ⊤) :
    Ideal.exp (m - m') * ∑ t ∈ Finset.range n, ∑ u, Ideal.exp (s t u - m) * v t u
      = ∑ t ∈ Finset.range n, ∑ u, Ideal.exp (s t u - m') * v t u := by
  have hmt : m ≠ ⊤ := fun h => hm' (top_le_iff.mp (h ▸ hm))
  obtain ⟨a, -, ha⟩ := exp_sub_isReal hm hm'
  have hterm : ∀ t < n, ∀ u, ∃ r : ℝ, Ideal.exp (s t u - m) * v t u = (r : EReal) := fun t ht u => by
    obtain ⟨r, -, hr⟩ := exp_sub_isReal (hs t ht u) hmt
    obtain ⟨q, hq⟩ := hv t ht u
    exact ⟨r * q, by rw [hr, hq, EReal.coe_mul]⟩
  rw [ha, coe_mul_sum _ a _ fun t ht => sum_isReal _ _ fun u _ => hterm t (Finset.mem_range.mp ht) u]
  refine Finset.sum_congr rfl fun t ht => ?_
  rw [coe_mul_sum _ a _ fun u _ => hterm t (Finset.mem_range.mp ht) u]
  refine Finset.sum_congr rfl fun u _ => ?_
  rw [← ha, ← mul_assoc, exp_rescale (hs t (Finset.mem_range.mp ht) u) hm hm']

/-! ### The state after n tiles -/

/-- After n tiles whose scores are real numbers or −∞ and whose values are real numbers, the running maximum is M n and
    the two running sums are the sums over all n tiles taken against M n. (While M n = −∞ all three are −∞, 0, 0.) -/
theorem state_eq_masked {B : ℕ} {s v : ℕ → Fin B → EReal} :
    ∀ n : ℕ, (∀ t < n, ∀ u, s t u ≠ ⊤) → (∀ t < n, ∀ u, ∃ r : ℝ, v t u = (r : EReal)) →
      state s v n = ⟨M s n, ∑ t ∈ Finset.range n, ∑ u, Ideal.exp (s t u - M s n),
                     ∑ t ∈ Finset.range n, ∑ u, Ideal.exp (s t u - M s n) * v t u⟩ := by
  intro n
  induction n with
  | zero => intro _ _; simp
  | succ n ih =>
    intro hs hv
    have hs' : ∀ t < n, ∀ u, s t u ≠ ⊤ := fun t ht => hs t (by omega)
    have hv' : ∀ t < n, ∀ u, ∃ r : ℝ, v t u = (r : EReal) := fun t ht => hv t (by omega)
    have hle : ∀ t < n, ∀ u, s t u ≤ M s n := fun t ht u => le_M s ht u
    rw [state_succ, ih hs' hv']
    dsimp only
    rw [← M_succ, Finset.sum_range_succ, Finset.sum_range_succ,
      rescale_den_masked hle (M_le_succ s n) (M_ne_top hs),
      rescale_num_masked hle hv' (M_le_succ s n) (M_ne_top hs)]

/-! ### The whole row -/

/-- The maximum of a row over a finite index type, none of whose entries is +∞ and one of whose entries is not −∞,
    is a real number. -/
theorem sup_isReal_masked {ι : Type*} [Fintype ι] (f : ι → EReal) (hf : ∀ j, f j ≠ ⊤) (hex : ∃ j, f j ≠ ⊥) :
    ∃ m : ℝ, Finset.univ.sup f = (m : EReal) := by
  obtain ⟨j, hj⟩ := hex
  have h1 : Finset.univ.sup f ≠ ⊤ :=
    ne_of_lt ((Finset.sup_lt_iff bot_lt_top).mpr fun i _ => lt_top_iff_ne_top.mpr (hf i))
  have h2 : Finset.univ.sup f ≠ ⊥ := fun h =>
    hj (le_bot_iff.mp (h ▸ Finset.le_sup (f := f) (Finset.mem_univ j)))
  exact ⟨(Finset.univ.sup f).toReal, (EReal.coe_toReal h1 h2).symm⟩

/-- The denominator of the two-pass softmax of such a row, the sum of exp (f j − max f), is a positive real number:
    every term is a real number ≥ 0 and the term of an entry that is not −∞ is positive. -/
theorem softmax_den_pos_masked {ι : Type*} [Fintype ι] (f : ι → EReal) (hf : ∀ j, f j ≠ ⊤) (hex : ∃ j, f j ≠ ⊥) :
    ∃ r : ℝ, 0 < r ∧ ∑ j, Ideal.exp (f j - Finset.univ.sup f) = (r : EReal) := by
  obtain ⟨m, hm⟩ := sup_isReal_masked f hf hex
  have hle : ∀ j, f j ≤ (m : EReal) := fun j => hm ▸ Finset.le_sup (f := f) (Finset.mem_univ j)
  have hr : ∀ j, ∃ r : ℝ, 0 ≤ r ∧ Ideal.exp (f j - (m : EReal)) = (r : EReal) := fun j =>
    exp_sub_isReal (hle j) (EReal.coe_ne_top m)
  choose r hr0 hre using hr
  refine ⟨∑ j, r j, ?_, ?_⟩
  · obtain ⟨j, hj⟩ := hex
    refine Finset.sum_pos' (fun i _ => hr0 i) ⟨j, Finset.mem_univ j, ?_⟩
    obtain ⟨q, hqpos, hq⟩ := exp_sub_pos hj (hf j) m
    have hrq : r j = q := EReal.coe_eq_coe_iff.mp ((hre j).symm.trans hq)
    rw [hrq]; exact hqpos
  · rw [hm, coe_finset_sum]
    exact Finset.sum_congr rfl fun j _ => hre j

/-- The online softmax of a flat row with masked positions. When the tiles s, v read the rows f, g (position u of tile t
    is the entry u + B · t), no score f j is +∞, at least one score is not −∞ and the values g j are real numbers, after
    all T tiles the quotient numerator / denominator is the two-pass softmax of f against g: the sum over j of
    exp (f j − max f) / Σ_j' exp (f j' − max f) times g j. A position with f j = −∞ has weight 0 / Σ = 0. -/
theorem quot_eq_flat_masked {T B : ℕ} {s v : ℕ → Fin B → EReal} {f g : Fin (T * B) → EReal}
    (hf : ∀ j, f j ≠ ⊤) (hex : ∃ j, f j ≠ ⊥) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    Ideal.div (state s v T).a (state s v T).l
      = ∑ j, Ideal.div (Ideal.exp (f j - Finset.univ.sup f)) (∑ j', Ideal.exp (f j' - Finset.univ.sup f)) * g j := by
  have hsr : ∀ t < T, ∀ u, s t u ≠ ⊤ := fun t ht u => by rw [hs t ht u]; exact hf _
  have hvr : ∀ t < T, ∀ u, ∃ r : ℝ, v t u = (r : EReal) := fun t ht u => by rw [hv t ht u]; exact hg _
  have hD : ∑ t ∈ Finset.range T, ∑ u, Ideal.exp (s t u - Finset.univ.sup f)
      = ∑ j, Ideal.exp (f j - Finset.univ.sup f) :=
    sum_tiles _ _ fun t ht u => by rw [hs t ht u]
  have hN : ∑ t ∈ Finset.range T, ∑ u, Ideal.exp (s t u - Finset.univ.sup f) * v t u
      = ∑ j, Ideal.exp (f j - Finset.univ.sup f) * g j :=
    sum_tiles _ _ fun t ht u => by rw [hs t ht u, hv t ht u]
  obtain ⟨m, hm⟩ := sup_isReal_masked f hf hex
  obtain ⟨L, hLpos, hL⟩ := softmax_den_pos_masked f hf hex
  have hst := state_eq_masked T hsr hvr
  rw [M_flat hs, hD, hN] at hst
  rw [hst]
  dsimp only
  rw [hL]
  refine div_sum_univ (fun j => Ideal.exp (f j - Finset.univ.sup f)) g (fun j => ?_) hg hLpos.ne'
  obtain ⟨r, -, hr⟩ := exp_sub_isReal (Finset.le_sup (f := f) (Finset.mem_univ j)) (hm ▸ EReal.coe_ne_top m)
  exact ⟨r, hr⟩

/-! ### The maximum and the denominator do not read the values -/

/-- The running maximum and the running denominator are the same for any two families of values. -/
theorem state_ml_congr {B : ℕ} (s v v' : ℕ → Fin B → EReal) :
    ∀ n : ℕ, (state s v n).m = (state s v' n).m ∧ (state s v n).l = (state s v' n).l
  | 0 => ⟨rfl, rfl⟩
  | n + 1 => by
    obtain ⟨hm, hl⟩ := state_ml_congr s v v' n
    have hm' : (state s v (n + 1)).m = (state s v' (n + 1)).m := by
      rw [state_succ_m, state_succ_m, hm]
    refine ⟨hm', ?_⟩
    rw [state_succ_l, state_succ_l, hm', hm, hl]

end Cert.LibSoftmaxMasked

end
-- ==== Proof.LibMaskedSoftmax.lean ====
/-
  The softmax of a row in which only a run of lanes carries scores.

  Let r be a row of N extended reals and let only the n lanes lo ≤ j < lo + n carry scores, every other lane
  holding −∞ (the row `mrow lo n r` of the row-softmax file).  Then the softmax of that row, read at a live lane
  lo + c, is the softmax of the n live scores alone, read at c.  Three facts give it:

  * −∞ is the unit of max, so the maximum taken from −∞ over all N lanes is the maximum over the n live lanes;
  * −∞ − M = −∞ for every extended real M, and exp (−∞) = 0, so a dead lane adds 0 to the sum of exponentials;
  * the live lanes are the image of Fin n under the injection c ↦ lo + c, so the sum over the N lanes, the dead
    lanes contributing 0, is the sum over Fin n.
-/
import proofs.«137829_j2276332667508_2_alg».proof.Proof.LibRowSoftmax
import Mathlib.Data.Finset.Fold
import Mathlib.Algebra.BigOperators.Group.Finset.Basic
import Mathlib.Data.EReal.Operations

noncomputable section

namespace Cert.LibMaskedSoftmax

open Idealize.ShloMosaic Cert.LibRowSoftmax

/-- The lane lo + c of a row of N lanes, for c among the n live lanes. -/
def lane {N : ℕ} (lo n : ℕ) (hN : lo + n ≤ N) (c : Fin n) : Fin N := ⟨lo + c.val, by omega⟩

theorem lane_val {N : ℕ} (lo n : ℕ) (hN : lo + n ≤ N) (c : Fin n) : (lane lo n hN c).val = lo + c.val := rfl

/-- c ↦ lo + c is injective. -/
theorem lane_injective {N : ℕ} (lo n : ℕ) (hN : lo + n ≤ N) : Function.Injective (lane (N := N) lo n hN) := by
  intro a b h
  have h' : lo + a.val = lo + b.val := congrArg Fin.val h
  exact Fin.ext (by omega)

/-- A lane in the live run is lo + c for some c. -/
theorem exists_lane {N : ℕ} (lo n : ℕ) (hN : lo + n ≤ N) (j : Fin N) (hj : lo ≤ j.val ∧ j.val < lo + n) :
    ∃ c : Fin n, lane lo n hN c = j :=
  ⟨⟨j.val - lo, by omega⟩, Fin.ext (by show lo + (j.val - lo) = j.val; omega)⟩

/-- At a live lane the masked row holds the score. -/
theorem mrow_lane {N : ℕ} (lo n : ℕ) (hN : lo + n ≤ N) (r : Fin N → EReal) (c : Fin n) :
    mrow lo n r (lane lo n hN c) = r (lane lo n hN c) := by
  have h : lo ≤ (lane lo n hN c).val ∧ (lane lo n hN c).val < lo + n := by
    rw [lane_val]; exact ⟨by omega, by omega⟩
  simp only [mrow, if_pos h]

/-- Outside the live run the masked row holds −∞. -/
theorem mrow_dead {N : ℕ} (lo n : ℕ) (r : Fin N → EReal) (j : Fin N) (hj : ¬ (lo ≤ j.val ∧ j.val < lo + n)) :
    mrow lo n r j = ⊥ := by
  simp only [mrow, if_neg hj]

/-- The maximum from −∞ over all N lanes of the masked row is the maximum from −∞ over the n live scores:
    −∞ is the unit of max. -/
theorem fold_max_mrow {N : ℕ} (lo n : ℕ) (hN : lo + n ≤ N) (r : Fin N → EReal) :
    (Finset.univ : Finset (Fin N)).fold max ⊥ (mrow lo n r)
      = (Finset.univ : Finset (Fin n)).fold max ⊥ (fun c => r (lane lo n hN c)) := by
  apply le_antisymm
  · refine (Finset.fold_max_le _).2 ⟨bot_le, fun j _ => ?_⟩
    by_cases hj : lo ≤ j.val ∧ j.val < lo + n
    · obtain ⟨c, rfl⟩ := exists_lane lo n hN j hj
      rw [mrow_lane]
      exact (Finset.le_fold_max _).2 (Or.inr ⟨c, Finset.mem_univ c, le_rfl⟩)
    · rw [mrow_dead lo n r j hj]; exact bot_le
  · refine (Finset.fold_max_le _).2 ⟨bot_le, fun c _ => ?_⟩
    exact (Finset.le_fold_max _).2 (Or.inr ⟨lane lo n hN c, Finset.mem_univ _, le_of_eq (mrow_lane lo n hN r c).symm⟩)

/-- The two rows have the same maximum. -/
theorem rowMax_mrow {N : ℕ} (lo n : ℕ) (hN : lo + n ≤ N) (r : Fin N → EReal) :
    rowMax (mrow lo n r) = rowMax (fun c : Fin n => r (lane lo n hN c)) := by
  unfold rowMax
  rw [fold_max_mrow lo n hN r]

/-- A dead lane adds 0 to the sum of exponentials, whatever is subtracted: −∞ − M = −∞ and exp (−∞) = 0. -/
theorem exp_dead_sub (M : EReal) : Ideal.exp ((⊥ : EReal) - M) = 0 := by
  rw [sub_eq_add_neg, EReal.bot_add, Ideal.exp_bot]

/-- The sum of exponentials over the N lanes of the masked row is the sum over the n live scores. -/
theorem sum_exp_mrow {N : ℕ} (lo n : ℕ) (hN : lo + n ≤ N) (r : Fin N → EReal) (M : EReal) :
    ∑ k : Fin N, Ideal.exp (mrow lo n r k - M) = ∑ c : Fin n, Ideal.exp (r (lane lo n hN c) - M) := by
  symm
  refine Fintype.sum_of_injective (lane lo n hN) (lane_injective lo n hN) _ _ (fun j hj => ?_) (fun c => ?_)
  · have hdead : ¬ (lo ≤ j.val ∧ j.val < lo + n) := fun h => hj (by
      obtain ⟨c, hc⟩ := exists_lane lo n hN j h
      exact ⟨c, hc⟩)
    rw [mrow_dead lo n r j hdead, exp_dead_sub]
  · rw [mrow_lane]

/-- The softmax of the masked row at a live lane lo + c is the softmax of the live scores at c. -/
theorem rowSoft_mrow {N : ℕ} (lo n : ℕ) (hN : lo + n ≤ N) (r : Fin N → EReal) (c : Fin n) :
    rowSoft (mrow lo n r) ⟨lo + c.val, by omega⟩ = rowSoft (fun c' : Fin n => r ⟨lo + c'.val, by omega⟩) c := by
  show rowSoft (mrow lo n r) (lane lo n hN c) = rowSoft (fun c' : Fin n => r (lane lo n hN c')) c
  unfold rowSoft
  rw [rowMax_mrow lo n hN r, sum_exp_mrow lo n hN r, mrow_lane]

end Cert.LibMaskedSoftmax

end
-- ==== Proof.AttnMath.lean ====
/-
  The tile-by-tile softmax of a causally masked row of 2048 scores, read in tiles of 512, stopped after the last tile
  that holds a live score, is the two-pass softmax of the whole row.

  The row f has −∞ at every position from 512·T on (T of the four tiles carry scores), is never +∞ and is not −∞ at
  position 0; the values g are real numbers.  The online recurrence over the first T tiles computes the softmax of the
  first 512·T positions against the values; every later position has weight exp (−∞ − max) / Σ = 0, so the sum over all
  2048 positions is the same number.
-/
import proofs.«137829_j2276332667508_2_alg».proof.Proof.LibSoftmaxMasked
import proofs.«137829_j2276332667508_2_alg».proof.Proof.LibMaskedSoftmax

noncomputable section

namespace Cert.AttnMath

open Idealize.ShloMosaic Cert.LibOnlineSoftmax Cert.LibSoftmaxMasked Cert.LibRowSoftmax Cert.LibMaskedSoftmax
open scoped BigOperators

/-- The maximum taken twice from −∞ is the supremum. -/
theorem rowMax_eq_sup {n : ℕ} (r : Fin n → EReal) : rowMax r = Finset.univ.sup r := by
  unfold rowMax
  rw [max_eq_right bot_le]
  rfl

/-- The softmax weight with the sum taken from 0 is the plain quotient. -/
theorem rowSoft_eq {n : ℕ} (r : Fin n → EReal) (j : Fin n) :
    rowSoft r j = Ideal.div (Ideal.exp (r j - Finset.univ.sup r)) (∑ k : Fin n, Ideal.exp (r k - Finset.univ.sup r)) := by
  unfold rowSoft
  rw [rowMax_eq_sup, zero_add]

/-- The online softmax over the first T tiles of a row whose later positions are masked is the softmax of the whole row
    against the values. -/
theorem online_eq_rowSoft (T : ℕ) (hT : 1 ≤ T) (hT4 : T ≤ 4) (f g : Fin 2048 → EReal)
    (hmask : ∀ j : Fin 2048, 512 * T ≤ j.val → f j = ⊥) (hf : ∀ j, f j ≠ ⊤) (h0 : f ⟨0, by omega⟩ ≠ ⊥)
    (hg : ∀ j, ∃ r : ℝ, g j = (r : EReal))
    (s v : ℕ → Fin 512 → EReal)
    (hs : ∀ (t : ℕ) (ht : t < T) (u : Fin 512), s t u = f ⟨512 * t + u.val, by omega⟩)
    (hv : ∀ (t : ℕ) (ht : t < T) (u : Fin 512), v t u = g ⟨512 * t + u.val, by omega⟩) :
    Ideal.div (state s v T).a (state s v T).l = ∑ j : Fin 2048, rowSoft f j * g j := by
  have hN : 0 + T * 512 ≤ 2048 := by omega
  -- the live part of the row
  let f' : Fin (T * 512) → EReal := fun c => f ⟨c.val, by have := c.isLt; omega⟩
  let g' : Fin (T * 512) → EReal := fun c => g ⟨c.val, by have := c.isLt; omega⟩
  have hf' : ∀ j, f' j ≠ ⊤ := fun j => hf _
  have hex' : ∃ j, f' j ≠ ⊥ := ⟨⟨0, by omega⟩, h0⟩
  have hg' : ∀ j, ∃ r : ℝ, g' j = (r : EReal) := fun j => hg _
  have hs' : ∀ (t : ℕ) (ht : t < T) (u : Fin 512), s t u = f' (finProdFinEquiv (⟨t, ht⟩, u)) := fun t ht u => by
    rw [hs t ht u]; show f _ = f _; congr 1; apply Fin.ext; show 512 * t + u.val = u.val + 512 * t; omega
  have hv' : ∀ (t : ℕ) (ht : t < T) (u : Fin 512), v t u = g' (finProdFinEquiv (⟨t, ht⟩, u)) := fun t ht u => by
    rw [hv t ht u]; show g _ = g _; congr 1; apply Fin.ext; show 512 * t + u.val = u.val + 512 * t; omega
  rw [quot_eq_flat_masked hf' hex' hg' hs' hv']
  -- the whole row is its live part followed by −∞
  have hmrow : f = mrow 0 (T * 512) f := by
    funext j
    by_cases hj : 0 ≤ j.val ∧ j.val < 0 + T * 512
    · simp only [mrow, if_pos hj]
    · simp only [mrow, if_neg hj]; exact hmask j (by omega)
  obtain ⟨L, hLpos, hL⟩ := softmax_den_pos_masked f' hf' hex'
  symm
  refine (Fintype.sum_of_injective (lane (N := 2048) 0 (T * 512) hN) (lane_injective 0 (T * 512) hN)
    (fun c : Fin (T * 512) => Ideal.div (Ideal.exp (f' c - Finset.univ.sup f')) (∑ j', Ideal.exp (f' j' - Finset.univ.sup f')) * g' c)
    (fun j : Fin 2048 => rowSoft f j * g j) (fun j hj => ?_) (fun c => ?_)).symm
  · -- a masked position has weight zero
    have hdead : ¬ (0 ≤ j.val ∧ j.val < 0 + T * 512) := fun h => hj (by
      obtain ⟨c, hc⟩ := exists_lane 0 (T * 512) hN j h
      exact ⟨c, hc⟩)
    have hfj : f j = ⊥ := hmask j (by omega)
    have hden : (0 + ∑ k : Fin 2048, Ideal.exp (f k - rowMax f)) = (L : EReal) := by
      rw [zero_add, hmrow, rowMax_mrow 0 (T * 512) hN f, sum_exp_mrow 0 (T * 512) hN f, rowMax_eq_sup]
      rw [← hL]
      refine Finset.sum_congr rfl fun c _ => ?_
      show Ideal.exp (f (lane 0 (T * 512) hN c) - _) = Ideal.exp (f' c - _)
      have e : (fun c : Fin (T * 512) => f (lane 0 (T * 512) hN c)) = f' := by
        funext c'; show f _ = f _; congr 1; apply Fin.ext; show 0 + c'.val = c'.val; omega
      rw [e]
      congr 2
      show f _ = f _; congr 1; apply Fin.ext; show 0 + c.val = c.val; omega
    unfold rowSoft
    rw [hden, hfj, exp_dead_sub]
    have hL0 : ((L : ℝ) : EReal) ≠ 0 := by exact_mod_cast hLpos.ne'
    unfold Ideal.div
    rw [if_neg hL0, zero_mul, zero_mul]
  · -- a live position keeps its weight
    have e : (fun c' : Fin (T * 512) => f ⟨0 + c'.val, by have := c'.isLt; omega⟩) = f' := by
      funext c'; show f _ = f _; congr 1; apply Fin.ext; show 0 + c'.val = c'.val; omega
    have hw : rowSoft f (lane 0 (T * 512) hN c) = rowSoft f' c := by
      conv_lhs => rw [hmrow]
      have := rowSoft_mrow 0 (T * 512) hN f c
      rw [e] at this
      exact this
    show _ = rowSoft f (lane 0 (T * 512) hN c) * g (lane 0 (T * 512) hN c)
    rw [hw, rowSoft_eq]
    congr 1
    show g _ = g _; congr 1; apply Fin.ext; show c.val = 0 + c.val; omega

end Cert.AttnMath

end
-- ==== Proof.KI.AttnValueB.lean ====
/-
  What the tiled attention leaves in its output array: the attention context of the three arrays it reads.

  The output block of batch b, query tile qi and head h is written back once, after the last key tile; it holds the
  quotient of the running weighted values by the running sum, which by then are those of the recurrence after qi + 1
  tiles of each query row's scores — the softmax of the whole causally masked row against the value rows.  The 1024
  blocks written back tile the array.
-/
import proofs.«137829_j2276332667508_2_alg».proof.Proof.KI.AttnValueA
import proofs.«137829_j2276332667508_2_alg».proof.Proof.AttnMath
import Idealize.ShloMosaic.Lib.Pipeline.Value

set_option maxRecDepth 16384

noncomputable section

namespace Cert.KernelIdeal.Hand

open Idealize.ShloMosaic Idealize.ShloMosaic.TcCoe Idealize.ShloMosaic.ValueIdx Cert.KernelIdeal Cert.KernelIdeal.Gen Cert.LibOnlineSoftmax
open Idealize.SL Idealize.SL.Sem
open Idealize.ShloMosaic.Pipeline (Dat Cfg Window)
open scoped BigOperators

variable (V : (c : Dev nD) → (b : Ref sig .tc) → Buf (Elt Ideal) ((c : Thread nD τ).loc b))

/-- The three arrays the region reads, as functions of batch, row and feature. -/
abbrev Qs (c : Dev nD) : Cert.Spec.Seq := Cert.Spec.seqOf (V c main_v10 : S4x2048x2048.Idx → EReal)
abbrev Ks (c : Dev nD) : Cert.Spec.Seq := Cert.Spec.seqOf (V c main_v11 : S4x2048x2048.Idx → EReal)
abbrev Vs (c : Dev nD) : Cert.Spec.Seq := Cert.Spec.seqOf (V c main_v12 : S4x2048x2048.Idx → EReal)

/-- The attention context as one array. -/
def G3 (c : Dev nD) : S4x2048x2048.Idx → EReal := fun idx =>
  Cert.Spec.ctx (Qs V c) (Ks V c) (Vs V c) (idx 0) (idx 1) (idx 2)

/-- A finite sum of products of real numbers is a real number. -/
theorem sum_mul_isReal {ι : Type*} [Fintype ι] (a b : ι → EReal) (ha : ∀ i, ∃ x : ℝ, a i = (x : EReal)) (hb : ∀ i, ∃ x : ℝ, b i = (x : EReal)) :
    ∃ x : ℝ, ∑ i, a i * b i = (x : EReal) := by
  choose fa hfa using ha
  choose fb hfb using hb
  refine ⟨∑ i, fa i * fb i, ?_⟩
  rw [coe_finset_sum]
  exact Finset.sum_congr rfl fun i _ => by rw [hfa, hfb, EReal.coe_mul]

/-- The natural-number scores are the specification's. -/
theorem scoreN_eq (c : Dev nD) (b h i j : ℕ) (hb : b < 4) (hh : h < 16) (hi : i < 2048) (hj : j < 2048) :
    scoreN V c b h i j = Cert.Spec.scoreRow (Qs V c) (Ks V c) ⟨b, hb⟩ ⟨h, hh⟩ ⟨i, hi⟩ ⟨j, hj⟩ := by
  unfold scoreN Cert.Spec.scoreRow
  refine if_congr Iff.rfl rfl ?_
  congr 1
  refine Finset.sum_congr rfl fun e _ => ?_
  have he := e.isLt
  unfold Qn Kn
  rw [dif_pos ⟨hb, hi, by omega⟩, dif_pos ⟨hb, hj, by omega⟩]
  rfl

section Real

variable (c : Dev nD)
  (hQ : ∀ idx, ∃ x : ℝ, (V c main_v10 : S4x2048x2048.Idx → EReal) idx = (x : EReal))
  (hK : ∀ idx, ∃ x : ℝ, (V c main_v11 : S4x2048x2048.Idx → EReal) idx = (x : EReal))
  (hV : ∀ idx, ∃ x : ℝ, (V c main_v12 : S4x2048x2048.Idx → EReal) idx = (x : EReal))

include hQ hK in
/-- A score is −∞ or a real number. -/
theorem scoreRow_cases (b : Fin 4) (h : Fin 16) (i j : Fin 2048) :
    (i.val < j.val ∧ Cert.Spec.scoreRow (Qs V c) (Ks V c) b h i j = ⊥)
      ∨ (¬ i.val < j.val ∧ ∃ x : ℝ, Cert.Spec.scoreRow (Qs V c) (Ks V c) b h i j = (x : EReal)) := by
  unfold Cert.Spec.scoreRow
  by_cases hlt : i.val < j.val
  · exact Or.inl ⟨hlt, if_pos hlt⟩
  · refine Or.inr ⟨hlt, ?_⟩
    rw [if_neg hlt]
    obtain ⟨x, hx⟩ := sum_mul_isReal (fun e : Fin 128 => Qs V c b i (Cert.Spec.lane h e)) (fun e => Ks V c b j (Cert.Spec.lane h e))
      (fun e => hQ _) (fun e => hK _)
    exact ⟨x * (1048576 / 11863283 : ℝ), by rw [hx]; unfold Cert.Spec.scale; rw [EReal.coe_mul]⟩

include hQ hK hV in
/-- THE OUTPUT TILE at the last key tile: the attention context, row by row and lane by lane. -/
theorem out_point (t : Fin cfg3.N) (h3 : t.val % 4 = 3) (r : Fin 512) (e : Fin 128)
    (hb : t.val / 256 < 4) (hi : 512 * (t.val / 4 % 4) + r.val < 2048) (ho : 128 * (t.val / 16 % 16) + e.val < 2048) :
    out3 (F := Ideal) (st3 V c t.val t.isLt) (ix3 0 r e)
      = Cert.Spec.ctx (Qs V c) (Ks V c) (Vs V c) ⟨t.val / 256, hb⟩ ⟨512 * (t.val / 4 % 4) + r.val, hi⟩ ⟨128 * (t.val / 16 % 16) + e.val, ho⟩ := by
  have ht := lt_N3 t
  have hh : t.val / 16 % 16 < 16 := by omega
  rw [out3_apply]
  obtain ⟨-, hl, ha⟩ := st3_inv V c t.val t.isLt r e
  rw [ha, hl, show min (t.val % 4) (t.val / 4 % 4) + 1 = t.val / 4 % 4 + 1 from by omega]
  have hhead : Cert.Spec.headOf ⟨128 * (t.val / 16 % 16) + e.val, ho⟩ = ⟨t.val / 16 % 16, hh⟩ := by
    apply Fin.ext; show (128 * (t.val / 16 % 16) + e.val) / 128 = t.val / 16 % 16
    have := e.isLt; omega
  unfold Cert.Spec.ctx
  rw [hhead]
  refine Cert.AttnMath.online_eq_rowSoft (t.val / 4 % 4 + 1) (by omega) (by omega)
    (Cert.Spec.scoreRow (Qs V c) (Ks V c) ⟨t.val / 256, hb⟩ ⟨t.val / 16 % 16, hh⟩ ⟨512 * (t.val / 4 % 4) + r.val, hi⟩)
    (fun j => Vs V c ⟨t.val / 256, hb⟩ j ⟨128 * (t.val / 16 % 16) + e.val, ho⟩)
    (fun j hj => ?_) (fun j => ?_) ?_ (fun j => hV _) _ _ (fun n hn u => ?_) (fun n hn u => ?_)
  · -- beyond the query tile every key position is masked
    have := r.isLt
    exact if_pos (by show 512 * (t.val / 4 % 4) + r.val < j.val; omega)
  · rcases scoreRow_cases V c hQ hK ⟨t.val / 256, hb⟩ ⟨t.val / 16 % 16, hh⟩ ⟨512 * (t.val / 4 % 4) + r.val, hi⟩ j with ⟨-, h⟩ | ⟨-, x, h⟩
    · rw [h]; exact bot_ne_top
    · rw [h]; exact EReal.coe_ne_top x
  · rcases scoreRow_cases V c hQ hK ⟨t.val / 256, hb⟩ ⟨t.val / 16 % 16, hh⟩ ⟨512 * (t.val / 4 % 4) + r.val, hi⟩ ⟨0, by omega⟩ with ⟨hlt, -⟩ | ⟨-, x, h⟩
    · exact absurd hlt (Nat.not_lt_zero _)
    · rw [h]; exact EReal.coe_ne_bot x
  · have := u.isLt
    exact scoreN_eq V c _ _ _ _ hb hh hi (by omega)
  · have := u.isLt
    show Vn V c (t.val / 256) (512 * n + u.val) (128 * (t.val / 16 % 16) + e.val) = _
    unfold Vn
    rw [dif_pos ⟨hb, by omega, ho⟩]
    rfl

include hQ hK hV in
/-- What the write-back at a point of the last key tile writes is that point's block of the context. -/
theorem flushed3_eq (t : Fin cfg3.N) (hf : (cfg3.win 3).flush t = true) :
    (dat3 (F := Ideal) V c).flushed 3 t = ((cfg3.win 3).blk t).view.read (Elt Ideal) (G3 V c) := by
  have h3 : t.val % 4 = 3 := (flush3_3 t).mp hf
  have ht := lt_N3 t
  obtain ⟨-, -, -, -, -, -, -, -, -, e0, e1, e2, -⟩ := idx_facts3 t
  show (cfg3.win 3).cut (grid3.coords t) ((dat3 (F := Ideal) V c).after 3 t) = _
  rw [show (dat3 (F := Ideal) V c).after 3 t = out3 (st3 V c t.val t.isLt) from by dsimp only [dat3]]
  refine funext fun (j : S1x512x128.Idx) => ?_
  have hj0 : @Eq (Fin 1) (j 0) (0 : Fin 1) := Subsingleton.elim (α := Fin 1) _ _
  obtain ⟨r, e, rfl⟩ : ∃ (r : Fin 512) (e : Fin 128), j = ix3 (0 : Fin 1) r e :=
    ⟨j 1, j 2, (eq_ix3 j).trans (congrArg (fun z : Fin 1 => ix3 z (j 1) (j 2)) hj0)⟩
  have hr := r.isLt
  have he := e.isLt
  show out3 (F := Ideal) (st3 V c t.val t.isLt) (ix3 0 r e) = G3 V c (((cfg3.win 3).blk t).view.emb (ix3 0 r e))
  rw [out_point V c hQ hK hV t h3 r e (by omega) (by omega) (by omega)]
  unfold G3
  congr 1
  · apply Fin.ext; show t.val / 256 = win3_3.index t (0 : Fin 3) * 1 + 1 * 0; omega
  · apply Fin.ext; show 512 * (t.val / 4 % 4) + r.val = win3_3.index t (1 : Fin 3) * 512 + 1 * r.val; omega
  · apply Fin.ext; show 128 * (t.val / 16 % 16) + e.val = win3_3.index t (2 : Fin 3) * 128 + 1 * e.val; omega

end Real

/-- An index of the array is in point t's block iff each coordinate is in the block's range on its axis. -/
theorem mem_blk3 (t : Fin cfg3.N) (i : S4x2048x2048.Idx) :
    i ∈ ((cfg3.win 3).blk t).view.set ↔ ∀ a : Fin 3, win3_3.index t a * S1x512x128.size a ≤ (i a).val ∧ (i a).val < win3_3.index t a * S1x512x128.size a + S1x512x128.size a := by
  show i ∈ ((View.whole main_v13).slice (win3_3.rect t)).set ↔ _
  rw [View.set_slice_whole, Rect.mem_set_unit]
  exact Iff.rfl

/-- The blocks written back tile the array. -/
theorem cover3 (i : S4x2048x2048.Idx) : ∃ t : Fin cfg3.N, (cfg3.win 3).flush t = true ∧ i ∈ ((cfg3.win 3).blk t).view.set := by
  have hi0 : (i 0).val < 4 := (i 0).isLt
  have hi1 : (i 1).val < 2048 := (i 1).isLt
  have hi2 : (i 2).val < 2048 := (i 2).isLt
  obtain ⟨T, hT⟩ : ∃ T : ℕ, T = (((i 0).val * 16 + (i 2).val / 128) * 4 + (i 1).val / 512) * 4 + 3 := ⟨_, rfl⟩
  have hN : T < cfg3.N := by rw [show cfg3.N = 1024 from N_3]; omega
  have hfl : (cfg3.win 3).flush ⟨T, hN⟩ = true := (flush3_3 ⟨T, hN⟩).mpr (by show T % 4 = 3; omega)
  obtain ⟨-, -, -, -, -, -, -, -, -, e0, e1, e2, -⟩ := idx_facts3 ⟨T, hN⟩
  have e0' : win3_3.index ⟨T, hN⟩ (0 : Fin 3) = T / 256 := e0
  have e1' : win3_3.index ⟨T, hN⟩ (1 : Fin 3) = T / 4 % 4 := e1
  have e2' : win3_3.index ⟨T, hN⟩ (2 : Fin 3) = T / 16 % 16 := e2
  refine ⟨⟨T, hN⟩, hfl, ?_⟩
  rw [mem_blk3]
  intro a
  match a with
  | ⟨0, _⟩ =>
    show win3_3.index ⟨T, hN⟩ (0 : Fin 3) * 1 ≤ (i 0).val ∧ (i 0).val < win3_3.index ⟨T, hN⟩ (0 : Fin 3) * 1 + 1
    rw [e0']; omega
  | ⟨1, _⟩ =>
    show win3_3.index ⟨T, hN⟩ (1 : Fin 3) * 512 ≤ (i 1).val ∧ (i 1).val < win3_3.index ⟨T, hN⟩ (1 : Fin 3) * 512 + 512
    rw [e1']; omega
  | ⟨2, _⟩ =>
    show win3_3.index ⟨T, hN⟩ (2 : Fin 3) * 128 ≤ (i 2).val ∧ (i 2).val < win3_3.index ⟨T, hN⟩ (2 : Fin 3) * 128 + 128
    rw [e2']; omega

/-- THE OUTPUT ARRAY after the region: the attention context of the three arrays read, when those hold real numbers. -/
theorem attn_value (c : Dev nD)
    (hQ : ∀ idx, ∃ x : ℝ, (V c main_v10 : S4x2048x2048.Idx → EReal) idx = (x : EReal))
    (hK : ∀ idx, ∃ x : ℝ, (V c main_v11 : S4x2048x2048.Idx → EReal) idx = (x : EReal))
    (hV : ∀ idx, ∃ x : ℝ, (V c main_v12 : S4x2048x2048.Idx → EReal) idx = (x : EReal)) :
    (dat3 (F := Ideal) V c).arrAt 3 cfg3.N = G3 V c :=
  (dat3 (F := Ideal) V c).arrAt_eq_of_cover 3 (G3 V c) (fun t hf => flushed3_eq V c hQ hK hV t hf) (cover3)

end Cert.KernelIdeal.Hand

end
-- ==== Proof.KI.Compose.lean ====
/-
  The kernel program's result is the specification.

  The buffer contents at the ten boundaries of the entry function are a fold from the launch memory; here the fold is
  read, one boundary at a time, at the buffers that carry the computation.  The first host stretch lays the
  activations out as 8192 rows and re-types the arguments (on the extended reals a change of float format is the
  identity).  Regions 0, 1, 2 multiply the rows by the three transposed weight matrices: the query, key and value
  layers.  A stretch of reshapes reads each as 4 sequences of 2048 rows.  Region 3 leaves the attention context of
  the three layers; it wants them real, and a finite sum of products of real numbers is a real number.  A reshape
  makes rows of it again, region 4 multiplies them by the transposed output weights and adds the bias, and the last
  reshape gives the result its 4 × 2048 × 2048 shape.  A buffer no region stages and no stretch writes holds what it
  held a boundary earlier; an input of a region holds at its exit what it held at its entry.
-/
import proofs.«137829_j2276332667508_2_alg».proof.Proof.KI.RunFold
import proofs.«137829_j2276332667508_2_alg».proof.Proof.KI.ProjBody
import proofs.«137829_j2276332667508_2_alg».proof.Proof.SpecRead
import proofs.«137829_j2276332667508_2_alg».proof.Proof.LibMergeRows
import proofs.«137829_j2276332667508_2_alg».proof.Proof.LibRealOps
import proofs.«137829_j2276332667508_2_alg».proof.Proof.KI.ProjValue
import proofs.«137829_j2276332667508_2_alg».proof.Proof.KI.AttnValueB
set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Gen
open scoped BigOperators

variable (m : (ℓ : Loc nD τ sig) → Buf (Elt Ideal) ℓ) (ρ : Dev nD → PrngReg)

/-! ## Reading a vector as a one-row matrix -/

/-- A vector of n entries re-cast as a 1 × n matrix, at (0, o), reads the vector at o. -/
theorem shapeCast_row_apply {α : Type} {n : ℕ} (x : (⟨1, ![n]⟩ : Shape).Idx → α)
    (h : (⟨1, ![n]⟩ : Shape).ShapeCasts ⟨2, ![1, n]⟩) (o : Fin n) :
    shapeCast ⟨2, ![1, n]⟩ x h (ix2 0 o) = x (ix1 o) :=
  shapeCast_apply x h _ _ (by
    rw [Shape.rowMajor_val_one, Shape.rowMajor_val_two]
    show o.val = 0 * n + o.val
    omega)

/-! ## After the first host stretch: the arguments re-laid and re-typed -/

/-- The activations as rows: row 2048·b + t of the first stretch's result is row (b, t) of the argument. -/
theorem W1_v1 (c : Dev nD) (b : Fin 4) (t : Fin 2048) (d : Fin 2048) :
    (W1 m ρ c (Proc.devRef .tc main_v1) : S8192x2048.Idx → EReal) (ix2 ⟨2048 * b.val + t.val, by omega⟩ d)
      = (m ((c : Thread nD τ).loc main_arg0) : S4x2048x2048.Idx → EReal) (ix3 b t d) := by
  have e : @Eq (S8192x2048.Idx → EReal) (W1 m ρ c (Proc.devRef .tc main_v1))
      (truncf (F := Ideal) .bf16 (shapeCast S8192x2048 (m ((c : Thread nD τ).loc main_arg0) : S4x2048x2048.Idx → EReal) shapeCasts_S4x2048x2048_S8192x2048) bitsLt_bf16_f32) := by
    dsimp only [W1]; after_results; rfl
  rw [e, truncf_apply]
  exact Cert.LibMergeRows.shapeCast_merge_apply _ _ b t d _ (by show 2048 * b.val + t.val = b.val * 2048 + t.val; omega)

/-- A weight matrix is its argument. -/
theorem W1_v2 (c : Dev nD) : @Eq (S2048x2048.Idx → EReal) (W1 m ρ c (Proc.devRef .tc main_v2))
      (m ((c : Thread nD τ).loc main_arg1)) := by
  have e : @Eq (S2048x2048.Idx → EReal) (W1 m ρ c (Proc.devRef .tc main_v2))
      (truncf (F := Ideal) .bf16 (m ((c : Thread nD τ).loc main_arg1) : S2048x2048.Idx → EReal) bitsLt_bf16_f32) := by
    dsimp only [W1]; after_results
  rw [e]; funext i; exact truncf_apply _ _ i

/-- A weight matrix is its argument. -/
theorem W1_v3 (c : Dev nD) : @Eq (S2048x2048.Idx → EReal) (W1 m ρ c (Proc.devRef .tc main_v3))
      (m ((c : Thread nD τ).loc main_arg2)) := by
  have e : @Eq (S2048x2048.Idx → EReal) (W1 m ρ c (Proc.devRef .tc main_v3))
      (truncf (F := Ideal) .bf16 (m ((c : Thread nD τ).loc main_arg2) : S2048x2048.Idx → EReal) bitsLt_bf16_f32) := by
    dsimp only [W1]; after_results
  rw [e]; funext i; exact truncf_apply _ _ i

/-- A weight matrix is its argument. -/
theorem W1_v4 (c : Dev nD) : @Eq (S2048x2048.Idx → EReal) (W1 m ρ c (Proc.devRef .tc main_v4))
      (m ((c : Thread nD τ).loc main_arg3)) := by
  have e : @Eq (S2048x2048.Idx → EReal) (W1 m ρ c (Proc.devRef .tc main_v4))
      (truncf (F := Ideal) .bf16 (m ((c : Thread nD τ).loc main_arg3) : S2048x2048.Idx → EReal) bitsLt_bf16_f32) := by
    dsimp only [W1]; after_results
  rw [e]; funext i; exact truncf_apply _ _ i

/-- A weight matrix is its argument. -/
theorem W1_v5 (c : Dev nD) : @Eq (S2048x2048.Idx → EReal) (W1 m ρ c (Proc.devRef .tc main_v5))
      (m ((c : Thread nD τ).loc main_arg4)) := by
  have e : @Eq (S2048x2048.Idx → EReal) (W1 m ρ c (Proc.devRef .tc main_v5))
      (truncf (F := Ideal) .bf16 (m ((c : Thread nD τ).loc main_arg4) : S2048x2048.Idx → EReal) bitsLt_bf16_f32) := by
    dsimp only [W1]; after_results
  rw [e]; funext i; exact truncf_apply _ _ i

/-- The bias as a one-row matrix: entry (0, o) is entry o of the argument. -/
theorem W1_v6 (c : Dev nD) (o : Fin 2048) :
    (W1 m ρ c (Proc.devRef .tc main_v6) : S1x2048.Idx → EReal) (ix2 0 o) = (m ((c : Thread nD τ).loc main_arg5) : S2048.Idx → EReal) (ix1 o) := by
  have e : @Eq (S1x2048.Idx → EReal) (W1 m ρ c (Proc.devRef .tc main_v6))
      (shapeCast S1x2048 (m ((c : Thread nD τ).loc main_arg5) : S2048.Idx → EReal) shapeCasts_S2048_S1x2048) := by
    dsimp only [W1]; after_results; rfl
  rw [e]
  exact shapeCast_row_apply _ _ o

/-! ## The three projections -/

/-- The activations' rows pass through region 0, an input of it, unchanged, -/
theorem W2_v1 (c : Dev nD) : W2 m ρ c (Proc.devRef .tc main_v1) = W1 m ρ c (Proc.devRef .tc main_v1) :=
  (W2_arr m ρ c 0).trans (((dat0 (V1 m ρ) c).arrAt_in 0 rfl _).trans (A_eq0 (V1 m ρ) c 0))
/-- and through region 1. -/
theorem W3_v1 (c : Dev nD) : W3 m ρ c (Proc.devRef .tc main_v1) = W1 m ρ c (Proc.devRef .tc main_v1) :=
  ((W3_arr m ρ c 0).trans (((dat1 (V2 m ρ) c).arrAt_in 0 rfl _).trans (A_eq1 (V2 m ρ) c 0))).trans (W2_v1 m ρ c)

/-- The rows of the activations, as the first stretch left them, are the argument's. -/
theorem rows_v1 (c : Dev nD) : Cert.Spec.rowsOf (W1 m ρ c (Proc.devRef .tc main_v1)) = Cert.Spec.seqOf (m ((c : Thread nD τ).loc main_arg0)) := by
  funext b t d; exact W1_v1 m ρ c b t d

/-- The product of the rows with a transposed weight matrix, read by batch and row, is the linear layer. -/
theorem rowsOf_prodT (a : S8192x2048.Idx → EReal) (w : S2048x2048.Idx → EReal) :
    Cert.Spec.rowsOf (ProjValue.prodT a w) = Cert.Spec.proj (Cert.Spec.rowsOf a) (Cert.Spec.matOf w) := rfl

/-- Region 0 leaves the query layer. -/
theorem rows_v7 (c : Dev nD) : Cert.Spec.rowsOf (W2 m ρ c (Proc.devRef .tc main_v7))
    = Cert.Spec.proj (Cert.Spec.seqOf (m ((c : Thread nD τ).loc main_arg0))) (Cert.Spec.matOf (m ((c : Thread nD τ).loc main_arg1))) := by
  rw [← rows_v1 m ρ c, ← W1_v2 m ρ c]
  exact (congrArg Cert.Spec.rowsOf ((W2_arr m ρ c 2).trans (ProjValue.array0 (V1 m ρ) c))).trans (rowsOf_prodT _ _)

/-- Region 1 leaves the key layer. -/
theorem rows_v8 (c : Dev nD) : Cert.Spec.rowsOf (W3 m ρ c (Proc.devRef .tc main_v8))
    = Cert.Spec.proj (Cert.Spec.seqOf (m ((c : Thread nD τ).loc main_arg0))) (Cert.Spec.matOf (m ((c : Thread nD τ).loc main_arg2))) := by
  rw [← rows_v1 m ρ c, ← W1_v3 m ρ c, ← W2_v1 m ρ c, ← W2_of_ne m ρ c main_v3 (by decide)]
  exact (congrArg Cert.Spec.rowsOf ((W3_arr m ρ c 2).trans (ProjValue.array1 (V2 m ρ) c))).trans (rowsOf_prodT _ _)

/-- Region 2 leaves the value layer. -/
theorem rows_v9 (c : Dev nD) : Cert.Spec.rowsOf (W4 m ρ c (Proc.devRef .tc main_v9))
    = Cert.Spec.proj (Cert.Spec.seqOf (m ((c : Thread nD τ).loc main_arg0))) (Cert.Spec.matOf (m ((c : Thread nD τ).loc main_arg3))) := by
  rw [← rows_v1 m ρ c, ← W1_v4 m ρ c, ← W3_v1 m ρ c, ← W2_of_ne m ρ c main_v4 (by decide), ← W3_of_ne m ρ c main_v4 (by decide)]
  exact (congrArg Cert.Spec.rowsOf ((W4_arr m ρ c 2).trans (ProjValue.array2 (V3 m ρ) c))).trans (rowsOf_prodT _ _)

/-- The later projections leave the earlier ones' results alone. -/
theorem W4_v7 (c : Dev nD) : W4 m ρ c (Proc.devRef .tc main_v7) = W2 m ρ c (Proc.devRef .tc main_v7) :=
  (W4_of_ne m ρ c main_v7 (by decide)).trans (W3_of_ne m ρ c main_v7 (by decide))
/-- Region 2 leaves region 1's result alone. -/
theorem W4_v8 (c : Dev nD) : W4 m ρ c (Proc.devRef .tc main_v8) = W3 m ρ c (Proc.devRef .tc main_v8) :=
  W4_of_ne m ρ c main_v8 (by decide)

/-! ## Splitting and merging the two leading axes, read through the specification's readers -/

/-- An 8192 × 2048 array re-cast as 4 × 2048 × 2048, read by batch, row and feature, is the array read by rows. -/
theorem seqOf_split (y : S8192x2048.Idx → EReal) :
    Cert.Spec.seqOf (shapeCast S4x2048x2048 y shapeCasts_S8192x2048_S4x2048x2048) = Cert.Spec.rowsOf y := by
  funext b t d
  exact Cert.LibMergeRows.shapeCast_split_apply y _ b t d _ (by show 2048 * b.val + t.val = b.val * 2048 + t.val; omega)

/-- A 4 × 2048 × 2048 array re-cast as 8192 × 2048, read by rows, is the array read by batch, row and feature. -/
theorem rowsOf_merge (x : S4x2048x2048.Idx → EReal) :
    Cert.Spec.rowsOf (shapeCast S8192x2048 x shapeCasts_S4x2048x2048_S8192x2048) = Cert.Spec.seqOf x := by
  funext b t d
  exact Cert.LibMergeRows.shapeCast_merge_apply x _ b t d _ (by show 2048 * b.val + t.val = b.val * 2048 + t.val; omega)

/-- An array given by its coordinates, read by its coordinates. -/
theorem seqOf_coords (g : Cert.Spec.Seq) : Cert.Spec.seqOf (fun idx : S4x2048x2048.Idx => g (idx 0) (idx 1) (idx 2)) = g := rfl

/-! ## The reshapes before the attention -/

/-- The query layer's rows, read as 4 sequences of 2048 rows. -/
theorem W5_v10 (c : Dev nD) : @Eq (S4x2048x2048.Idx → EReal) (W5 m ρ c (Proc.devRef .tc main_v10))
      (shapeCast S4x2048x2048 (W4 m ρ c (Proc.devRef .tc main_v7) : S8192x2048.Idx → EReal) shapeCasts_S8192x2048_S4x2048x2048) := by
  dsimp only [W5]; after_results; rfl

/-- The key layer's rows, read as 4 sequences of 2048 rows. -/
theorem W5_v11 (c : Dev nD) : @Eq (S4x2048x2048.Idx → EReal) (W5 m ρ c (Proc.devRef .tc main_v11))
      (shapeCast S4x2048x2048 (W4 m ρ c (Proc.devRef .tc main_v8) : S8192x2048.Idx → EReal) shapeCasts_S8192x2048_S4x2048x2048) := by
  dsimp only [W5]; after_results; rfl

/-- The value layer's rows, read as 4 sequences of 2048 rows. -/
theorem W5_v12 (c : Dev nD) : @Eq (S4x2048x2048.Idx → EReal) (W5 m ρ c (Proc.devRef .tc main_v12))
      (shapeCast S4x2048x2048 (W4 m ρ c (Proc.devRef .tc main_v9) : S8192x2048.Idx → EReal) shapeCasts_S8192x2048_S4x2048x2048) := by
  dsimp only [W5]; after_results; rfl

/-- The attention's query, key and value arrays are the three linear layers. -/
theorem seq_v10 (c : Dev nD) : Cert.Spec.seqOf (V5 m ρ c main_v10 : S4x2048x2048.Idx → EReal) = (Cert.Spec.proj (Cert.Spec.seqOf (m ((c : Thread nD τ).loc main_arg0))) (Cert.Spec.matOf (m ((c : Thread nD τ).loc main_arg1)))) :=
  (congrArg Cert.Spec.seqOf (W5_v10 m ρ c)).trans ((seqOf_split _).trans ((congrArg Cert.Spec.rowsOf (W4_v7 m ρ c)).trans (rows_v7 m ρ c)))
/-- The key array is the key layer. -/
theorem seq_v11 (c : Dev nD) : Cert.Spec.seqOf (V5 m ρ c main_v11 : S4x2048x2048.Idx → EReal) = (Cert.Spec.proj (Cert.Spec.seqOf (m ((c : Thread nD τ).loc main_arg0))) (Cert.Spec.matOf (m ((c : Thread nD τ).loc main_arg2)))) :=
  (congrArg Cert.Spec.seqOf (W5_v11 m ρ c)).trans ((seqOf_split _).trans ((congrArg Cert.Spec.rowsOf (W4_v8 m ρ c)).trans (rows_v8 m ρ c)))
/-- The value array is the value layer. -/
theorem seq_v12 (c : Dev nD) : Cert.Spec.seqOf (V5 m ρ c main_v12 : S4x2048x2048.Idx → EReal) = (Cert.Spec.proj (Cert.Spec.seqOf (m ((c : Thread nD τ).loc main_arg0))) (Cert.Spec.matOf (m ((c : Thread nD τ).loc main_arg3)))) :=
  (congrArg Cert.Spec.seqOf (W5_v12 m ρ c)).trans ((seqOf_split _).trans (rows_v9 m ρ c))

/-! ## The attention -/

/-- A linear layer of real data is real. -/
theorem proj_real (x : Cert.Spec.Seq) (w : Cert.Spec.Mat) (hx : ∀ b t d, ∃ r : ℝ, x b t d = (r : EReal))
    (hw : ∀ o d, ∃ r : ℝ, w o d = (r : EReal)) (b : Fin 4) (t o : Fin 2048) : ∃ r : ℝ, Cert.Spec.proj x w b t o = (r : EReal) := by
  choose xr hxr using hx
  choose wr hwr using hw
  refine ⟨∑ d : Fin 2048, xr b t d * wr o d, ?_⟩
  show (∑ d : Fin 2048, x b t d * w o d) = _
  rw [← RealOps.sum_mul_coe]
  exact Finset.sum_congr rfl fun d _ => by rw [hxr, hwr]

/-- An array whose reading by coordinates is real at every coordinate is real at every index. -/
theorem real_of_seqOf (f : S4x2048x2048.Idx → EReal) (g : Cert.Spec.Seq) (h : Cert.Spec.seqOf f = g)
    (hg : ∀ b t d, ∃ r : ℝ, g b t d = (r : EReal)) : ∀ idx, ∃ x : ℝ, f idx = (x : EReal) := by
  intro idx
  obtain ⟨r, hr⟩ := hg (idx 0) (idx 1) (idx 2)
  refine ⟨r, ?_⟩
  rw [← hr, ← h]
  exact congrArg f (eq_ix3 idx)

/-- Region 3 leaves the attention context of the three layers. -/
theorem W6_v13 (c : Dev nD) (hx0 : ∀ i, ∃ r : ℝ, (m ((c : Thread nD τ).loc main_arg0) : S4x2048x2048.Idx → EReal) i = (r : EReal))
    (hx1 : ∀ i, ∃ r : ℝ, (m ((c : Thread nD τ).loc main_arg1) : S2048x2048.Idx → EReal) i = (r : EReal))
    (hx2 : ∀ i, ∃ r : ℝ, (m ((c : Thread nD τ).loc main_arg2) : S2048x2048.Idx → EReal) i = (r : EReal))
    (hx3 : ∀ i, ∃ r : ℝ, (m ((c : Thread nD τ).loc main_arg3) : S2048x2048.Idx → EReal) i = (r : EReal)) :
    @Eq (S4x2048x2048.Idx → EReal) (W6 m ρ c (Proc.devRef .tc main_v13))
      (fun idx => Cert.Spec.ctx (Cert.Spec.proj (Cert.Spec.seqOf (m ((c : Thread nD τ).loc main_arg0))) (Cert.Spec.matOf (m ((c : Thread nD τ).loc main_arg1))))
      (Cert.Spec.proj (Cert.Spec.seqOf (m ((c : Thread nD τ).loc main_arg0))) (Cert.Spec.matOf (m ((c : Thread nD τ).loc main_arg2))))
      (Cert.Spec.proj (Cert.Spec.seqOf (m ((c : Thread nD τ).loc main_arg0))) (Cert.Spec.matOf (m ((c : Thread nD τ).loc main_arg3)))) (idx 0) (idx 1) (idx 2)) := by
  have hX : ∀ b t d, ∃ r : ℝ, Cert.Spec.seqOf (m ((c : Thread nD τ).loc main_arg0)) b t d = (r : EReal) := fun b t d => hx0 (ix3 b t d)
  have hQ := real_of_seqOf _ _ (seq_v10 m ρ c) (proj_real _ _ hX fun o d => hx1 (ix2 o d))
  have hK := real_of_seqOf _ _ (seq_v11 m ρ c) (proj_real _ _ hX fun o d => hx2 (ix2 o d))
  have hV := real_of_seqOf _ _ (seq_v12 m ρ c) (proj_real _ _ hX fun o d => hx3 (ix2 o d))
  refine (W6_arr m ρ c 3).trans ((attn_value (V5 m ρ) c hQ hK hV).trans ?_)
  funext idx
  show Cert.Spec.ctx (Cert.Spec.seqOf (V5 m ρ c main_v10 : S4x2048x2048.Idx → EReal))
    (Cert.Spec.seqOf (V5 m ρ c main_v11 : S4x2048x2048.Idx → EReal))
    (Cert.Spec.seqOf (V5 m ρ c main_v12 : S4x2048x2048.Idx → EReal)) (idx 0) (idx 1) (idx 2) = _
  rw [seq_v10 m ρ c, seq_v11 m ρ c, seq_v12 m ρ c]

/-! ## The reshape after the attention -/

/-- The attention context's 4 sequences of 2048 rows, laid out as 8192 rows. -/
theorem W7_v14 (c : Dev nD) : @Eq (S8192x2048.Idx → EReal) (W7 m ρ c (Proc.devRef .tc main_v14))
      (shapeCast S8192x2048 (W6 m ρ c (Proc.devRef .tc main_v13) : S4x2048x2048.Idx → EReal) shapeCasts_S4x2048x2048_S8192x2048) := by
  dsimp only [W7]; after_results; rfl

/-- The rows the output layer is entered with are the attention context. -/
theorem rows_v14 (c : Dev nD) (hx0 : ∀ i, ∃ r : ℝ, (m ((c : Thread nD τ).loc main_arg0) : S4x2048x2048.Idx → EReal) i = (r : EReal))
    (hx1 : ∀ i, ∃ r : ℝ, (m ((c : Thread nD τ).loc main_arg1) : S2048x2048.Idx → EReal) i = (r : EReal))
    (hx2 : ∀ i, ∃ r : ℝ, (m ((c : Thread nD τ).loc main_arg2) : S2048x2048.Idx → EReal) i = (r : EReal))
    (hx3 : ∀ i, ∃ r : ℝ, (m ((c : Thread nD τ).loc main_arg3) : S2048x2048.Idx → EReal) i = (r : EReal)) :
    Cert.Spec.rowsOf (W7 m ρ c (Proc.devRef .tc main_v14)) = Cert.Spec.ctx (Cert.Spec.proj (Cert.Spec.seqOf (m ((c : Thread nD τ).loc main_arg0))) (Cert.Spec.matOf (m ((c : Thread nD τ).loc main_arg1))))
      (Cert.Spec.proj (Cert.Spec.seqOf (m ((c : Thread nD τ).loc main_arg0))) (Cert.Spec.matOf (m ((c : Thread nD τ).loc main_arg2))))
      (Cert.Spec.proj (Cert.Spec.seqOf (m ((c : Thread nD τ).loc main_arg0))) (Cert.Spec.matOf (m ((c : Thread nD τ).loc main_arg3)))) :=
  (congrArg Cert.Spec.rowsOf (W7_v14 m ρ c)).trans ((rowsOf_merge _).trans
    ((congrArg Cert.Spec.seqOf (W6_v13 m ρ c hx0 hx1 hx2 hx3)).trans (seqOf_coords _)))

/-! ## The output layer -/

/-- The output weight matrix and the bias row reach region 4 as the first stretch left them. -/
theorem W7_v5 (c : Dev nD) : W7 m ρ c (Proc.devRef .tc main_v5) = W1 m ρ c (Proc.devRef .tc main_v5) :=
  (W7_of_not_written m ρ c main_v5 (by decide)).trans ((W6_of_ne m ρ c main_v5 (by decide)).trans
    ((W5_of_not_written m ρ c main_v5 (by decide)).trans ((W4_of_ne m ρ c main_v5 (by decide)).trans
      ((W3_of_ne m ρ c main_v5 (by decide)).trans (W2_of_ne m ρ c main_v5 (by decide))))))
/-- The same of the bias row. -/
theorem W7_v6 (c : Dev nD) : W7 m ρ c (Proc.devRef .tc main_v6) = W1 m ρ c (Proc.devRef .tc main_v6) :=
  (W7_of_not_written m ρ c main_v6 (by decide)).trans ((W6_of_ne m ρ c main_v6 (by decide)).trans
    ((W5_of_not_written m ρ c main_v6 (by decide)).trans ((W4_of_ne m ρ c main_v6 (by decide)).trans
      ((W3_of_ne m ρ c main_v6 (by decide)).trans (W2_of_ne m ρ c main_v6 (by decide))))))

/-- Region 4 leaves, at row p and feature o, the row of its left array against row o of the output weights, plus
    the bias at o. -/
theorem W8_v15 (c : Dev nD) (p : Fin 8192) (o : Fin 2048) :
    at8192 (W8 m ρ c (Proc.devRef .tc main_v15)) p o
      = (∑ k : Fin 2048, at8192 (W7 m ρ c (Proc.devRef .tc main_v14)) p k * Cert.Spec.matOf (m ((c : Thread nD τ).loc main_arg4)) o k) + Cert.Spec.vecOf (m ((c : Thread nD τ).loc main_arg5)) o := by
  have h := (congrFun (W8_arr m ρ c 3) (ix2 p o)).trans (proj4_value (V7 m ρ) c p o)
  have e5 : @Eq (S2048x2048.Idx → EReal) (V7 m ρ c main_v5)
      (m ((c : Thread nD τ).loc main_arg4)) := (W7_v5 m ρ c).trans (W1_v5 m ρ c)
  have e6 : atRow (V7 m ρ c main_v6) o = Cert.Spec.vecOf (m ((c : Thread nD τ).loc main_arg5)) o :=
    (congrFun (W7_v6 m ρ c) (ix2 0 o)).trans (W1_v6 m ρ c o)
  rw [e5, e6] at h
  exact h

/-! ## The last reshape: the program's result -/

/-- The output layer's 8192 rows, read as 4 sequences of 2048 rows. -/
theorem W9_v16 (c : Dev nD) : @Eq (S4x2048x2048.Idx → EReal) (W9 m ρ c (Proc.devRef .tc main_v16))
      (shapeCast S4x2048x2048 (W8 m ρ c (Proc.devRef .tc main_v15) : S8192x2048.Idx → EReal) shapeCasts_S8192x2048_S4x2048x2048) := by
  dsimp only [W9]; after_results; rfl

/-- The program's result array, entry by entry, is the specification of the six argument arrays. -/
theorem kernel_value (c : Dev nD) (hx0 : ∀ i, ∃ r : ℝ, (m ((c : Thread nD τ).loc main_arg0) : S4x2048x2048.Idx → EReal) i = (r : EReal))
    (hx1 : ∀ i, ∃ r : ℝ, (m ((c : Thread nD τ).loc main_arg1) : S2048x2048.Idx → EReal) i = (r : EReal))
    (hx2 : ∀ i, ∃ r : ℝ, (m ((c : Thread nD τ).loc main_arg2) : S2048x2048.Idx → EReal) i = (r : EReal))
    (hx3 : ∀ i, ∃ r : ℝ, (m ((c : Thread nD τ).loc main_arg3) : S2048x2048.Idx → EReal) i = (r : EReal))
    (hx4 : ∀ i, ∃ r : ℝ, (m ((c : Thread nD τ).loc main_arg4) : S2048x2048.Idx → EReal) i = (r : EReal))
    (hx5 : ∀ i, ∃ r : ℝ, (m ((c : Thread nD τ).loc main_arg5) : S2048.Idx → EReal) i = (r : EReal))
    (b : Fin 4) (t : Fin 2048) (o : Fin 2048) :
    (W9 m ρ c (Proc.devRef .tc main_v16) : S4x2048x2048.Idx → EReal) (ix3 b t o)
      = Cert.Spec.out (Cert.Spec.seqOf (m ((c : Thread nD τ).loc main_arg0))) (Cert.Spec.matOf (m ((c : Thread nD τ).loc main_arg1))) (Cert.Spec.matOf (m ((c : Thread nD τ).loc main_arg2)))
          (Cert.Spec.matOf (m ((c : Thread nD τ).loc main_arg3))) (Cert.Spec.matOf (m ((c : Thread nD τ).loc main_arg4))) (Cert.Spec.vecOf (m ((c : Thread nD τ).loc main_arg5))) b t o := by
  have e1 : (W9 m ρ c (Proc.devRef .tc main_v16) : S4x2048x2048.Idx → EReal) (ix3 b t o)
      = at8192 (W8 m ρ c (Proc.devRef .tc main_v15)) ⟨2048 * b.val + t.val, by omega⟩ o :=
    (congrFun (W9_v16 m ρ c) (ix3 b t o)).trans (congrFun (congrFun (congrFun (seqOf_split _) b) t) o)
  have e2 : ∀ k : Fin 2048, at8192 (W7 m ρ c (Proc.devRef .tc main_v14)) ⟨2048 * b.val + t.val, by omega⟩ k
      = Cert.Spec.ctx (Cert.Spec.proj (Cert.Spec.seqOf (m ((c : Thread nD τ).loc main_arg0))) (Cert.Spec.matOf (m ((c : Thread nD τ).loc main_arg1))))
      (Cert.Spec.proj (Cert.Spec.seqOf (m ((c : Thread nD τ).loc main_arg0))) (Cert.Spec.matOf (m ((c : Thread nD τ).loc main_arg2))))
      (Cert.Spec.proj (Cert.Spec.seqOf (m ((c : Thread nD τ).loc main_arg0))) (Cert.Spec.matOf (m ((c : Thread nD τ).loc main_arg3)))) b t k :=
    fun k => congrFun (congrFun (congrFun (rows_v14 m ρ c hx0 hx1 hx2 hx3) b) t) k
  refine e1.trans ((W8_v15 m ρ c _ o).trans ?_)
  show _ = (∑ d : Fin 2048, Cert.Spec.ctx (Cert.Spec.proj (Cert.Spec.seqOf (m ((c : Thread nD τ).loc main_arg0))) (Cert.Spec.matOf (m ((c : Thread nD τ).loc main_arg1))))
      (Cert.Spec.proj (Cert.Spec.seqOf (m ((c : Thread nD τ).loc main_arg0))) (Cert.Spec.matOf (m ((c : Thread nD τ).loc main_arg2))))
      (Cert.Spec.proj (Cert.Spec.seqOf (m ((c : Thread nD τ).loc main_arg0))) (Cert.Spec.matOf (m ((c : Thread nD τ).loc main_arg3)))) b t d * Cert.Spec.matOf (m ((c : Thread nD τ).loc main_arg4)) o d) + Cert.Spec.vecOf (m ((c : Thread nD τ).loc main_arg5)) o
  refine congrArg (· + Cert.Spec.vecOf (m ((c : Thread nD τ).loc main_arg5)) o) (Finset.sum_congr rfl fun k _ => ?_)
  exact congrArg (· * Cert.Spec.matOf (m ((c : Thread nD τ).loc main_arg4)) o k) (e2 k)

end Cert.KernelIdeal.Hand

end
-- ==== Proof.RefSpecA.lean ====
/-
  The reference program up to its scaled, causally masked scores, read index by index.

  Each of the three linear layers is a plain sum over the input feature.  Reading the 2048 output features as
  16 heads of 128 lanes (a reshape followed by a transposition) only renames the coordinates: the entry at
  (b, h, i, e) is the layer's entry at row i, feature 128·h + e.  The score of query row i against key row j is the
  sum over the 128 lanes; the mask built from two iotas is set exactly where i < j, and there the score is replaced
  by −∞; dividing by the float nearest to √128 is multiplying by its reciprocal, which leaves −∞ where it is.
-/
import proofs.«137829_j2276332667508_2_alg».proof.Proof.Gen.ReferenceIdeal.Read
import proofs.«137829_j2276332667508_2_alg».proof.Proof.SpecRead
import Idealize.ShloMosaic.Lib.WordArith

noncomputable section

namespace Cert.ReferenceIdeal.RefValue

open Cert.ReferenceIdeal Cert.ReferenceIdeal.Gen Cert.ReferenceIdeal.Read Idealize.ShloMosaic Idealize.ShloMosaic.ValueIdx
open Cert.Spec
open scoped BigOperators

/-- The arrays of the program at the extended reals. -/
abbrev Arr (s : Shape) : Type := (⟨s, .f32⟩ : BufTy).Contents (Elt Ideal)

/-! ### The three linear layers -/

theorem lidx_proj (b : Fin 4) (t : Fin 2048) (o k : Fin 2048) : lidx_main_v0 (ix3 b t o) k = ix3 b t k :=
  funext fun a => Fin.ext (by match a with | ⟨0, _⟩ => rfl | ⟨1, _⟩ => rfl | ⟨2, _⟩ => rfl)

theorem ridx_proj (b : Fin 4) (t : Fin 2048) (o k : Fin 2048) : ridx_main_v0 (ix3 b t o) k = ix2 o k :=
  funext fun a => Fin.ext (by match a with | ⟨0, _⟩ => rfl | ⟨1, _⟩ => rfl)

/-- The query layer at (b, t, o). -/
theorem q_eq (x0 : Arr S4x2048x2048) (x1 : Arr S2048x2048) (b : Fin 4) (t o : Fin 2048) :
    val_main_v0 (F := Ideal) x0 x1 (ix3 b t o) = proj (seqOf x0) (matOf x1) b t o := by
  rw [val_main_v0_apply]
  exact Finset.sum_congr rfl fun k _ => by rw [lidx_proj, ridx_proj]; rfl

/-- The key layer at (b, t, o). -/
theorem k_eq (x0 : Arr S4x2048x2048) (x2 : Arr S2048x2048) (b : Fin 4) (t o : Fin 2048) :
    val_main_v1 (F := Ideal) x0 x2 (ix3 b t o) = proj (seqOf x0) (matOf x2) b t o := by
  rw [val_main_v1_apply]
  exact Finset.sum_congr rfl fun k _ => by rw [show lidx_main_v1 (ix3 b t o) k = ix3 b t k from lidx_proj b t o k, show ridx_main_v1 (ix3 b t o) k = ix2 o k from ridx_proj b t o k]; rfl

/-- The value layer at (b, t, o). -/
theorem v_eq (x0 : Arr S4x2048x2048) (x3 : Arr S2048x2048) (b : Fin 4) (t o : Fin 2048) :
    val_main_v2 (F := Ideal) x0 x3 (ix3 b t o) = proj (seqOf x0) (matOf x3) b t o := by
  rw [val_main_v2_apply]
  exact Finset.sum_congr rfl fun k _ => by rw [show lidx_main_v2 (ix3 b t o) k = ix3 b t k from lidx_proj b t o k, show ridx_main_v2 (ix3 b t o) k = ix2 o k from ridx_proj b t o k]; rfl

/-! ### The 2048 features as 16 heads of 128 lanes -/

/-- The entry (b, h, i, e) of the head layout is the entry at row i, feature 128·h + e. -/
theorem idx_heads (b : Fin 4) (h : Fin 16) (i : Fin 2048) (e : Fin 128) :
    idx_main_v3 (idx_main_v4 (ix4 b h i e)) = ix3 b i (lane h e) := by
  have hb := b.isLt; have hh := h.isLt; have hi := i.isLt; have he := e.isLt
  exact funext fun a => Fin.ext (by
    match a with
    | ⟨0, _⟩ => show (((b.val * 2048 + i.val) * 16 + h.val) * 128 + e.val) / 4194304 = b.val; omega
    | ⟨1, _⟩ => show (((b.val * 2048 + i.val) * 16 + h.val) * 128 + e.val) / 2048 % 2048 = i.val; omega
    | ⟨2, _⟩ => show (((b.val * 2048 + i.val) * 16 + h.val) * 128 + e.val) % 2048 = 128 * h.val + e.val; omega)

/-- The queries by head. -/
theorem qh_eq (x0 : Arr S4x2048x2048) (x1 : Arr S2048x2048) (b : Fin 4) (h : Fin 16) (i : Fin 2048) (e : Fin 128) :
    val_main_v4 (F := Ideal) x0 x1 (ix4 b h i e) = proj (seqOf x0) (matOf x1) b i (lane h e) := by
  rw [val_main_v4_apply, val_main_v3_apply, idx_heads, q_eq]

/-- The keys by head. -/
theorem kh_eq (x0 : Arr S4x2048x2048) (x2 : Arr S2048x2048) (b : Fin 4) (h : Fin 16) (i : Fin 2048) (e : Fin 128) :
    val_main_v6 (F := Ideal) x0 x2 (ix4 b h i e) = proj (seqOf x0) (matOf x2) b i (lane h e) := by
  rw [val_main_v6_apply, val_main_v5_apply,
    show idx_main_v5 (idx_main_v6 (ix4 b h i e)) = ix3 b i (lane h e) from idx_heads b h i e, k_eq]

/-- The values by head. -/
theorem vh_eq (x0 : Arr S4x2048x2048) (x3 : Arr S2048x2048) (b : Fin 4) (h : Fin 16) (i : Fin 2048) (e : Fin 128) :
    val_main_v8 (F := Ideal) x0 x3 (ix4 b h i e) = proj (seqOf x0) (matOf x3) b i (lane h e) := by
  rw [val_main_v8_apply, val_main_v7_apply,
    show idx_main_v7 (idx_main_v8 (ix4 b h i e)) = ix3 b i (lane h e) from idx_heads b h i e, v_eq]

/-! ### The scores -/

theorem lidx_score (b : Fin 4) (h : Fin 16) (i j : Fin 2048) (e : Fin 128) :
    lidx_main_v9 (ix4 b h i j) e = ix4 b h i e :=
  funext fun a => Fin.ext (by match a with | ⟨0, _⟩ => rfl | ⟨1, _⟩ => rfl | ⟨2, _⟩ => rfl | ⟨3, _⟩ => rfl)

theorem ridx_score (b : Fin 4) (h : Fin 16) (i j : Fin 2048) (e : Fin 128) :
    ridx_main_v9 (ix4 b h i j) e = ix4 b h j e :=
  funext fun a => Fin.ext (by match a with | ⟨0, _⟩ => rfl | ⟨1, _⟩ => rfl | ⟨2, _⟩ => rfl | ⟨3, _⟩ => rfl)

/-- The score of query row i against key row j in head h: the sum over the 128 lanes. -/
theorem s_eq (x0 : Arr S4x2048x2048) (x1 x2 : Arr S2048x2048) (b : Fin 4) (h : Fin 16) (i j : Fin 2048) :
    val_main_v9 (F := Ideal) x0 x1 x2 (ix4 b h i j)
      = ∑ e : Fin 128, proj (seqOf x0) (matOf x1) b i (lane h e) * proj (seqOf x0) (matOf x2) b j (lane h e) := by
  rw [val_main_v9_apply]
  exact Finset.sum_congr rfl fun e _ => by rw [lidx_score, ridx_score, qh_eq, kh_eq]

/-! ### The causal mask -/

/-- On 32-bit words of numbers below 2048, the comparison i + 0 ≥ j fails exactly when i < j. -/
theorem word_lt (i j : Fin 2048) :
    IntOp.cmpi .sge (IntOp.addi (BitVec.ofNat 32 i.val) 0#32) (BitVec.ofNat 32 j.val)
      = if i.val < j.val then 0#1 else 1#1 := by
  have hi : (BitVec.ofNat 32 i.val).toInt = (i.val : Int) := WordArith.toInt_ofNat_small _ (by have := i.isLt; omega)
  have hj : (BitVec.ofNat 32 j.val).toInt = (j.val : Int) := WordArith.toInt_ofNat_small _ (by have := j.isLt; omega)
  unfold IntOp.cmpi IntOp.addi
  simp only [BitVec.add_zero, BitVec.sle, hi, hj]
  by_cases h : i.val < j.val
  · rw [if_pos h, decide_eq_false (by omega)]; rfl
  · rw [if_neg h, decide_eq_true (by omega)]; rfl

/-- The mask is set at (i, j) exactly when the key row j comes after the query row i. -/
theorem mask_eq (i j : Fin 2048) : val_main_v11 (F := Ideal) (ix2 i j) = if i.val < j.val then 1#1 else 0#1 := by
  rw [val_main_v11_apply, val_main_call0_v4_apply, val_main_call0_v2_apply, val_main_call0_v0_apply,
    val_main_call0_v1_apply, val_main_call0_c_apply, val_main_call0_v3_apply, val_main_call0_v5_apply,
    val_main_call0_c_0_apply, val_main_v10_apply, val_main_c_apply]
  show Scalar.select (IntOp.cmpi .sge (IntOp.addi (BitVec.ofNat 32 i.val) 0#32) (BitVec.ofNat 32 j.val)) 0#1 1#1 = _
  rw [word_lt]
  by_cases h : i.val < j.val
  · rw [if_pos h, if_pos h, select_zero]
  · rw [if_neg h, if_neg h, select_one]

/-- The pattern of −∞. -/
theorem ofBits_ninf : Ideal.ofBits .f32 0xFF800000#32 = ⊥ := by simp [Ideal.ofBits, Ideal.ieee]

/-- The pattern of the float nearest to √128: 11863283 / 2^20. -/
theorem ofBits_sqrt128 : Ideal.ofBits .f32 0x413504F3#32 = ((11863283 / 1048576 : ℝ) : EReal) := by
  simp [Ideal.ofBits, Ideal.ieee, -EReal.coe_mul]; norm_num

theorem idx_mask (b : Fin 4) (h : Fin 16) (i j : Fin 2048) : idx_main_call1_v1 (ix4 b h i j) = ix2 i j :=
  funext fun a => Fin.ext (by match a with | ⟨0, _⟩ => rfl | ⟨1, _⟩ => rfl)

/-- The masked score: −∞ where j comes after i, the score elsewhere. -/
theorem masked_eq (x0 : Arr S4x2048x2048) (x1 x2 : Arr S2048x2048) (b : Fin 4) (h : Fin 16) (i j : Fin 2048) :
    val_main_v12 (F := Ideal) x0 x1 x2 (ix4 b h i j)
      = if i.val < j.val then ⊥ else val_main_v9 (F := Ideal) x0 x1 x2 (ix4 b h i j) := by
  rw [val_main_v12_apply, val_main_call1_v1_apply, idx_mask, mask_eq, val_main_call1_v2_apply,
    val_main_call1_v0_apply, val_main_cst_apply]
  by_cases hij : i.val < j.val
  · rw [if_pos hij, if_pos hij, select_one]; exact ofBits_ninf
  · rw [if_neg hij, if_neg hij, select_zero]

/-- Dividing by the float nearest to √128 is multiplying by the scale; −∞ stays −∞. -/
theorem div_sqrt128 (x : EReal) : Ideal.div x (Ideal.ofBits .f32 0x413504F3#32) = x * scale := by
  rw [ofBits_sqrt128, Ideal.div_coe (by norm_num)]
  unfold scale
  congr 2; norm_num

theorem scale_pos : (0 : ℝ) < 1048576 / 11863283 := by norm_num

/-- The scaled, masked score is the specification's score row. -/
theorem scaled_eq (x0 : Arr S4x2048x2048) (x1 x2 : Arr S2048x2048) (b : Fin 4) (h : Fin 16) (i j : Fin 2048) :
    val_main_v14 (F := Ideal) x0 x1 x2 (ix4 b h i j)
      = scoreRow (proj (seqOf x0) (matOf x1)) (proj (seqOf x0) (matOf x2)) b h i j := by
  rw [val_main_v14_apply, val_main_v13_apply, val_main_cst_0_apply, masked_eq, s_eq]
  show Ideal.div _ (Ideal.ofBits .f32 0x413504F3#32) = _
  rw [div_sqrt128]
  unfold scoreRow
  by_cases hij : i.val < j.val
  · rw [if_pos hij, if_pos hij]; exact EReal.bot_mul_coe_of_pos scale_pos
  · rw [if_neg hij, if_neg hij]

/-- The scaled, masked scores of a query row, as a function of the key row. -/
theorem scaled_row (x0 : Arr S4x2048x2048) (x1 x2 : Arr S2048x2048) (b : Fin 4) (h : Fin 16) (i : Fin 2048) :
    (fun j : Fin 2048 => val_main_v14 (F := Ideal) x0 x1 x2 (ix4 b h i j))
      = scoreRow (proj (seqOf x0) (matOf x1)) (proj (seqOf x0) (matOf x2)) b h i :=
  funext fun j => scaled_eq x0 x1 x2 b h i j

end Cert.ReferenceIdeal.RefValue

end
-- ==== Proof.LibHostMax4.lean ====
/-
  A maximum along the last axis of a rank-four array, read at an index, on the extended reals.

  A one-operand reduction whose body is the maximum, taken from a rank-zero start value over the last axis of an
  a × b × c × d array x, is at every result index (p, q, r) the fold of max, from the start value's only element,
  over the entries x (p, q, r, k), k < d — in any order, because max commutes and associates.  The index of the
  array that the result index (p, q, r) with the coordinate k put back on the reduced axis names is (p, q, r, k).
  For any extents; nothing is evaluated.
-/
import Idealize.ShloMosaic.Lib.ValueIdx
import Idealize.ShloMosaic.PureOps.Reduce
import Idealize.ShloMosaic.PureOps.Ideal.Laws

noncomputable section

namespace Cert.LibHostMax4

open Idealize.ShloMosaic Idealize.ShloMosaic.ValueIdx

variable {a b c d : ℕ}

/-- Over (p, q, r), the coordinate k put on the last axis: the index (p, q, r, k). -/
theorem lift_last4 (h : (⟨4, ![a, b, c, d]⟩ : Shape).Reduces [3] ⟨3, ![a, b, c]⟩) (p : Fin a) (q : Fin b) (r : Fin c)
    (k : Fin d) : h.lift (ix3 p q r) k = ix4 p q r k := by
  funext e
  match e with
  | ⟨0, _⟩ => exact Fin.ext rfl
  | ⟨1, _⟩ => exact Fin.ext rfl
  | ⟨2, _⟩ => exact Fin.ext rfl
  | ⟨3, _⟩ => exact Fin.ext rfl

/-- The maximum along the last axis, read at (p, q, r): the fold of max over the entries x (p, q, r, k) from the
    start value. -/
theorem hostMax_last4 (x : (⟨4, ![a, b, c, d]⟩ : Shape).Idx → EReal) (init : (⟨0, ![]⟩ : Shape).Idx → EReal)
    (h' : (⟨4, ![a, b, c, d]⟩ : Shape).ReducesTo [3] ⟨3, ![a, b, c]⟩) (hu : 0 < (⟨0, ![]⟩ : Shape).numel)
    (p : Fin a) (q : Fin b) (r : Fin c) :
    Host.reduce (FloatOps.maximumf (F := Ideal) (φ := .f32)) x init h' hu (ix3 p q r)
      = (Finset.univ : Finset (Fin d)).fold max (init ix0) (fun k => x (ix4 p q r k)) := by
  have h : (⟨4, ![a, b, c, d]⟩ : Shape).Reduces [3] ⟨3, ![a, b, c]⟩ := ⟨h'.1, Nat.succ_pos 2, h'.2⟩
  refine (Host.reduce_eq_fold_single _ x init h' h hu (ix3 p q r)).trans ?_
  rw [eq_ix0 (Shape.Idx.first hu)]
  exact Finset.fold_congr fun k _ => congrArg x (lift_last4 h p q r k)

end Cert.LibHostMax4

end
-- ==== Proof.RefSpecB.lean ====
/-
  The reference program's softmax and attention context, read index by index.

  The row maximum is a fold of max from −∞ over the 2048 scaled scores of the row, joined with −∞ once more; the
  row is shifted by it and exponentiated, summed from 0, and divided by the sum: the row softmax of the
  specification's score row.  The context in head h, lane e, is the sum over the key rows of the softmax weights
  times the value rows; putting the heads back side by side, feature d belongs to head d / 128, lane d mod 128.
-/
import proofs.«137829_j2276332667508_2_alg».proof.Proof.RefSpecA
import proofs.«137829_j2276332667508_2_alg».proof.Proof.LibHostMax4

noncomputable section

namespace Cert.ReferenceIdeal.RefValue

open Cert.ReferenceIdeal Cert.ReferenceIdeal.Gen Cert.ReferenceIdeal.Read Idealize.ShloMosaic Idealize.ShloMosaic.ValueIdx
open Cert.Spec Cert.LibRowSoftmax Cert.LibHostMax4
open scoped BigOperators

/-! ### The row softmax -/

/-- The row maximum, from −∞ and joined with −∞. -/
theorem rmax_eq (x0 : Arr S4x2048x2048) (x1 x2 : Arr S2048x2048) (b : Fin 4) (h : Fin 16) (i : Fin 2048) :
    val_main_v17 (F := Ideal) x0 x1 x2 (ix3 b h i)
      = rowMax (fun j : Fin 2048 => val_main_v14 (F := Ideal) x0 x1 x2 (ix4 b h i j)) := by
  rw [val_main_v17_apply, val_main_v16_apply, val_main_cst_2_apply]
  unfold val_main_v15
  rw [hostMax_last4, val_main_cst_1_apply]
  show max (Ideal.ofBits .f32 0xFF800000#32) (Finset.fold max (Ideal.ofBits .f32 0xFF800000#32) _ _) = _
  rw [ofBits_ninf]
  rfl

theorem idx_col (b : Fin 4) (h : Fin 16) (i j : Fin 2048) : idx_main_v18 (idx_main_v19 (ix4 b h i j)) = ix3 b h i :=
  funext fun a => Fin.ext (by match a with | ⟨0, _⟩ => rfl | ⟨1, _⟩ => rfl | ⟨2, _⟩ => rfl)

/-- The exponential of the shifted score. -/
theorem exp_eq (x0 : Arr S4x2048x2048) (x1 x2 : Arr S2048x2048) (b : Fin 4) (h : Fin 16) (i j : Fin 2048) :
    val_main_v21 (F := Ideal) x0 x1 x2 (ix4 b h i j)
      = Ideal.exp (val_main_v14 (F := Ideal) x0 x1 x2 (ix4 b h i j)
          - rowMax (fun j : Fin 2048 => val_main_v14 (F := Ideal) x0 x1 x2 (ix4 b h i j))) := by
  rw [val_main_v21_apply, val_main_v20_apply, val_main_v19_apply, val_main_v18_apply, idx_col, rmax_eq]
  rfl

theorem idx_sum (b : Fin 4) (h : Fin 16) (i k : Fin 2048) : idx_main_v22 (ix3 b h i) k = ix4 b h i k :=
  funext fun a => Fin.ext (by match a with | ⟨0, _⟩ => rfl | ⟨1, _⟩ => rfl | ⟨2, _⟩ => rfl | ⟨3, _⟩ => rfl)

/-- The row's sum of exponentials, from 0. -/
theorem sum_eq (x0 : Arr S4x2048x2048) (x1 x2 : Arr S2048x2048) (b : Fin 4) (h : Fin 16) (i : Fin 2048) :
    val_main_v22 (F := Ideal) x0 x1 x2 (ix3 b h i)
      = 0 + ∑ k : Fin 2048, Ideal.exp (val_main_v14 (F := Ideal) x0 x1 x2 (ix4 b h i k)
          - rowMax (fun j : Fin 2048 => val_main_v14 (F := Ideal) x0 x1 x2 (ix4 b h i j))) := by
  rw [val_main_v22_apply, val_main_cst_3_apply]
  show Ideal.ofBits .f32 0x00000000#32 + _ = _
  rw [Ideal.ofBits_zero_f32]
  exact congrArg (fun s : EReal => 0 + s) (Finset.sum_congr rfl fun k _ => by rw [idx_sum, exp_eq])

theorem idx_col' (b : Fin 4) (h : Fin 16) (i j : Fin 2048) : idx_main_v23 (idx_main_v24 (ix4 b h i j)) = ix3 b h i :=
  funext fun a => Fin.ext (by match a with | ⟨0, _⟩ => rfl | ⟨1, _⟩ => rfl | ⟨2, _⟩ => rfl)

/-- The softmax weight of key row j for query row i in head h. -/
theorem soft_eq (x0 : Arr S4x2048x2048) (x1 x2 : Arr S2048x2048) (b : Fin 4) (h : Fin 16) (i j : Fin 2048) :
    val_main_v25 (F := Ideal) x0 x1 x2 (ix4 b h i j)
      = rowSoft (scoreRow (proj (seqOf x0) (matOf x1)) (proj (seqOf x0) (matOf x2)) b h i) j := by
  rw [val_main_v25_apply, val_main_v24_apply, val_main_v23_apply, idx_col', sum_eq, exp_eq, ← scaled_row]
  rfl

/-! ### The context -/

theorem lidx_ctx (b : Fin 4) (h : Fin 16) (i : Fin 2048) (e : Fin 128) (j : Fin 2048) :
    lidx_main_v26 (ix4 b h i e) j = ix4 b h i j :=
  funext fun a => Fin.ext (by match a with | ⟨0, _⟩ => rfl | ⟨1, _⟩ => rfl | ⟨2, _⟩ => rfl | ⟨3, _⟩ => rfl)

theorem ridx_ctx (b : Fin 4) (h : Fin 16) (i : Fin 2048) (e : Fin 128) (j : Fin 2048) :
    ridx_main_v26 (ix4 b h i e) j = ix4 b h j e :=
  funext fun a => Fin.ext (by match a with | ⟨0, _⟩ => rfl | ⟨1, _⟩ => rfl | ⟨2, _⟩ => rfl | ⟨3, _⟩ => rfl)

/-- The context in head h, lane e. -/
theorem ctxh_eq (x0 : Arr S4x2048x2048) (x1 x2 x3 : Arr S2048x2048) (b : Fin 4) (h : Fin 16) (i : Fin 2048) (e : Fin 128) :
    val_main_v26 (F := Ideal) x0 x1 x2 x3 (ix4 b h i e)
      = ∑ j : Fin 2048, rowSoft (scoreRow (proj (seqOf x0) (matOf x1)) (proj (seqOf x0) (matOf x2)) b h i) j
          * proj (seqOf x0) (matOf x3) b j (lane h e) := by
  rw [val_main_v26_apply]
  exact Finset.sum_congr rfl fun j _ => by rw [lidx_ctx, ridx_ctx, soft_eq, vh_eq]

/-- Feature d of the merged layout is lane d mod 128 of head d / 128. -/
theorem idx_merge (b : Fin 4) (t d : Fin 2048) :
    idx_main_v27 (idx_main_v28 (ix3 b t d)) = ix4 b (headOf d) t ⟨d.val % 128, Nat.mod_lt _ (by norm_num)⟩ := by
  have hb := b.isLt; have ht := t.isLt; have hd := d.isLt
  exact funext fun a => Fin.ext (by
    match a with
    | ⟨0, _⟩ => show ((b.val * 2048 + t.val) * 2048 + d.val) / 4194304 = b.val; omega
    | ⟨1, _⟩ => show ((b.val * 2048 + t.val) * 2048 + d.val) / 128 % 16 = d.val / 128; omega
    | ⟨2, _⟩ => show ((b.val * 2048 + t.val) * 2048 + d.val) / 2048 % 2048 = t.val; omega
    | ⟨3, _⟩ => show ((b.val * 2048 + t.val) * 2048 + d.val) % 128 = d.val % 128; omega)

theorem lane_headOf (d : Fin 2048) : lane (headOf d) ⟨d.val % 128, Nat.mod_lt _ (by norm_num)⟩ = d :=
  Fin.ext (by show 128 * (d.val / 128) + d.val % 128 = d.val; omega)

/-- The merged context is the specification's. -/
theorem ctx_eq (x0 : Arr S4x2048x2048) (x1 x2 x3 : Arr S2048x2048) (b : Fin 4) (t d : Fin 2048) :
    val_main_v28 (F := Ideal) x0 x1 x2 x3 (ix3 b t d)
      = ctx (proj (seqOf x0) (matOf x1)) (proj (seqOf x0) (matOf x2)) (proj (seqOf x0) (matOf x3)) b t d := by
  rw [val_main_v28_apply, val_main_v27_apply, idx_merge, ctxh_eq, lane_headOf]
  rfl

end Cert.ReferenceIdeal.RefValue

end
-- ==== Proof.RefSpec.lean ====
/-
  The reference program is the specification.

  The last linear layer is a plain sum over the 2048 context features and the bias is added to every row; with the
  earlier stages this makes the program's result at (b, t, o) the specification's layer of the argument arrays.
  Hence every execution of the program ends with the result array holding the specification at every index and the
  arguments as they were.
-/
import proofs.«137829_j2276332667508_2_alg».proof.Proof.RefSpecB

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.Spec
open scoped BigOperators

/-! ### The output layer -/

theorem lidx_out (b : Fin 4) (t o k : Fin 2048) : lidx_main_v29 (ix3 b t o) k = ix3 b t k :=
  funext fun a => Fin.ext (by match a with | ⟨0, _⟩ => rfl | ⟨1, _⟩ => rfl | ⟨2, _⟩ => rfl)

theorem ridx_out (b : Fin 4) (t o k : Fin 2048) : ridx_main_v29 (ix3 b t o) k = ix2 o k :=
  funext fun a => Fin.ext (by match a with | ⟨0, _⟩ => rfl | ⟨1, _⟩ => rfl)

theorem idx_bias (b : Fin 4) (t o : Fin 2048) : idx_main_v30 (idx_main_v31 (ix3 b t o)) = ix1 o :=
  funext fun a => Fin.ext (by match a with | ⟨0, _⟩ => rfl)

/-- The program's result at (b, t, o) is the specification's layer of the argument arrays. -/
theorem ref_eq (x0 : Arr S4x2048x2048) (x1 x2 x3 x4 : Arr S2048x2048) (x5 : Arr S2048)
    (b : Fin 4) (t : Fin 2048) (o : Fin 2048) :
    val_main_v32 (F := Ideal) x0 x1 x2 x3 x4 x5 (ix3 b t o)
      = out (seqOf x0) (matOf x1) (matOf x2) (matOf x3) (matOf x4) (vecOf x5) b t o := by
  rw [val_main_v32_apply, val_main_v29_apply, val_main_v31_apply, val_main_v30_apply, idx_bias]
  unfold out
  refine congrArg₂ (· + ·) ?_ rfl
  exact Finset.sum_congr rfl fun k _ => by rw [lidx_out, ridx_out, ctx_eq]; rfl

/-! ### The run -/

/-- The specification of the argument arrays, as an array. -/
def refOut (x0 : Arr S4x2048x2048) (x1 x2 x3 x4 : Arr S2048x2048) (x5 : Arr S2048) : Arr S4x2048x2048 :=
  fun idx => out (seqOf x0) (matOf x1) (matOf x2) (matOf x3) (matOf x4) (vecOf x5) (idx 0) (idx 1) (idx 2)

theorem refOut_apply (x0 : Arr S4x2048x2048) (x1 x2 x3 x4 : Arr S2048x2048) (x5 : Arr S2048)
    (b : Fin 4) (t : Fin 2048) (o : Fin 2048) :
    refOut x0 x1 x2 x3 x4 x5 (ix3 b t o)
      = out (seqOf x0) (matOf x1) (matOf x2) (matOf x3) (matOf x4) (vecOf x5) b t o := rfl

/-- The program's result array is the specification at every index. -/
theorem ref_val (x0 : Arr S4x2048x2048) (x1 x2 x3 x4 : Arr S2048x2048) (x5 : Arr S2048) :
    val_main_v32 (F := Ideal) x0 x1 x2 x3 x4 x5 = refOut x0 x1 x2 x3 x4 x5 :=
  funext fun idx =>
    (congrArg (val_main_v32 (F := Ideal) x0 x1 x2 x3 x4 x5) (eq_ix3 idx)).trans
      (ref_eq x0 x1 x2 x3 x4 x5 (idx 0) (idx 1) (idx 2))

/-- Every execution of the program ends with the result array holding the specification of the argument arrays,
    and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((val_main_v32_eq (F := Ideal) m c).trans (ref_val _ _ _ _ _ _)), (h c).2⟩)
    (Cert.ReferenceIdeal.Value.run (F := Ideal) m ρ)

end Cert.ReferenceIdeal.RefValue

end
-- ==== Proof.Finite.lean ====
/-
  From the precondition to real entries.  The precondition of the claim is the conjunction, over the six float
  inputs, of "every entry is below +infinity in absolute value".  Read over the extended reals, that test is 1 at an
  entry exactly when the entry is a real number; so under the precondition every entry of every input is a real.
-/
import proofs.«137829_j2276332667508_2_alg».proof.Pre_finite_inputs
import proofs.«137829_j2276332667508_2_alg».proof.Proof.Gen.Pre_finite_inputs
import proofs.«137829_j2276332667508_2_alg».proof.Proof.LibRealOps
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The rank-0 shape has one index. -/
instance : Subsingleton S_.Idx := ⟨fun a b => funext fun d => d.elim0⟩

/-- One array's test: where the conjunction over all entries of "|x| < +infinity" came out 1, every entry is a real. -/
theorem real_of_all {s : Shape} {axes : List (Fin s.rank)} (hb : S_.BroadcastsInDim s (![] : Fin 0 → Fin s.rank))
    (hr : s.ReducesTo axes S_) (h0 : 0 < S_.numel) (x : FVec Ideal s .f32)
    (e : Host.reduce IntOp.andi (cmpf .olt (Host.absf x) (broadcastInDim s ![] hb (constant (F := Ideal) S_ .f32 0x7F800000#32)))
        (constantI S_ 1 1#1) hr h0 ValueIdx.ix0 = 1#1) (i : s.Idx) : ∃ r : ℝ, x i = (r : EReal) :=
  (RealOps.cmp_abs_lt_inf (x i)).1 (Host.reduce_andi_all _ _ hr h0 ValueIdx.ix0 e i)

/-- Under the precondition every entry of the six inputs is a real number. -/
theorem real_of_pre (x0 : FVec Ideal S4x2048x2048 .f32) (x1 x2 x3 x4 : FVec Ideal S2048x2048 .f32) (x5 : FVec Ideal S2048 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h' := congrFun h ValueIdx.ix0
  dsimp only [fn, fn_part1, andi] at h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨real_of_all _ _ _ x0 e0, real_of_all _ _ _ x1 e1, real_of_all _ _ _ x2 e2, real_of_all _ _ _ x3 e3,
    real_of_all _ _ _ x4 e4, real_of_all _ _ _ x5 e5⟩

end Cert.Finite

end
-- ==== Proof.lean ====
/-
  The five claims of this certificate.

  The program: three linear layers (query, key, value) computed block by block on the matrix unit from operands
  rounded to bf16, a tiled causal attention that keeps, per query row, a running maximum, a running sum of
  exponentials and a running weighted sum of value rows while it walks the key tiles up to the diagonal, and a last
  linear layer with a bias.  On the extended reals every rounding is the identity and every tile-by-tile sum is the
  plain sum, so each stage is the stage of the specification (Spec.lean): the linear layers are sums over the
  contracted feature, the attention is the softmax of the causally masked, scaled score row against the value rows
  (the online recurrence equals the two-pass softmax because, the inputs being finite, every score is a real number
  or −∞ and the score at key position 0 is real), and the reference computes the same stages by host operations.

  The frames of the two kernel programs are the launch over @main's nine segments (four stretches of host
  operations, five kernel regions), each region entered with every window's array at the previous boundary's contents
  and left with its output array at what the write-backs leave; the three scratch buffers of the attention region ride
  its invariant at the recurrence's state.  The reference's frame is its run with the result dropped.  The two named
  constants are the ideal pass's two ledger entries.
-/
import proofs.«137829_j2276332667508_2_alg».proof.Defs
import proofs.«137829_j2276332667508_2_alg».proof.Proof.Gen.Kernel
import proofs.«137829_j2276332667508_2_alg».proof.Proof.Gen.KernelIdeal
import proofs.«137829_j2276332667508_2_alg».proof.Proof.Gen.ReferenceIdeal
import proofs.«137829_j2276332667508_2_alg».proof.Proof.Gen.ReferenceIdeal.Run
import proofs.«137829_j2276332667508_2_alg».proof.Proof.Gen.ReferenceIdeal.Read
import proofs.«137829_j2276332667508_2_alg».proof.Proof.Gen.Pre_finite_inputs
import proofs.«137829_j2276332667508_2_alg».proof.Proof.K.ProjBody
import proofs.«137829_j2276332667508_2_alg».proof.Proof.K.AttnBody
import proofs.«137829_j2276332667508_2_alg».proof.Proof.K.Run
import proofs.«137829_j2276332667508_2_alg».proof.Proof.KI.ProjBody
import proofs.«137829_j2276332667508_2_alg».proof.Proof.KI.AttnBody
import proofs.«137829_j2276332667508_2_alg».proof.Proof.KI.Run
import proofs.«137829_j2276332667508_2_alg».proof.Proof.KI.Compose
import proofs.«137829_j2276332667508_2_alg».proof.Proof.RefSpec
import proofs.«137829_j2276332667508_2_alg».proof.Proof.Finite
import Idealize.ShloMosaic.PureOps.IdealRules
import Idealize.ShloMosaic.Adequacy
import Idealize.ShloMosaic.Init

noncomputable section

namespace Cert.Proof

open Idealize.ShloMosaic Idealize.ShloMosaic.ValueIdx Idealize.SL.Sem

/-- The word-level program runs and leaves its six argument arrays as launched. -/
theorem frame_k : Cert.frame_Kernel := fun m ρ _ =>
  Cert.Kernel.Hand.frame m ρ Cert.Kernel.Hand.body_obligation0 Cert.Kernel.Hand.body_obligation1 Cert.Kernel.Hand.body_obligation2
    Cert.Kernel.Hand.body_obligation3 Cert.Kernel.Hand.body_obligation4 Cert.Kernel.Hand.hin3 Cert.Kernel.Hand.hout3

/-- So does the idealized program. -/
theorem frame_ki : Cert.frame_KernelIdeal := fun m ρ _ =>
  Cert.KernelIdeal.Hand.frame m ρ Cert.KernelIdeal.Hand.body_obligation0 Cert.KernelIdeal.Hand.body_obligation1 Cert.KernelIdeal.Hand.body_obligation2
    Cert.KernelIdeal.Hand.body_obligation3 Cert.KernelIdeal.Hand.body_obligation4 Cert.KernelIdeal.Hand.hin3 Cert.KernelIdeal.Hand.hout3

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass's two entries: the score scale is the reciprocal of the float nearest to √128, and the mask's fill
    is −∞. -/
theorem preserves : Cert.preserves_Kernel_KernelIdeal :=
  ⟨IdealRules.named_const.statement Cert.KernelIdeal.κ "inv_sqrt_d" .f32 0x3DB504F3#32 ((1048576 / 11863283 : ℝ) : EReal) rfl,
   IdealRules.named_const.statement Cert.KernelIdeal.κ "neg_big" .f32 0xFF333332#32 ⊥ rfl⟩

/-- The two idealized programs, from memories agreeing on the six arguments, end with the same result: both are the
    specification's output of the arguments. -/
theorem algebraic : Cert.algebraic_KernelIdeal_ReferenceIdeal := by
  intro m ρ m' ρ' hpre hagree
  refine ⟨fun c => Cert.KernelIdeal.Hand.W9 m ρ c (Proc.devRef .tc Cert.KernelIdeal.main_v16), ?_, ?_⟩
  · exact Cert.KernelIdeal.Hand.run_post m ρ Cert.KernelIdeal.Hand.body_obligation0 Cert.KernelIdeal.Hand.body_obligation1
      Cert.KernelIdeal.Hand.body_obligation2 Cert.KernelIdeal.Hand.body_obligation3 Cert.KernelIdeal.Hand.body_obligation4
      Cert.KernelIdeal.Hand.hin3 Cert.KernelIdeal.Hand.hout3 (fun s h c =>
        ⟨h c _ (Cert.KernelIdeal.Hand.mem_uc Cert.KernelIdeal.main_v16 (by decide)),
         (h c _ (Cert.KernelIdeal.Hand.mem_uc Cert.KernelIdeal.main_arg0 (by decide))).trans (Cert.KernelIdeal.Hand.W9_main_arg0 m ρ c),
         (h c _ (Cert.KernelIdeal.Hand.mem_uc Cert.KernelIdeal.main_arg1 (by decide))).trans (Cert.KernelIdeal.Hand.W9_main_arg1 m ρ c),
         (h c _ (Cert.KernelIdeal.Hand.mem_uc Cert.KernelIdeal.main_arg2 (by decide))).trans (Cert.KernelIdeal.Hand.W9_main_arg2 m ρ c),
         (h c _ (Cert.KernelIdeal.Hand.mem_uc Cert.KernelIdeal.main_arg3 (by decide))).trans (Cert.KernelIdeal.Hand.W9_main_arg3 m ρ c),
         (h c _ (Cert.KernelIdeal.Hand.mem_uc Cert.KernelIdeal.main_arg4 (by decide))).trans (Cert.KernelIdeal.Hand.W9_main_arg4 m ρ c),
         (h c _ (Cert.KernelIdeal.Hand.mem_uc Cert.KernelIdeal.main_arg5 (by decide))).trans (Cert.KernelIdeal.Hand.W9_main_arg5 m ρ c)⟩)
  · refine (θ_run Cert.ReferenceIdeal.defs _ _).mono (fun r h c => ⟨(h c).1.trans ?_, (h c).2⟩)
      (Cert.ReferenceIdeal.RefValue.ref_run m' ρ')
    obtain ⟨r0, r1, r2, r3, r4, r5⟩ := Cert.Finite.real_of_pre _ _ _ _ _ _ (hpre c)
    obtain ⟨a0, a1, a2, a3, a4, a5⟩ := hagree c
    rw [a0, a1, a2, a3, a4, a5]
    funext idx
    obtain ⟨b, t, o, rfl⟩ : ∃ (b : Fin 4) (t o : Fin 2048), idx = ix3 b t o := ⟨idx 0, idx 1, idx 2, eq_ix3 idx⟩
    exact (Cert.KernelIdeal.Hand.kernel_value m ρ c r0 r1 r2 r3 r4 r5 b t o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
